-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S1x128 : Shape := ⟨2, ![1, 128]⟩
abbrev S256x256 : Shape := ⟨2, ![256, 256]⟩
abbrev S256 : Shape := ⟨1, ![256]⟩
abbrev S1280x1280 : Shape := ⟨2, ![1280, 1280]⟩
abbrev S1280 : Shape := ⟨1, ![1280]⟩
abbrev S128x1280 : Shape := ⟨2, ![128, 1280]⟩
abbrev S128 : Shape := ⟨1, ![128]⟩
abbrev S2x400000 : Shape := ⟨2, ![2, 400000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S1x128 : S_.BroadcastsInDim S1x128 (![] : Fin 0 → Fin S1x128.rank)
  reducesTo_S1x128_S_d0_1 : S1x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_
  bcast_S_S128x1280 : S_.BroadcastsInDim S128x1280 (![] : Fin 0 → Fin S128x1280.rank)
  reducesTo_S128x1280_S_d0_1 : S128x1280.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128 .f32) (main_arg13 : FVec F S128 .f32) (main_v48 : IVec S_ 1) (main_v49 : FVec F S128x1280 .f32) (main_v50 : FVec F S128x1280 .f32) : IVec S_ 1 :=
  let main_v51 : IVec S128x1280 1 := cmpf .olt main_v49 main_v50
  let main_c_19 : IVec S_ 1 := constantI S_ 1 1#1
  let main_v52 : IVec S_ 1 := (fun x v => Host.reduce IntOp.andi x v reducesTo_S128x1280_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S256 .f32) (main_arg8 : FVec F S1280x1280 .f32) (main_arg9 : FVec F S1280 .f32) (main_arg10 : FVec F S128x1280 .f32) (main_arg11 : FVec F S128 .f32) (main_arg12 : FVec F S128 .f32) (main_arg13 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1280x1280 .f32 := Host.absf main_arg8
  let main_cst_14 : FVec F S_ .f32 := constant S_ .f32 0x7F800000#32
  let main_v40 : FVec F S1280x1280 .f32 := broadcastInDim S1280x1280 ![] bcast_S_S1280x1280 main_cst_14
  let main_v41 : IVec S1280x1280 1 := cmpf .olt main_v39 main_v40
  let main_c_15 : IVec S_ 1 := constantI S_ 1 1#1
  let main_v42 : IVec S_ 1 := (fun x v => Host.reduce IntOp.andi x v reducesTo_S1280x1280_S_d0_1 h_S_) main_v41 main_c_15
  let main_v43 : IVec S_ 1 := andi main_v38 main_v42
  let main_v44 : FVec F S1280 .f32 := Host.absf main_arg9
  let main_cst_16 : FVec F S_ .f32 := constant S_ .f32 0x7F800000#32
  let main_v45 : FVec F S1280 .f32 := broadcastInDim S1280 ![] bcast_S_S1280 main_cst_16
  let main_v46 : IVec S1280 1 := cmpf .olt main_v44 main_v45
  let main_c_17 : IVec S_ 1 := constantI S_ 1 1#1
  let main_v47 : IVec S_ 1 := (fun x v => Host.reduce IntOp.andi x v reducesTo_S1280_S_d0 h_S_) main_v46 main_c_17
  let main_v48 : IVec S_ 1 := andi main_v43 main_v47
  let main_v49 : FVec F S128x1280 .f32 := Host.absf main_arg10
  let main_cst_18 : FVec F S_ .f32 := constant S_ .f32 0x7F800000#32
  let main_v50 : FVec F S128x1280 .f32 := broadcastInDim S128x1280 ![] bcast_S_S128x1280 main_cst_18
  fn_part3 (F := F) main_arg11 main_arg12 main_arg13 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S1280x1280 .f32) (main_arg9 : FVec F S1280 .f32) (main_arg10 : FVec F S128x1280 .f32) (main_arg11 : FVec F S128 .f32) (main_arg12 : FVec F S128 .f32) (main_arg13 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S50000x128 .f32) (main_arg2 : FVec F S400000x128 .f32) (main_arg3 : FVec F S1x128 .f32) (main_arg4 : FVec F S256x256 .f32) (main_arg5 : FVec F S256 .f32) (main_arg6 : FVec F S256x256 .f32) (main_arg7 : FVec F S256 .f32) (main_arg8 : FVec F S1280x1280 .f32) (main_arg9 : FVec F S1280 .f32) (main_arg10 : FVec F S128x1280 .f32) (main_arg11 : FVec F S128 .f32) (main_arg12 : FVec F S128 .f32) (main_arg13 : FVec F S128 .f32) (main_arg14 : IVec S2x400000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S400000x128 .f32 := Host.absf main_arg2
  let main_cst_2 : FVec F S_ .f32 := constant S_ .f32 0x7F800000#32
  let main_v10 : FVec F S400000x128 .f32 := broadcastInDim S400000x128 ![] bcast_S_S400000x128 main_cst_2
  let main_v11 : IVec S400000x128 1 := cmpf .olt main_v9 main_v10
  let main_c_3 : IVec S_ 1 := constantI S_ 1 1#1
  let main_v12 : IVec S_ 1 := (fun x v => Host.reduce IntOp.andi x v reducesTo_S400000x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S400000x128 : Shape := ⟨2, ![400000, 128]⟩
abbrev S1x128 : Shape := ⟨2, ![1, 128]⟩
abbrev S256x256 : Shape := ⟨2, ![256, 256]⟩
abbrev S256 : Shape := ⟨1, ![256]⟩
abbrev S1280x1280 : Shape := ⟨2, ![1280, 1280]⟩
abbrev S1280 : Shape := ⟨1, ![1280]⟩
abbrev S128x1280 : Shape := ⟨2, ![128, 1280]⟩
abbrev S128 : Shape := ⟨1, ![128]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x256 : Shape := ⟨2, ![1, 256]⟩
abbrev S400000x256 : Shape := ⟨2, ![400000, 256]⟩
abbrev S3200x128 : Shape := ⟨2, ![3200, 128]⟩
abbrev S3200x256 : Shape := ⟨2, ![3200, 256]⟩
abbrev S50000 : Shape := ⟨1, ![50000]⟩
abbrev S50000x1 : Shape := ⟨2, ![50000, 1]⟩
abbrev S400000x512 : Shape := ⟨2, ![400000, 512]⟩
abbrev S50000x512 : Shape := ⟨2, ![50000, 512]⟩
abbrev S50000x256 : Shape := ⟨2, ![50000, 256]⟩
abbrev S1280x128 : Shape := ⟨2, ![1280, 128]⟩
abbrev S1x1280 : Shape := ⟨2, ![1, 1280]⟩
abbrev S1000x256 : Shape := ⟨2, ![1000, 256]⟩
abbrev S1000x1 : Shape := ⟨2, ![1000, 1]⟩
abbrev S1000x128 : Shape := ⟨2, ![1000, 128]⟩
abbrev S1000x1280 : Shape := ⟨2, ![1000, 1280]⟩

abbrev nBuf : Space → Nat
  | .hbm => 113
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S400000x128, .f32⟩
  | .hbm, ⟨3, _⟩ => ⟨S1x128, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1280x1280, .f32⟩
  | .hbm, ⟨9, _⟩ => ⟨S1280, .f32⟩
  | .hbm, ⟨10, _⟩ => ⟨S128x1280, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S2x400000, .i32⟩
  | .hbm, ⟨15, _⟩ => ⟨S1x400000, .i32⟩
  | .hbm, ⟨16, _⟩ => ⟨S400000, .i32⟩
  | .hbm, ⟨17, _⟩ => ⟨S1x400000, .i32⟩
  | .hbm, ⟨18, _⟩ => ⟨S400000, .i32⟩
  | .hbm, ⟨19, _⟩ => ⟨S_, .i32⟩
  | .hbm, ⟨20, _⟩ => ⟨S400000, .i32⟩
  | .hbm, ⟨21, _⟩ => ⟨S400000, .i1⟩
  | .hbm, ⟨22, _⟩ => ⟨S_, .i32⟩
  | .hbm, ⟨23, _⟩ => ⟨S400000, .i32⟩
  | .hbm, ⟨24, _⟩ => ⟨S400000, .i32⟩
  | .hbm, ⟨25, _⟩ => ⟨S400000, .i32⟩
  | .hbm, ⟨26, _⟩ => ⟨S400000x1, .i32⟩
  | .hbm, ⟨27, _⟩ => ⟨S400000x128, .f32⟩
  | .hbm, ⟨28, _⟩ => ⟨S256x256, .f32⟩
  | .hbm, ⟨29, _⟩ => ⟨S256x256, .bf16⟩
  | .hbm, ⟨30, _⟩ => ⟨S256x256, .f32⟩
  | .hbm, ⟨31, _⟩ => ⟨S256x256, .bf16⟩
  | .hbm, ⟨32, _⟩ => ⟨S1x256, .f32⟩
  | .hbm, ⟨33, _⟩ => ⟨S1x256, .f32⟩
  | .hbm, ⟨34, _⟩ => ⟨S400000x256, .f32⟩
  | .hbm, ⟨35, _⟩ => ⟨S_, .f32⟩
  | .hbm, ⟨36, _⟩ => ⟨S400000, .f32⟩
  | .hbm, ⟨37, _⟩ => ⟨S_, .f32⟩
  | .hbm, ⟨38, _⟩ => ⟨S50000, .f32⟩
  | .hbm, ⟨39, _⟩ => ⟨S400000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S400000x256, .f32⟩
  | .hbm, ⟨46, _⟩ => ⟨S400000x512, .f32⟩
  | .hbm, ⟨47, _⟩ => ⟨S_, .f32⟩
  | .hbm, ⟨48, _⟩ => ⟨S50000x512, .f32⟩
  | .hbm, ⟨49, _⟩ => ⟨S400000x1, .i32⟩
  | .hbm, ⟨50, _⟩ => ⟨S50000x512, .f32⟩
  | .hbm, ⟨51, _⟩ => ⟨S50000x256, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .i32⟩
  | .hbm, ⟨56, _⟩ => ⟨S400000, .i32⟩
  | .hbm, ⟨57, _⟩ => ⟨S400000, .i1⟩
  | .hbm, ⟨58, _⟩ => ⟨S_, .i32⟩
  | .hbm, ⟨59, _⟩ => ⟨S400000, .i32⟩
  | .hbm, ⟨60, _⟩ => ⟨S400000, .i32⟩
  | .hbm, ⟨61, _⟩ => ⟨S400000, .i32⟩
  | .hbm, ⟨62, _⟩ => ⟨S400000x1, .i32⟩
  | .hbm, ⟨63, _⟩ => ⟨S400000x256, .f32⟩
  | .hbm, ⟨64, _⟩ => ⟨S400000x256, .f32⟩
  | .hbm, ⟨65, _⟩ => ⟨S400000x256, .f32⟩
  | .hbm, ⟨66, _⟩ => ⟨S400000x256, .f32⟩
  | .hbm, ⟨67, _⟩ => ⟨S400000x256, .f32⟩
  | .hbm, ⟨68, _⟩ => ⟨S400000x256, .f32⟩
  | .hbm, ⟨69, _⟩ => ⟨S400000x512, .f32⟩
  | .hbm, ⟨70, _⟩ => ⟨S_, .f32⟩
  | .hbm, ⟨71, _⟩ => ⟨S50000x512, .f32⟩
  | .hbm, ⟨72, _⟩ => ⟨S400000x1, .i32⟩
  | .hbm, ⟨73, _⟩ => ⟨S50000x512, .f32⟩
  | .hbm, ⟨74, _⟩ => ⟨S50000x256, .f32⟩
  | .hbm, ⟨75, _⟩ => ⟨S50000x256, .f32⟩
  | .hbm, ⟨76, _⟩ => ⟨S1280x1280, .f32⟩
  | .hbm, ⟨77, _⟩ => ⟨S1280x1280, .bf16⟩
  | .hbm, ⟨78, _⟩ => ⟨S1280x128, .f32⟩
  | .hbm, ⟨79, _⟩ => ⟨S1280x128, .bf16⟩
  | .hbm, ⟨80, _⟩ => ⟨S1x1280, .f32⟩
  | .hbm, ⟨81, _⟩ => ⟨S1x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S3200x256, .f32⟩
  | .local _ .vmem, ⟨9, _⟩ => ⟨S3200x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x1, .f32⟩
  | .local _ .vmem, ⟨15, _⟩ => ⟨S1000x1, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x128, .f32⟩
  | .local _ .vmem, ⟨21, _⟩ => ⟨S1000x128, .f32⟩
  | .local _ .vmem, ⟨22, _⟩ => ⟨S1x128, .f32⟩
  | .local _ .vmem, ⟨23, _⟩ => ⟨S1280x1280, .bf16⟩
  | .local _ .vmem, ⟨24, _⟩ => ⟨S1x1280, .f32⟩
  | .local _ .vmem, ⟨25, _⟩ => ⟨S1280x128, .bf16⟩
  | .local _ .vmem, ⟨26, _⟩ => ⟨S1x128, .f32⟩
  | .local _ .vmem, ⟨27, _⟩ => ⟨S1000x128, .f32⟩
  | .local _ .vmem, ⟨28, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3200x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1280x1280 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1280 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1280x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  transposes_S256x256_S256x256_1_0 : S256x256.Transposes [1, 0] S256x256
  bitsLt_bf16_f32 : FTy.bits .bf16 < FTy.bits .f32
  shapeCasts_S256_S1x256 : S256.ShapeCasts S1x256
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  concatenates_S3200x128_S3200x128_S3200x256_d1 : Shape.Concatenates [S3200x128, S3200x128] S3200x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S3200x256_S3200x256_0_0 : ∀ a, (![0, 0] : Fin 2 → Nat) a + S3200x256.size a ≤ S3200x256.size a
  h_S3200x256 : 0 < S3200x256.numel
  bcast_S_S50000 : S_.BroadcastsInDim S50000 (![] : Fin 0 → Fin S50000.rank)
  shapeCasts_S50000_S50000x1 : S50000.ShapeCasts S50000x1
  concatenates_S400000x256_S400000x256_S400000x512_d1 : Shape.Concatenates [S400000x256, S400000x256] S400000x512 1
  bcast_S_S50000x512 : S_.BroadcastsInDim S50000x512 (![] : Fin 0 → Fin S50000x512.rank)
  slices_S50000x512_S50000x256_0_0 : S50000x512.Slices ![0, 0] S50000x256
  slices_S50000x512_S50000x256_0_256 : S50000x512.Slices ![0, 256] S50000x256
  bcast_S50000x1_S50000x256_0_1 : S50000x1.BroadcastsInDim S50000x256 (![0, 1] : Fin 2 → Fin S50000x256.rank)
  transposes_S1280x1280_S1280x1280_1_0 : S1280x1280.Transposes [1, 0] S1280x1280
  transposes_S128x1280_S1280x128_1_0 : S128x1280.Transposes [1, 0] S1280x128
  shapeCasts_S1280_S1x1280 : S1280.ShapeCasts S1x1280
  shapeCasts_S128_S1x128 : S128.ShapeCasts S1x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  broadcasts_S1000x1_S1000x256 : S1000x1.Broadcasts S1000x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  concatenates_S1000x128_S1000x256_S1000x256_S1000x256_S1000x256_S1000x128_S1000x1280_d1 : Shape.Concatenates [S1000x128, S1000x256, S1000x256, S1000x256, S1000x256, S1000x128] S1000x1280 1
  inb_S1280x1280_S1280x1280_0_0 : ∀ a, (![0, 0] : Fin 2 → Nat) a + S1280x1280.size a ≤ S1280x1280.size a
  h_S1280x1280 : 0 < S1280x1280.numel
  shapeCasts_S1280x1280_S1280x1280 : S1280x1280.ShapeCasts S1280x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1000x1280 : S1x1280.Broadcasts S1000x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S3200x256_S256x256_S3200x256_1_0_0_1_n_n_wf : DotDims.WF S3200x256 S256x256 S3200x256 [1] [0] [0] [1] [] []
  scatter_S50000_S400000x1_S400000_n_0_0_1_wf : ScatterDims.WF S50000 S400000x1 S400000 [] [0] [0] 1
  scatter_S50000x512_S400000x1_S400000x512_1_0_0_1_wf : ScatterDims.WF S50000x512 S400000x1 S400000x512 [1] [0] [0] 1
  gather_S50000x256_S400000x1_S400000x256_1_0_n_n_0_1_1256_wf : GatherDims.WF S50000x256 S400000x1 S400000x256 [1] [0] [] [0] [] 1 ![1, 256]
  dot_S1000x1280_S1280x1280_S1000x1280_1_0_0_1_n_n_wf : DotDims.WF S1000x1280 S1280x1280 S1000x1280 [1] [0] [0] [1] [] []
  dot_S1000x1280_S1280x128_S1000x128_1_0_0_1_n_n_wf : DotDims.WF S1000x1280 S1280x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3200x256.size a ≤ S400000x256.size a
  hwx0_6 : ∀ i : grid0.Coords, EltTy.bits .f32 = 32 ∨ (Rect.block (s := S400000x256) S3200x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S50000x256.size a
  hwx1_1 : ∀ i : grid1.Coords, EltTy.bits .f32 = 32 ∨ (Rect.block (s := S50000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S50000x256.size a
  hwx1_3 : ∀ i : grid1.Coords, EltTy.bits .f32 = 32 ∨ (Rect.block (s := S50000x256) S1000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S50000x256.size a
  hwx1_4 : ∀ i : grid1.Coords, EltTy.bits .f32 = 32 ∨ (Rect.block (s := S50000x256) S1000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x128.size a ≤ S50000x128.size a
  hwx1_5 : ∀ i : grid1.Coords, EltTy.bits .f32 = 32 ∨ (Rect.block (s := S50000x128) S1000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1280x1280.size a ≤ S1280x1280.size a
  hwx1_7 : ∀ i : grid1.Coords, EltTy.bits .bf16 = 32 ∨ (Rect.block (s := S1280x1280) S1280x1280.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1280.size a ≤ S1x1280.size a
  hwx1_8 : ∀ i : grid1.Coords, EltTy.bits .f32 = 32 ∨ (Rect.block (s := S1x1280) S1x1280.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1280x128.size a ≤ S1280x128.size a
  hwx1_9 : ∀ i : grid1.Coords, EltTy.bits .bf16 = 32 ∨ (Rect.block (s := S1280x128) S1280x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x128.size a ≤ S50000x128.size a
  hwx1_11 : ∀ i : grid1.Coords, EltTy.bits .f32 = 32 ∨ (Rect.block (s := S50000x128) S1000x128.size (cc1_transform_11 i) (hinb1_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S1000x1280_S1280x1280_S1000x1280_1_0_0_1_n_n : DotDims S1000x1280 S1280x1280 S1000x1280 where
  lhsContracting := [1]
  rhsContracting := [0]
  lhsNonContracting := [0]
  rhsNonContracting := [1]
  lhsBatch := []
  rhsBatch := []
  wf := dot_S1000x1280_S1280x1280_S1000x1280_1_0_0_1_n_n_wf
def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S3200x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1000x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S1280x1280.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v56) S1x1280.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v55) S1280x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v57) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v58) S1000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S1x128 : Shape := ⟨2, ![1, 128]⟩
abbrev S256x256 : Shape := ⟨2, ![256, 256]⟩
abbrev S256 : Shape := ⟨1, ![256]⟩
abbrev S1280x1280 : Shape := ⟨2, ![1280, 1280]⟩
abbrev S1280 : Shape := ⟨1, ![1280]⟩
abbrev S128x1280 : Shape := ⟨2, ![128, 1280]⟩
abbrev S128 : Shape := ⟨1, ![128]⟩
abbrev S2x400000 : Shape := ⟨2, ![2, 400000]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S50000 : Shape := ⟨1, ![50000]⟩
abbrev S50000x256 : Shape := ⟨2, ![50000, 256]⟩
abbrev S50000x1 : Shape := ⟨2, ![50000, 1]⟩
abbrev S50000x1280 : Shape := ⟨2, ![50000, 1280]⟩
abbrev S1x1280 : Shape := ⟨2, ![1, 1280]⟩
abbrev S1280x128 : Shape := ⟨2, ![1280, 128]⟩

abbrev nBuf : Space → Nat
  | .hbm => 237
  | .vmem => 0
  | .smem => 0
  | _ => 0

abbrev hbmTy0_0 (i : Nat) : BufTy := match i % 128 with
  | 0 => ⟨S50000x128, .f32⟩
  | 1 => ⟨S50000x128, .f32⟩
  | 2 => ⟨S400000x128, .f32⟩
  | 3 => ⟨S1x128, .f32⟩
  | 4 => ⟨S256x256, .f32⟩
  | 5 => ⟨S256, .f32⟩
  | 6 => ⟨S256x256, .f32⟩
  | 7 => ⟨S256, .f32⟩
  | 8 => ⟨S1280x1280, .f32⟩
  | 9 => ⟨S1280, .f32⟩
  | 10 => ⟨S128x1280, .f32⟩
  | 11 => ⟨S128, .f32⟩
  | 12 => ⟨S128, .f32⟩
  | 13 => ⟨S128, .f32⟩
  | 14 => ⟨S2x400000, .i32⟩
  | 15 => ⟨S1x400000, .i32⟩
  | 16 => ⟨S400000, .i32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x128, .f32⟩
  | 28 => ⟨S400000x256, .f32⟩
  | 29 => ⟨S256x256, .f32⟩
  | 30 => ⟨S400000x256, .f32⟩
  | 31 => ⟨S1x256, .f32⟩
  | 32 => ⟨S400000x256, .f32⟩
  | 33 => ⟨S400000x256, .f32⟩
  | 34 => ⟨S_, .f32⟩
  | 35 => ⟨S_, .f32⟩
  | 36 => ⟨S400000x256, .f32⟩
  | 37 => ⟨S400000x256, .i1⟩
  | 38 => ⟨S_, .f32⟩
  | 39 => ⟨S400000x256, .f32⟩
  | 40 => ⟨S400000x256, .f32⟩
  | 41 => ⟨S400000x256, .f32⟩
  | 42 => ⟨S256x256, .f32⟩
  | 43 => ⟨S400000x256, .f32⟩
  | 44 => ⟨S1x256, .f32⟩
  | 45 => ⟨S400000x256, .f32⟩
  | 46 => ⟨S400000x256, .f32⟩
  | 47 => ⟨S_, .f32⟩
  | 48 => ⟨S400000, .f32⟩
  | 49 => ⟨S_, .f32⟩
  | 50 => ⟨S50000, .f32⟩
  | 51 => ⟨S400000x1, .i32⟩
  | 52 => ⟨S50000, .f32⟩
  | 53 => ⟨S_, .f32⟩
  | 54 => ⟨S50000, .f32⟩
  | 55 => ⟨S50000, .f32⟩
  | 56 => ⟨S_, .f32⟩
  | 57 => ⟨S50000x256, .f32⟩
  | 58 => ⟨S400000x1, .i32⟩
  | 59 => ⟨S50000x256, .f32⟩
  | 60 => ⟨S50000x1, .f32⟩
  | 61 => ⟨S50000x256, .f32⟩
  | 62 => ⟨S50000x256, .f32⟩
  | 63 => ⟨S400000x256, .f32⟩
  | 64 => ⟨S_, .f32⟩
  | 65 => ⟨S50000x256, .f32⟩
  | 66 => ⟨S400000x1, .i32⟩
  | 67 => ⟨S50000x256, .f32⟩
  | 68 => ⟨S50000x1, .f32⟩
  | 69 => ⟨S50000x256, .f32⟩
  | 70 => ⟨S50000x256, .f32⟩
  | 71 => ⟨S50000x256, .f32⟩
  | 72 => ⟨S50000x256, .f32⟩
  | 73 => ⟨S_, .f32⟩
  | 74 => ⟨S_, .f32⟩
  | 75 => ⟨S50000x256, .f32⟩
  | 76 => ⟨S50000x256, .i1⟩
  | 77 => ⟨S_, .f32⟩
  | 78 => ⟨S50000x256, .f32⟩
  | 79 => ⟨S50000x256, .f32⟩
  | 80 => ⟨S50000x256, .f32⟩
  | 81 => ⟨S_, .f32⟩
  | 82 => ⟨S50000x256, .f32⟩
  | 83 => ⟨S50000x256, .f32⟩
  | 84 => ⟨S50000x256, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x256, .f32⟩
  | 94 => ⟨S400000x256, .f32⟩
  | 95 => ⟨S400000x256, .f32⟩
  | 96 => ⟨S400000x256, .f32⟩
  | 97 => ⟨S_, .f32⟩
  | 98 => ⟨S50000x256, .f32⟩
  | 99 => ⟨S400000x1, .i32⟩
  | 100 => ⟨S50000x256, .f32⟩
  | 101 => ⟨S50000x1, .f32⟩
  | 102 => ⟨S50000x256, .f32⟩
  | 103 => ⟨S50000x256, .f32⟩
  | 104 => ⟨S50000x256, .f32⟩
  | 105 => ⟨S50000x256, .f32⟩
  | 106 => ⟨S50000x256, .f32⟩
  | 107 => ⟨S400000x256, .f32⟩
  | 108 => ⟨S400000x256, .f32⟩
  | 109 => ⟨S_, .f32⟩
  | 110 => ⟨S50000x256, .f32⟩
  | 111 => ⟨S400000x1, .i32⟩
  | 112 => ⟨S50000x256, .f32⟩
  | 113 => ⟨S50000x1, .f32⟩
  | 114 => ⟨S50000x256, .f32⟩
  | 115 => ⟨S50000x256, .f32⟩
  | 116 => ⟨S50000x256, .f32⟩
  | 117 => ⟨S50000x256, .f32⟩
  | 118 => ⟨S50000x256, .f32⟩
  | 119 => ⟨S50000x256, .i1⟩
  | 120 => ⟨S_, .f32⟩
  | 121 => ⟨S50000x256, .f32⟩
  | 122 => ⟨S50000x256, .f32⟩
  | 123 => ⟨S_, .f32⟩
  | 124 => ⟨S50000x256, .f32⟩
  | 125 => ⟨S50000x256, .i1⟩
  | 126 => ⟨S_, .f32⟩
  | 127 => ⟨S50000x256, .f32⟩
  | _ => ⟨S50000x128, .f32⟩

abbrev hbmTy0_1 (i : Nat) : BufTy := match i % 128 with
  | 0 => ⟨S50000x256, .f32⟩
  | 1 => ⟨S_, .f32⟩
  | 2 => ⟨S50000x256, .f32⟩
  | 3 => ⟨S50000x256, .i1⟩
  | 4 => ⟨S_, .f32⟩
  | 5 => ⟨S50000x256, .f32⟩
  | 6 => ⟨S50000x256, .f32⟩
  | 7 => ⟨S50000x256, .i1⟩
  | 8 => ⟨S_, .f32⟩
  | 9 => ⟨S50000x256, .f32⟩
  | 10 => ⟨S50000x256, .f32⟩
  | 11 => ⟨S_, .f32⟩
  | 12 => ⟨S50000x256, .f32⟩
  | 13 => ⟨S50000x256, .i1⟩
  | 14 => ⟨S_, .f32⟩
  | 15 => ⟨S50000x256, .f32⟩
  | 16 => ⟨S50000x256, .f32⟩
  | 17 => ⟨S_, .f32⟩
  | 18 => ⟨S50000x256, .f32⟩
  | 19 => ⟨S50000x256, .i1⟩
  | 20 => ⟨S_, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S50000x256, .f32⟩
  | 27 => ⟨S50000x256, .i1⟩
  | 28 => ⟨S_, .f32⟩
  | 29 => ⟨S50000x256, .f32⟩
  | 30 => ⟨S50000x256, .f32⟩
  | 31 => ⟨S_, .f32⟩
  | 32 => ⟨S50000x256, .f32⟩
  | 33 => ⟨S50000x256, .i1⟩
  | 34 => ⟨S_, .f32⟩
  | 35 => ⟨S50000x256, .f32⟩
  | 36 => ⟨S50000x256, .f32⟩
  | 37 => ⟨S_, .f32⟩
  | 38 => ⟨S50000x256, .f32⟩
  | 39 => ⟨S50000x256, .i1⟩
  | 40 => ⟨S_, .f32⟩
  | 41 => ⟨S50000x256, .f32⟩
  | 42 => ⟨S50000x256, .f32⟩
  | 43 => ⟨S50000x256, .i1⟩
  | 44 => ⟨S_, .f32⟩
  | 45 => ⟨S50000x256, .f32⟩
  | 46 => ⟨S50000x256, .f32⟩
  | 47 => ⟨S_, .f32⟩
  | 48 => ⟨S50000x256, .f32⟩
  | 49 => ⟨S50000x256, .i1⟩
  | 50 => ⟨S_, .f32⟩
  | 51 => ⟨S50000x256, .f32⟩
  | 52 => ⟨S50000x256, .f32⟩
  | 53 => ⟨S_, .f32⟩
  | 54 => ⟨S50000x256, .f32⟩
  | 55 => ⟨S50000x256, .i1⟩
  | 56 => ⟨S_, .f32⟩
  | 57 => ⟨S50000x256, .f32⟩
  | 58 => ⟨S50000x256, .f32⟩
  | 59 => ⟨S50000x128, .f32⟩
  | 60 => ⟨S50000x1280, .f32⟩
  | 61 => ⟨S1280x1280, .f32⟩
  | 62 => ⟨S50000x1280, .f32⟩
  | 63 => ⟨S1x1280, .f32⟩
  | 64 => ⟨S50000x1280, .f32⟩
  | 65 => ⟨S50000x1280, .f32⟩
  | 66 => ⟨S_, .f32⟩
  | 67 => ⟨S_, .f32⟩
  | 68 => ⟨S50000x1280, .f32⟩
  | 69 => ⟨S50000x1280, .i1⟩
  | 70 => ⟨S_, .f32⟩
  | 71 => ⟨S50000x1280, .f32⟩
  | 72 => ⟨S50000x1280, .f32⟩
  | 73 => ⟨S50000x1280, .f32⟩
  | 74 => ⟨S1280x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S128, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_1 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_3 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v44 : Ref sig .tc := ⟨.hbm, 80, rfl⟩
abbrev main_cst_7 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_8 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_10 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_11 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_call2_v0 : Ref sig .tc := ⟨.hbm, 119, rfl⟩
abbrev main_call2_cst : Ref sig .tc := ⟨.hbm, 120, rfl⟩
abbrev main_call2_call0_v0 : Ref sig .tc := ⟨.hbm, 121, rfl⟩
abbrev main_call2_v1 : Ref sig .tc := ⟨.hbm, 122, rfl⟩
abbrev main_call2_cst_0 : Ref sig .tc := ⟨.hbm, 123, rfl⟩
abbrev main_call2_v2 : Ref sig .tc := ⟨.hbm, 124, rfl⟩
abbrev main_call2_v3 : Ref sig .tc := ⟨.hbm, 125, rfl⟩
abbrev main_call2_cst_1 : Ref sig .tc := ⟨.hbm, 126, rfl⟩
abbrev main_call2_call1_v0 : Ref sig .tc := ⟨.hbm, 127, rfl⟩
abbrev main_call2_v4 : Ref sig .tc := ⟨.hbm, 128, rfl⟩
abbrev main_call2_cst_2 : Ref sig .tc := ⟨.hbm, 129, rfl⟩
abbrev main_call2_v5 : Ref sig .tc := ⟨.hbm, 130, rfl⟩
abbrev main_call2_v6 : Ref sig .tc := ⟨.hbm, 131, rfl⟩
abbrev main_call2_cst_3 : Ref sig .tc := ⟨.hbm, 132, rfl⟩
abbrev main_call2_call2_v0 : Ref sig .tc := ⟨.hbm, 133, rfl⟩
abbrev main_v78 : Ref sig .tc := ⟨.hbm, 134, rfl⟩
abbrev main_call3_v0 : Ref sig .tc := ⟨.hbm, 135, rfl⟩
abbrev main_call3_cst : Ref sig .tc := ⟨.hbm, 136, rfl⟩
abbrev main_call3_call0_v0 : Ref sig .tc := ⟨.hbm, 137, rfl⟩
abbrev main_call3_v1 : Ref sig .tc := ⟨.hbm, 138, rfl⟩
abbrev main_call3_cst_0 : Ref sig .tc := ⟨.hbm, 139, rfl⟩
abbrev main_call3_v2 : Ref sig .tc := ⟨.hbm, 140, rfl⟩
abbrev main_call3_v3 : Ref sig .tc := ⟨.hbm, 141, rfl⟩
abbrev main_call3_cst_1 : Ref sig .tc := ⟨.hbm, 142, rfl⟩
abbrev main_call3_call1_v0 : Ref sig .tc := ⟨.hbm, 143, rfl⟩
abbrev main_call3_v4 : Ref sig .tc := ⟨.hbm, 144, rfl⟩
abbrev main_call3_cst_2 : Ref sig .tc := ⟨.hbm, 145, rfl⟩
abbrev main_call3_v5 : Ref sig .tc := ⟨.hbm, 146, rfl⟩
abbrev main_call3_v6 : Ref sig .tc := ⟨.hbm, 147, rfl⟩
abbrev main_call3_cst_3 : Ref sig .tc := ⟨.hbm, 148, rfl⟩
abbrev main_call3_call2_v0 : Ref sig .tc := ⟨.hbm, 149, rfl⟩
abbrev main_v79 : Ref sig .tc := ⟨.hbm, 150, rfl⟩
abbrev main_cst_12 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_call4_v0 : Ref sig .tc := ⟨.hbm, 155, rfl⟩
abbrev main_call4_cst : Ref sig .tc := ⟨.hbm, 156, rfl⟩
abbrev main_call4_call0_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_call4_cst_1 : Ref sig .tc := ⟨.hbm, 162, rfl⟩
abbrev main_call4_call1_v0 : Ref sig .tc := ⟨.hbm, 163, rfl⟩
abbrev main_call4_v4 : Ref sig .tc := ⟨.hbm, 164, rfl⟩
abbrev main_call4_cst_2 : Ref sig .tc := ⟨.hbm, 165, rfl⟩
abbrev main_call4_v5 : Ref sig .tc := ⟨.hbm, 166, rfl⟩
abbrev main_call4_v6 : Ref sig .tc := ⟨.hbm, 167, rfl⟩
abbrev main_call4_cst_3 : Ref sig .tc := ⟨.hbm, 168, rfl⟩
abbrev main_call4_call2_v0 : Ref sig .tc := ⟨.hbm, 169, rfl⟩
abbrev main_v83 : Ref sig .tc := ⟨.hbm, 170, rfl⟩
abbrev main_call5_v0 : Ref sig .tc := ⟨.hbm, 171, rfl⟩
abbrev main_call5_cst : Ref sig .tc := ⟨.hbm, 172, rfl⟩
abbrev main_call5_call0_v0 : Ref sig .tc := ⟨.hbm, 173, rfl⟩
abbrev main_call5_v1 : Ref sig .tc := ⟨.hbm, 174, rfl⟩
abbrev main_call5_cst_0 : Ref sig .tc := ⟨.hbm, 175, rfl⟩
abbrev main_call5_v2 : Ref sig .tc := ⟨.hbm, 176, rfl⟩
abbrev main_call5_v3 : Ref sig .tc := ⟨.hbm, 177, rfl⟩
abbrev main_call5_cst_1 : Ref sig .tc := ⟨.hbm, 178, rfl⟩
abbrev main_call5_call1_v0 : Ref sig .tc := ⟨.hbm, 179, rfl⟩
abbrev main_call5_v4 : Ref sig .tc := ⟨.hbm, 180, rfl⟩
abbrev main_call5_cst_2 : Ref sig .tc := ⟨.hbm, 181, rfl⟩
abbrev main_call5_v5 : Ref sig .tc := ⟨.hbm, 182, rfl⟩
abbrev main_call5_v6 : Ref sig .tc := ⟨.hbm, 183, rfl⟩
abbrev main_call5_cst_3 : Ref sig .tc := ⟨.hbm, 184, rfl⟩
abbrev main_call5_call2_v0 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_cst_13 : Ref sig .tc := ⟨.hbm, 194, rfl⟩
abbrev main_call6_cst : Ref sig .tc := ⟨.hbm, 195, rfl⟩
abbrev main_call6_v0 : Ref sig .tc := ⟨.hbm, 196, rfl⟩
abbrev main_call6_v1 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_v96 : Ref sig .tc := ⟨.hbm, 205, rfl⟩
abbrev main_v97 : Ref sig .tc := ⟨.hbm, 206, rfl⟩
abbrev main_cst_14 : Ref sig .tc := ⟨.hbm, 207, rfl⟩
abbrev main_v98 : Ref sig .tc := ⟨.hbm, 208, rfl⟩
abbrev main_cst_15 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_cst_16 : Ref sig .tc := ⟨.hbm, 216, rfl⟩
abbrev main_v105 : Ref sig .tc := ⟨.hbm, 217, rfl⟩
abbrev main_cst_17 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_cst_18 : Ref sig .tc := ⟨.hbm, 224, rfl⟩
abbrev main_v111 : Ref sig .tc := ⟨.hbm, 225, rfl⟩
abbrev main_v112 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x256_d1 : Shape.Concatenates [S400000x128, S400000x128] S400000x256 1
  transposes_S256x256_S256x256_1_0 : S256x256.Transposes [1, 0] S256x256
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  bcast_S_S50000 : S_.BroadcastsInDim S50000 (![] : Fin 0 → Fin S50000.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x128_S50000x128_0_1 : S1x128.BroadcastsInDim S50000x128 (![0, 1] : Fin 2 → Fin S50000x128.rank)
  concatenates_S50000x128_S50000x256_S50000x256_S50000x256_S50000x256_S50000x128_S50000x1280_d1 : Shape.Concatenates [S50000x128, S50000x256, S50000x256, S50000x256, S50000x256, S50000x128] S50000x1280 1
  transposes_S1280x1280_S1280x1280_1_0 : S1280x1280.Transposes [1, 0] S1280x1280
  bcast_S1280_S1x1280_1 : S1280.BroadcastsInDim S1x1280 (![1] : Fin 1 → Fin S1x1280.rank)
  bcast_S1x1280_S50000x1280_0_1 : S1x1280.BroadcastsInDim S50000x1280 (![0, 1] : Fin 2 → Fin S50000x1280.rank)
  bcast_S_S50000x1280 : S_.BroadcastsInDim S50000x1280 (![] : Fin 0 → Fin S50000x1280.rank)
  transposes_S128x1280_S1280x128_1_0 : S128x1280.Transposes [1, 0] S1280x128
  bcast_S128_S1x128_1 : S128.BroadcastsInDim S1x128 (![1] : Fin 1 → Fin S1x128.rank)
  reducesTo_S50000x128_S128_d0 : S50000x128.ReducesTo [0] S128
  h_S_ : 0 < S_.numel
  bcast_S_S128 : S_.BroadcastsInDim S128 (![] : Fin 0 → Fin S128.rank)
  gather_S50000x128_S400000x1_S400000x128_1_0_n_n_0_1_1128_wf : GatherDims.WF S50000x128 S400000x1 S400000x128 [1] [0] [] [0] [] 1 ![1, 128]
  dot_S400000x256_S256x256_S400000x256_1_0_0_1_n_n_wf : DotDims.WF S400000x256 S256x256 S400000x256 [1] [0] [0] [1] [] []
  scatter_S50000_S400000x1_S400000_n_0_0_1_wf : ScatterDims.WF S50000 S400000x1 S400000 [] [0] [0] 1
  scatter_S50000x256_S400000x1_S400000x256_1_0_0_1_wf : ScatterDims.WF S50000x256 S400000x1 S400000x256 [1] [0] [0] 1
  gather_S50000x256_S400000x1_S400000x256_1_0_n_n_0_1_1256_wf : GatherDims.WF S50000x256 S400000x1 S400000x256 [1] [0] [] [0] [] 1 ![1, 256]
  dot_S50000x1280_S1280x1280_S50000x1280_1_0_0_1_n_n_wf : DotDims.WF S50000x1280 S1280x1280 S50000x1280 [1] [0] [0] [1] [] []
  dot_S50000x1280_S1280x128_S50000x128_1_0_0_1_n_n_wf : DotDims.WF S50000x1280 S1280x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S50000x1280_S1280x1280_S50000x1280_1_0_0_1_n_n : DotDims S50000x1280 S1280x1280 S50000x1280 where
  lhsContracting := [1]
  rhsContracting := [0]
  lhsNonContracting := [0]
  rhsNonContracting := [1]
  lhsBatch := []
  rhsBatch := []
  wf := dot_S50000x1280_S1280x1280_S50000x1280_1_0_0_1_n_n_wf
def dot_S50000x1280_S1280x128_S50000x128_1_0_0_1_n_n : DotDims S50000x1280 S1280x128 S50000x128 where
  lhsContracting := [1]
  rhsContracting := [0]
  lhsNonContracting := [0]
  rhsNonContracting := [1]
  lhsBatch := []
  rhsBatch := []
  wf := dot_S50000x1280_S1280x128_S50000x128_1_0_0_1_n_n_wf

class Facts : Prop extends Facts₀ where

variable [Facts]
-- ==== Proof.RefOps.lean ====
/-
  The reference program's host operations, in order, as lists. Each operation of @main is listed as printed; a call of a
  module-local function is listed as that function's own operations over the call's buffers (a function called inside it
  likewise), which is what running the call does. The lists are cut after the operations writing the edge messages
  (main_v22), the first segment mean (main_v34), the end of @main's first window (main_v48), the fourth standardized
  moment (main_v77), the second dense layer (main_v97), the end of @main's second window (main_v101) and the result
  (main_v122).
-/
import proofs.«155120_j26276609917535_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 32 of 222. -/
abbrev opsA : List (HloOp τ sig (Elt F)) :=
  [ StableHlo.unary main_arg14 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg14 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v3 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v3 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v3 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg1 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.binary main_v10 main_arg2 main_v11 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)),
    StableHlo.unary main_arg4 main_v12 ((transpose S256x256 [1, 0] · transposes_S256x256_S256x256_1_0) : (⟨S256x256, .f32⟩ : BufTy).Contents (Elt F) → (⟨S256x256, .f32⟩ : BufTy).Contents (Elt F)),
    StableHlo.binary main_v11 main_v12 main_v13 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg5 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S400000x256 ![0, 1] bcast_S1x256_S400000x256_0_1 : (⟨S1x256, .f32⟩ : BufTy).Contents (Elt F) → (⟨S400000x256, .f32⟩ : BufTy).Contents (Elt F)),
    StableHlo.binary main_v13 main_v15 main_v16 (addf : (⟨S400000x256, .f32⟩ : BufTy).Contents (Elt F) → (⟨S400000x256, .f32⟩ : BufTy).Contents (Elt F) → (⟨S400000x256, .f32⟩ : BufTy).Contents (Elt F)),
    StableHlo.nullary main_cst (constant S_ .f32 0x3DCCCCCD#32),
    StableHlo.TRef.nullary main_call0.cst (constant S_ .f32 0x00000000#32),
    StableHlo.TRef.unary main_call0.cst main_call0.v0 (broadcastInDim S400000x256 ![] bcast_S_S400000x256),
    StableHlo.TRef.binary (StableHlo.TRef.of (T := ⟨S400000x256, .f32⟩) main_v16) main_call0.v0 main_call0.v1 (cmpf .oge),
    StableHlo.TRef.unary (StableHlo.TRef.of (T := ⟨S_, .f32⟩) main_cst) main_call0.v2 id,
    StableHlo.TRef.unary main_call0.v2 main_call0.v3 (broadcastInDim S400000x256 ![] bcast_S_S400000x256),
    StableHlo.TRef.binary main_call0.v3 (StableHlo.TRef.of (T := ⟨S400000x256, .f32⟩) main_v16) main_call0.v4 mulf,
    StableHlo.TRef.ternary main_call0.v1 (StableHlo.TRef.of (T := ⟨S400000x256, .f32⟩) main_v16) main_call0.v4 main_call0.call0.v0 select,
    StableHlo.unary main_arg6 main_v18 ((transpose S256x256 [1, 0] · transposes_S256x256_S256x256_1_0) : (⟨S256x256, .f32⟩ : BufTy).Contents (Elt F) → (⟨S256x256, .f32⟩ : BufTy).Contents (Elt F)),
    StableHlo.binary main_v17 main_v18 main_v19 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg7 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S400000x256 ![0, 1] bcast_S1x256_S400000x256_0_1 : (⟨S1x256, .f32⟩ : BufTy).Contents (Elt F) → (⟨S400000x256, .f32⟩ : BufTy).Contents (Elt F)),
    StableHlo.binary main_v19 main_v21 main_v22 (addf : (⟨S400000x256, .f32⟩ : BufTy).Contents (Elt F) → (⟨S400000x256, .f32⟩ : BufTy).Contents (Elt F) → (⟨S400000x256, .f32⟩ : BufTy).Contents (Elt F)) ]

/-- Operations 33 … 48 of 222. -/
abbrev opsB : List (HloOp τ sig (Elt F)) :=
  [ StableHlo.nullary main_cst_1 (constant S_ .f32 0x3F800000#32),
    StableHlo.unary main_cst_1 main_v23 (broadcastInDim S400000 ![] bcast_S_S400000 : (⟨S_, .f32⟩ : BufTy).Contents (Elt F) → (⟨S400000, .f32⟩ : BufTy).Contents (Elt F)),
    StableHlo.nullary main_cst_2 (constant S_ .f32 0x00000000#32),
    StableHlo.unary main_cst_2 main_v24 (broadcastInDim S50000 ![] bcast_S_S50000 : (⟨S_, .f32⟩ : BufTy).Contents (Elt F) → (⟨S50000, .f32⟩ : BufTy).Contents (Elt F)),
    StableHlo.unary main_v1 main_v25 (broadcastInDim S400000x1 ![0] bcast_S400000_S400000x1_0 : (⟨S400000, .i32⟩ : BufTy).Contents (Elt F) → (⟨S400000x1, .i32⟩ : BufTy).Contents (Elt F)),
    StableHlo.ternary main_v24 main_v25 main_v23 main_v26 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_3 (constant S_ .f32 0x3F800000#32),
    StableHlo.unary main_cst_3 main_v27 (broadcastInDim S50000 ![] bcast_S_S50000 : (⟨S_, .f32⟩ : BufTy).Contents (Elt F) → (⟨S50000, .f32⟩ : BufTy).Contents (Elt F)),
    StableHlo.binary main_v26 main_v27 main_v28 (maximumf : (⟨S50000, .f32⟩ : BufTy).Contents (Elt F) → (⟨S50000, .f32⟩ : BufTy).Contents (Elt F) → (⟨S50000, .f32⟩ : BufTy).Contents (Elt F)),
    StableHlo.nullary main_cst_4 (constant S_ .f32 0x00000000#32),
    StableHlo.unary main_cst_4 main_v29 (broadcastInDim S50000x256 ![] bcast_S_S50000x256 : (⟨S_, .f32⟩ : BufTy).Contents (Elt F) → (⟨S50000x256, .f32⟩ : BufTy).Contents (Elt F)),
    StableHlo.unary main_v1 main_v30 (broadcastInDim S400000x1 ![0] bcast_S400000_S400000x1_0 : (⟨S400000, .i32⟩ : BufTy).Contents (Elt F) → (⟨S400000x1, .i32⟩ : BufTy).Contents (Elt F)),
    StableHlo.ternary main_v29 main_v30 main_v22 main_v31 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v28 main_v32 (broadcastInDim S50000x1 ![0] bcast_S50000_S50000x1_0 : (⟨S50000, .f32⟩ : BufTy).Contents (Elt F) → (⟨S50000x1, .f32⟩ : BufTy).Contents (Elt F)),
    StableHlo.unary main_v32 main_v33 (broadcastInDim S50000x256 ![0, 1] bcast_S50000x1_S50000x256_0_1 : (⟨S50000x1, .f32⟩ : BufTy).Contents (Elt F) → (⟨S50000x256, .f32⟩ : BufTy).Contents (Elt F)),
    StableHlo.binary main_v31 main_v33 main_v34 (Host.divf : (⟨S50000x256, .f32⟩ : BufTy).Contents (Elt F) → (⟨S50000x256, .f32⟩ : BufTy).Contents (Elt F) → (⟨S50000x256, .f32⟩ : BufTy).Contents (Elt F)) ]

/-- Operations 49 … 72 of 222. -/
abbrev opsC1 : List (HloOp τ sig (Elt F)) :=
  [ StableHlo.binary main_v22 main_v22 main_v35 (mulf : (⟨S400000x256, .f32⟩ : BufTy).Contents (Elt F) → (⟨S400000x256, .f32⟩ : BufTy).Contents (Elt F) → (⟨S400000x256, .f32⟩ : BufTy).Contents (Elt F)),
    StableHlo.nullary main_cst_5 (constant S_ .f32 0x00000000#32),
    StableHlo.unary main_cst_5 main_v36 (broadcastInDim S50000x256 ![] bcast_S_S50000x256 : (⟨S_, .f32⟩ : BufTy).Contents (Elt F) → (⟨S50000x256, .f32⟩ : BufTy).Contents (Elt F)),
    StableHlo.unary main_v1 main_v37 (broadcastInDim S400000x1 ![0] bcast_S400000_S400000x1_0 : (⟨S400000, .i32⟩ : BufTy).Contents (Elt F) → (⟨S400000x1, .i32⟩ : BufTy).Contents (Elt F)),
    StableHlo.ternary main_v36 main_v37 main_v35 main_v38 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v28 main_v39 (broadcastInDim S50000x1 ![0] bcast_S50000_S50000x1_0 : (⟨S50000, .f32⟩ : BufTy).Contents (Elt F) → (⟨S50000x1, .f32⟩ : BufTy).Contents (Elt F)),
    StableHlo.unary main_v39 main_v40 (broadcastInDim S50000x256 ![0, 1] bcast_S50000x1_S50000x256_0_1 : (⟨S50000x1, .f32⟩ : BufTy).Contents (Elt F) → (⟨S50000x256, .f32⟩ : BufTy).Contents (Elt F)),
    StableHlo.binary main_v38 main_v40 main_v41 (Host.divf : (⟨S50000x256, .f32⟩ : BufTy).Contents (Elt F) → (⟨S50000x256, .f32⟩ : BufTy).Contents (Elt F) → (⟨S50000x256, .f32⟩ : BufTy).Contents (Elt F)),
    StableHlo.binary main_v34 main_v34 main_v42 (mulf : (⟨S50000x256, .f32⟩ : BufTy).Contents (Elt F) → (⟨S50000x256, .f32⟩ : BufTy).Contents (Elt F) → (⟨S50000x256, .f32⟩ : BufTy).Contents (Elt F)),
    StableHlo.binary main_v41 main_v42 main_v43 (subf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x3C23D70A#32),
    StableHlo.TRef.nullary main_call1.cst (constant S_ .f32 0x00000000#32),
    StableHlo.TRef.unary main_call1.cst main_call1.v0 (broadcastInDim S50000x256 ![] bcast_S_S50000x256),
    StableHlo.TRef.binary (StableHlo.TRef.of (T := ⟨S50000x256, .f32⟩) main_v43) main_call1.v0 main_call1.v1 (cmpf .oge),
    StableHlo.TRef.unary (StableHlo.TRef.of (T := ⟨S_, .f32⟩) main_cst_6) main_call1.v2 id,
    StableHlo.TRef.unary main_call1.v2 main_call1.v3 (broadcastInDim S50000x256 ![] bcast_S_S50000x256),
    StableHlo.TRef.binary main_call1.v3 (StableHlo.TRef.of (T := ⟨S50000x256, .f32⟩) main_v43) main_call1.v4 mulf,
    StableHlo.TRef.ternary main_call1.v1 (StableHlo.TRef.of (T := ⟨S50000x256, .f32⟩) main_v43) main_call1.v4 main_call1.call0.v0 select,
    StableHlo.nullary main_cst_7 (constant S_ .f32 0x358637BD#32),
    StableHlo.unary main_cst_7 main_v45 (broadcastInDim S50000x256 ![] bcast_S_S50000x256 : (⟨S_, .f32⟩ : BufTy).Contents (Elt F) → (⟨S50000x256, .f32⟩ : BufTy).Contents (Elt F)),
    StableHlo.binary main_v44 main_v45 main_v46 (addf : (⟨S50000x256, .f32⟩ : BufTy).Contents (Elt F) → (⟨S50000x256, .f32⟩ : BufTy).Contents (Elt F) → (⟨S50000x256, .f32⟩ : BufTy).Contents (Elt F)),
    StableHlo.unary main_v46 main_v47 (Host.sqrt : (⟨S50000x256, .f32⟩ : BufTy).Contents (Elt F) → (⟨S50000x256, .f32⟩ : BufTy).Contents (Elt F)),
    StableHlo.nullary main_c_8 (constantI S_ 32 0#32),
    StableHlo.unary main_c_8 main_v48 (broadcastInDim S400000 ![] bcast_S_S400000 : (⟨S_, .i32⟩ : BufTy).Contents (Elt F) → (⟨S400000, .i32⟩ : BufTy).Contents (Elt F)) ]

/-- Operations 73 … 104 of 222. -/
abbrev opsC2 : List (HloOp τ sig (Elt F)) :=
  [ StableHlo.binary main_v1 main_v48 main_v49 (cmpi .slt : (⟨S400000, .i32⟩ : BufTy).Contents (Elt F) → (⟨S400000, .i32⟩ : BufTy).Contents (Elt F) → (⟨S400000, .i1⟩ : BufTy).Contents (Elt F)),
    StableHlo.nullary main_c_9 (constantI S_ 32 50000#32),
    StableHlo.unary main_c_9 main_v50 (broadcastInDim S400000 ![] bcast_S_S400000 : (⟨S_, .i32⟩ : BufTy).Contents (Elt F) → (⟨S400000, .i32⟩ : BufTy).Contents (Elt F)),
    StableHlo.binary main_v1 main_v50 main_v51 (addi : (⟨S400000, .i32⟩ : BufTy).Contents (Elt F) → (⟨S400000, .i32⟩ : BufTy).Contents (Elt F) → (⟨S400000, .i32⟩ : BufTy).Contents (Elt F)),
    StableHlo.ternary main_v49 main_v51 main_v1 main_v52 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v52 main_v53 (broadcastInDim S400000x1 ![0] bcast_S400000_S400000x1_0 : (⟨S400000, .i32⟩ : BufTy).Contents (Elt F) → (⟨S400000x1, .i32⟩ : BufTy).Contents (Elt F)),
    StableHlo.binary main_v34 main_v53 main_v54 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.binary main_v22 main_v54 main_v55 (subf : (⟨S400000x256, .f32⟩ : BufTy).Contents (Elt F) → (⟨S400000x256, .f32⟩ : BufTy).Contents (Elt F) → (⟨S400000x256, .f32⟩ : BufTy).Contents (Elt F)),
    StableHlo.binary main_v55 main_v55 main_v56 (mulf : (⟨S400000x256, .f32⟩ : BufTy).Contents (Elt F) → (⟨S400000x256, .f32⟩ : BufTy).Contents (Elt F) → (⟨S400000x256, .f32⟩ : BufTy).Contents (Elt F)),
    StableHlo.binary main_v56 main_v55 main_v57 (mulf : (⟨S400000x256, .f32⟩ : BufTy).Contents (Elt F) → (⟨S400000x256, .f32⟩ : BufTy).Contents (Elt F) → (⟨S400000x256, .f32⟩ : BufTy).Contents (Elt F)),
    StableHlo.nullary main_cst_10 (constant S_ .f32 0x00000000#32),
    StableHlo.unary main_cst_10 main_v58 (broadcastInDim S50000x256 ![] bcast_S_S50000x256 : (⟨S_, .f32⟩ : BufTy).Contents (Elt F) → (⟨S50000x256, .f32⟩ : BufTy).Contents (Elt F)),
    StableHlo.unary main_v1 main_v59 (broadcastInDim S400000x1 ![0] bcast_S400000_S400000x1_0 : (⟨S400000, .i32⟩ : BufTy).Contents (Elt F) → (⟨S400000x1, .i32⟩ : BufTy).Contents (Elt F)),
    StableHlo.ternary main_v58 main_v59 main_v57 main_v60 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v28 main_v61 (broadcastInDim S50000x1 ![0] bcast_S50000_S50000x1_0 : (⟨S50000, .f32⟩ : BufTy).Contents (Elt F) → (⟨S50000x1, .f32⟩ : BufTy).Contents (Elt F)),
    StableHlo.unary main_v61 main_v62 (broadcastInDim S50000x256 ![0, 1] bcast_S50000x1_S50000x256_0_1 : (⟨S50000x1, .f32⟩ : BufTy).Contents (Elt F) → (⟨S50000x256, .f32⟩ : BufTy).Contents (Elt F)),
    StableHlo.binary main_v60 main_v62 main_v63 (Host.divf : (⟨S50000x256, .f32⟩ : BufTy).Contents (Elt F) → (⟨S50000x256, .f32⟩ : BufTy).Contents (Elt F) → (⟨S50000x256, .f32⟩ : BufTy).Contents (Elt F)),
    StableHlo.binary main_v47 main_v47 main_v64 (mulf : (⟨S50000x256, .f32⟩ : BufTy).Contents (Elt F) → (⟨S50000x256, .f32⟩ : BufTy).Contents (Elt F) → (⟨S50000x256, .f32⟩ : BufTy).Contents (Elt F)),
    StableHlo.binary main_v64 main_v47 main_v65 (mulf : (⟨S50000x256, .f32⟩ : BufTy).Contents (Elt F) → (⟨S50000x256, .f32⟩ : BufTy).Contents (Elt F) → (⟨S50000x256, .f32⟩ : BufTy).Contents (Elt F)),
    StableHlo.binary main_v63 main_v65 main_v66 (Host.divf : (⟨S50000x256, .f32⟩ : BufTy).Contents (Elt F) → (⟨S50000x256, .f32⟩ : BufTy).Contents (Elt F) → (⟨S50000x256, .f32⟩ : BufTy).Contents (Elt F)),
    StableHlo.binary main_v55 main_v55 main_v67 (mulf : (⟨S400000x256, .f32⟩ : BufTy).Contents (Elt F) → (⟨S400000x256, .f32⟩ : BufTy).Contents (Elt F) → (⟨S400000x256, .f32⟩ : BufTy).Contents (Elt F)),
    StableHlo.binary main_v67 main_v67 main_v68 (mulf : (⟨S400000x256, .f32⟩ : BufTy).Contents (Elt F) → (⟨S400000x256, .f32⟩ : BufTy).Contents (Elt F) → (⟨S400000x256, .f32⟩ : BufTy).Contents (Elt F)),
    StableHlo.nullary main_cst_11 (constant S_ .f32 0x00000000#32),
    StableHlo.unary main_cst_11 main_v69 (broadcastInDim S50000x256 ![] bcast_S_S50000x256 : (⟨S_, .f32⟩ : BufTy).Contents (Elt F) → (⟨S50000x256, .f32⟩ : BufTy).Contents (Elt F)),
    StableHlo.unary main_v1 main_v70 (broadcastInDim S400000x1 ![0] bcast_S400000_S400000x1_0 : (⟨S400000, .i32⟩ : BufTy).Contents (Elt F) → (⟨S400000x1, .i32⟩ : BufTy).Contents (Elt F)),
    StableHlo.ternary main_v69 main_v70 main_v68 main_v71 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_v28 main_v72 (broadcastInDim S50000x1 ![0] bcast_S50000_S50000x1_0 : (⟨S50000, .f32⟩ : BufTy).Contents (Elt F) → (⟨S50000x1, .f32⟩ : BufTy).Contents (Elt F)),
    StableHlo.unary main_v72 main_v73 (broadcastInDim S50000x256 ![0, 1] bcast_S50000x1_S50000x256_0_1 : (⟨S50000x1, .f32⟩ : BufTy).Contents (Elt F) → (⟨S50000x256, .f32⟩ : BufTy).Contents (Elt F)),
    StableHlo.binary main_v71 main_v73 main_v74 (Host.divf : (⟨S50000x256, .f32⟩ : BufTy).Contents (Elt F) → (⟨S50000x256, .f32⟩ : BufTy).Contents (Elt F) → (⟨S50000x256, .f32⟩ : BufTy).Contents (Elt F)),
    StableHlo.binary main_v47 main_v47 main_v75 (mulf : (⟨S50000x256, .f32⟩ : BufTy).Contents (Elt F) → (⟨S50000x256, .f32⟩ : BufTy).Contents (Elt F) → (⟨S50000x256, .f32⟩ : BufTy).Contents (Elt F)),
    StableHlo.binary main_v75 main_v75 main_v76 (mulf : (⟨S50000x256, .f32⟩ : BufTy).Contents (Elt F) → (⟨S50000x256, .f32⟩ : BufTy).Contents (Elt F) → (⟨S50000x256, .f32⟩ : BufTy).Contents (Elt F)),
    StableHlo.binary main_v74 main_v76 main_v77 (Host.divf : (⟨S50000x256, .f32⟩ : BufTy).Contents (Elt F) → (⟨S50000x256, .f32⟩ : BufTy).Contents (Elt F) → (⟨S50000x256, .f32⟩ : BufTy).Contents (Elt F)) ]

/-- Operations 105 … 192 of 222. -/
abbrev opsD : List (HloOp τ sig (Elt F)) :=
  [ StableHlo.TRef.binary (StableHlo.TRef.of (T := ⟨S50000x256, .f32⟩) main_v34) (StableHlo.TRef.of (T := ⟨S50000x256, .f32⟩) main_v34) main_call2.v0 (cmpf .une),
    StableHlo.TRef.nullary main_call2.cst (constant S_ .f32 0x00000000#32),
    StableHlo.TRef.unary main_call2.cst main_call2.call0.v0 (broadcastInDim S50000x256 ![] bcast_S_S50000x256),
    StableHlo.TRef.ternary main_call2.v0 main_call2.call0.v0 (StableHlo.TRef.of (T := ⟨S50000x256, .f32⟩) main_v34) main_call2.call0.v1 select,
    StableHlo.TRef.nullary main_call2.cst_0 (constant S_ .f32 0x7F800000#32),
    StableHlo.TRef.unary main_call2.cst_0 main_call2.v2 (broadcastInDim S50000x256 ![] bcast_S_S50000x256),
    StableHlo.TRef.binary main_call2.call0.v1 main_call2.v2 main_call2.v3 (cmpf .oeq),
    StableHlo.TRef.nullary main_call2.cst_1 (constant S_ .f32 0x7F7FFFFF#32),
    StableHlo.TRef.unary main_call2.cst_1 main_call2.call1.v0 (broadcastInDim S50000x256 ![] bcast_S_S50000x256),
    StableHlo.TRef.ternary main_call2.v3 main_call2.call1.v0 main_call2.call0.v1 main_call2.call1.v1 select,
    StableHlo.TRef.nullary main_call2.cst_2 (constant S_ .f32 0xFF800000#32),
    StableHlo.TRef.unary main_call2.cst_2 main_call2.v5 (broadcastInDim S50000x256 ![] bcast_S_S50000x256),
    StableHlo.TRef.binary main_call2.call1.v1 main_call2.v5 main_call2.v6 (cmpf .oeq),
    StableHlo.TRef.nullary main_call2.cst_3 (constant S_ .f32 0xFF7FFFFF#32),
    StableHlo.TRef.unary main_call2.cst_3 main_call2.call2.v0 (broadcastInDim S50000x256 ![] bcast_S_S50000x256),
    StableHlo.TRef.ternary main_call2.v6 main_call2.call2.v0 main_call2.call1.v1 main_call2.call2.v1 select,
    StableHlo.TRef.binary (StableHlo.TRef.of (T := ⟨S50000x256, .f32⟩) main_v44) (StableHlo.TRef.of (T := ⟨S50000x256, .f32⟩) main_v44) main_call3.v0 (cmpf .une),
    StableHlo.TRef.nullary main_call3.cst (constant S_ .f32 0x00000000#32),
    StableHlo.TRef.unary main_call3.cst main_call3.call0.v0 (broadcastInDim S50000x256 ![] bcast_S_S50000x256),
    StableHlo.TRef.ternary main_call3.v0 main_call3.call0.v0 (StableHlo.TRef.of (T := ⟨S50000x256, .f32⟩) main_v44) main_call3.call0.v1 select,
    StableHlo.TRef.nullary main_call3.cst_0 (constant S_ .f32 0x7F800000#32),
    StableHlo.TRef.unary main_call3.cst_0 main_call3.v2 (broadcastInDim S50000x256 ![] bcast_S_S50000x256),
    StableHlo.TRef.binary main_call3.call0.v1 main_call3.v2 main_call3.v3 (cmpf .oeq),
    StableHlo.TRef.nullary main_call3.cst_1 (constant S_ .f32 0x7F7FFFFF#32),
    StableHlo.TRef.unary main_call3.cst_1 main_call3.call1.v0 (broadcastInDim S50000x256 ![] bcast_S_S50000x256),
    StableHlo.TRef.ternary main_call3.v3 main_call3.call1.v0 main_call3.call0.v1 main_call3.call1.v1 select,
    StableHlo.TRef.nullary main_call3.cst_2 (constant S_ .f32 0xFF800000#32),
    StableHlo.TRef.unary main_call3.cst_2 main_call3.v5 (broadcastInDim S50000x256 ![] bcast_S_S50000x256),
    StableHlo.TRef.binary main_call3.call1.v1 main_call3.v5 main_call3.v6 (cmpf .oeq),
    StableHlo.TRef.nullary main_call3.cst_3 (constant S_ .f32 0xFF7FFFFF#32),
    StableHlo.TRef.unary main_call3.cst_3 main_call3.call2.v0 (broadcastInDim S50000x256 ![] bcast_S_S50000x256),
    StableHlo.TRef.ternary main_call3.v6 main_call3.call2.v0 main_call3.call1.v1 main_call3.call2.v1 select,
    StableHlo.nullary main_cst_12 (constant S_ .f32 0x358637BD#32),
    StableHlo.unary main_cst_12 main_v80 (broadcastInDim S50000x256 ![] bcast_S_S50000x256 : (⟨S_, .f32⟩ : BufTy).Contents (Elt F) → (⟨S50000x256, .f32⟩ : BufTy).Contents (Elt F)),
    StableHlo.binary main_v79 main_v80 main_v81 (addf : (⟨S50000x256, .f32⟩ : BufTy).Contents (Elt F) → (⟨S50000x256, .f32⟩ : BufTy).Contents (Elt F) → (⟨S50000x256, .f32⟩ : BufTy).Contents (Elt F)),
    StableHlo.unary main_v81 main_v82 (Host.sqrt : (⟨S50000x256, .f32⟩ : BufTy).Contents (Elt F) → (⟨S50000x256, .f32⟩ : BufTy).Contents (Elt F)),
    StableHlo.TRef.binary (StableHlo.TRef.of (T := ⟨S50000x256, .f32⟩) main_v66) (StableHlo.TRef.of (T := ⟨S50000x256, .f32⟩) main_v66) main_call4.v0 (cmpf .une),
    StableHlo.TRef.nullary main_call4.cst (constant S_ .f32 0x00000000#32),
    StableHlo.TRef.unary main_call4.cst main_call4.call0.v0 (broadcastInDim S50000x256 ![] bcast_S_S50000x256),
    StableHlo.TRef.ternary main_call4.v0 main_call4.call0.v0 (StableHlo.TRef.of (T := ⟨S50000x256, .f32⟩) main_v66) main_call4.call0.v1 select,
    StableHlo.TRef.nullary main_call4.cst_0 (constant S_ .f32 0x7F800000#32),
    StableHlo.TRef.unary main_call4.cst_0 main_call4.v2 (broadcastInDim S50000x256 ![] bcast_S_S50000x256),
    StableHlo.TRef.binary main_call4.call0.v1 main_call4.v2 main_call4.v3 (cmpf .oeq),
    StableHlo.TRef.nullary main_call4.cst_1 (constant S_ .f32 0x7F7FFFFF#32),
    StableHlo.TRef.unary main_call4.cst_1 main_call4.call1.v0 (broadcastInDim S50000x256 ![] bcast_S_S50000x256),
    StableHlo.TRef.ternary main_call4.v3 main_call4.call1.v0 main_call4.call0.v1 main_call4.call1.v1 select,
    StableHlo.TRef.nullary main_call4.cst_2 (constant S_ .f32 0xFF800000#32),
    StableHlo.TRef.unary main_call4.cst_2 main_call4.v5 (broadcastInDim S50000x256 ![] bcast_S_S50000x256),
    StableHlo.TRef.binary main_call4.call1.v1 main_call4.v5 main_call4.v6 (cmpf .oeq),
    StableHlo.TRef.nullary main_call4.cst_3 (constant S_ .f32 0xFF7FFFFF#32),
    StableHlo.TRef.unary main_call4.cst_3 main_call4.call2.v0 (broadcastInDim S50000x256 ![] bcast_S_S50000x256),
    StableHlo.TRef.ternary main_call4.v6 main_call4.call2.v0 main_call4.call1.v1 main_call4.call2.v1 select,
    StableHlo.TRef.binary (StableHlo.TRef.of (T := ⟨S50000x256, .f32⟩) main_v77) (StableHlo.TRef.of (T := ⟨S50000x256, .f32⟩) main_v77) main_call5.v0 (cmpf .une),
    StableHlo.TRef.nullary main_call5.cst (constant S_ .f32 0x00000000#32),
    StableHlo.TRef.unary main_call5.cst main_call5.call0.v0 (broadcastInDim S50000x256 ![] bcast_S_S50000x256),
    StableHlo.TRef.ternary main_call5.v0 main_call5.call0.v0 (StableHlo.TRef.of (T := ⟨S50000x256, .f32⟩) main_v77) main_call5.call0.v1 select,
    StableHlo.TRef.nullary main_call5.cst_0 (constant S_ .f32 0x7F800000#32),
    StableHlo.TRef.unary main_call5.cst_0 main_call5.v2 (broadcastInDim S50000x256 ![] bcast_S_S50000x256),
    StableHlo.TRef.binary main_call5.call0.v1 main_call5.v2 main_call5.v3 (cmpf .oeq),
    StableHlo.TRef.nullary main_call5.cst_1 (constant S_ .f32 0x7F7FFFFF#32),
    StableHlo.TRef.unary main_call5.cst_1 main_call5.call1.v0 (broadcastInDim S50000x256 ![] bcast_S_S50000x256),
    StableHlo.TRef.ternary main_call5.v3 main_call5.call1.v0 main_call5.call0.v1 main_call5.call1.v1 select,
    StableHlo.TRef.nullary main_call5.cst_2 (constant S_ .f32 0xFF800000#32),
    StableHlo.TRef.unary main_call5.cst_2 main_call5.v5 (broadcastInDim S50000x256 ![] bcast_S_S50000x256),
    StableHlo.TRef.binary main_call5.call1.v1 main_call5.v5 main_call5.v6 (cmpf .oeq),
    StableHlo.TRef.nullary main_call5.cst_3 (constant S_ .f32 0xFF7FFFFF#32),
    StableHlo.TRef.unary main_call5.cst_3 main_call5.call2.v0 (broadcastInDim S50000x256 ![] bcast_S_S50000x256),
    StableHlo.TRef.ternary main_call5.v6 main_call5.call2.v0 main_call5.call1.v1 main_call5.call2.v1 select,
    StableHlo.unary main_arg3 main_v85 (broadcastInDim S50000x128 ![0, 1] bcast_S1x128_S50000x128_0_1 : (⟨S1x128, .f32⟩ : BufTy).Contents (Elt F) → (⟨S50000x128, .f32⟩ : BufTy).Contents (Elt F)),
    StableHlo.nary ![main_arg0, main_v78, main_v82, main_v83, main_v84, main_v85] main_v86 (fun u => concatenate S50000x1280 1 [⟨S50000x128, u 0⟩, ⟨S50000x256, u 1⟩, ⟨S50000x256, u 2⟩, ⟨S50000x256, u 3⟩, ⟨S50000x256, u 4⟩, ⟨S50000x128, u 5⟩] concatenates_S50000x128_S50000x256_S50000x256_S50000x256_S50000x256_S50000x128_S50000x1280_d1),
    StableHlo.unary main_arg8 main_v87 ((transpose S1280x1280 [1, 0] · transposes_S1280x1280_S1280x1280_1_0) : (⟨S1280x1280, .f32⟩ : BufTy).Contents (Elt F) → (⟨S1280x1280, .f32⟩ : BufTy).Contents (Elt F)),
    StableHlo.binary main_v86 main_v87 main_v88 ((fun l r => Host.dotGeneral dot_S50000x1280_S1280x1280_S50000x1280_1_0_0_1_n_n none l r) : (⟨S50000x1280, .f32⟩ : BufTy).Contents (Elt F) → (⟨S1280x1280, .f32⟩ : BufTy).Contents (Elt F) → (⟨S50000x1280, .f32⟩ : BufTy).Contents (Elt F)),
    StableHlo.unary main_arg9 main_v89 (broadcastInDim S1x1280 ![1] bcast_S1280_S1x1280_1 : (⟨S1280, .f32⟩ : BufTy).Contents (Elt F) → (⟨S1x1280, .f32⟩ : BufTy).Contents (Elt F)),
    StableHlo.unary main_v89 main_v90 (broadcastInDim S50000x1280 ![0, 1] bcast_S1x1280_S50000x1280_0_1 : (⟨S1x1280, .f32⟩ : BufTy).Contents (Elt F) → (⟨S50000x1280, .f32⟩ : BufTy).Contents (Elt F)),
    StableHlo.binary main_v88 main_v90 main_v91 (addf : (⟨S50000x1280, .f32⟩ : BufTy).Contents (Elt F) → (⟨S50000x1280, .f32⟩ : BufTy).Contents (Elt F) → (⟨S50000x1280, .f32⟩ : BufTy).Contents (Elt F)),
    StableHlo.nullary main_cst_13 (constant S_ .f32 0x3DCCCCCD#32),
    StableHlo.TRef.nullary main_call6.cst (constant S_ .f32 0x00000000#32),
    StableHlo.TRef.unary main_call6.cst main_call6.v0 (broadcastInDim S50000x1280 ![] bcast_S_S50000x1280),
    StableHlo.TRef.binary (StableHlo.TRef.of (T := ⟨S50000x1280, .f32⟩) main_v91) main_call6.v0 main_call6.v1 (cmpf .oge),
    StableHlo.TRef.unary (StableHlo.TRef.of (T := ⟨S_, .f32⟩) main_cst_13) main_call6.v2 id,
    StableHlo.TRef.unary main_call6.v2 main_call6.v3 (broadcastInDim S50000x1280 ![] bcast_S_S50000x1280),
    StableHlo.TRef.binary main_call6.v3 (StableHlo.TRef.of (T := ⟨S50000x1280, .f32⟩) main_v91) main_call6.v4 mulf,
    StableHlo.TRef.ternary main_call6.v1 (StableHlo.TRef.of (T := ⟨S50000x1280, .f32⟩) main_v91) main_call6.v4 main_call6.call0.v0 select,
    StableHlo.unary main_arg10 main_v93 ((transpose S1280x128 [1, 0] · transposes_S128x1280_S1280x128_1_0) : (⟨S128x1280, .f32⟩ : BufTy).Contents (Elt F) → (⟨S1280x128, .f32⟩ : BufTy).Contents (Elt F)),
    StableHlo.binary main_v92 main_v93 main_v94 ((fun l r => Host.dotGeneral dot_S50000x1280_S1280x128_S50000x128_1_0_0_1_n_n none l r) : (⟨S50000x1280, .f32⟩ : BufTy).Contents (Elt F) → (⟨S1280x128, .f32⟩ : BufTy).Contents (Elt F) → (⟨S50000x128, .f32⟩ : BufTy).Contents (Elt F)),
    StableHlo.unary main_arg11 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v94 main_v96 main_v97 (addf : (⟨S50000x128, .f32⟩ : BufTy).Contents (Elt F) → (⟨S50000x128, .f32⟩ : BufTy).Contents (Elt F) → (⟨S50000x128, .f32⟩ : BufTy).Contents (Elt F)) ]

/-- Operations 193 … 198 of 222. -/
abbrev opsE1 : List (HloOp τ sig (Elt F)) :=
  [ StableHlo.nullary main_cst_14 (constant S_ .f32 0x00000000#32),
    StableHlo.binary main_v97 main_cst_14 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v99 (broadcastInDim S128 ![] bcast_S_S128 : (⟨S_, .f32⟩ : BufTy).Contents (Elt F) → (⟨S128, .f32⟩ : BufTy).Contents (Elt F)),
    StableHlo.binary main_v98 main_v99 main_v100 (Host.divf : (⟨S128, .f32⟩ : BufTy).Contents (Elt F) → (⟨S128, .f32⟩ : BufTy).Contents (Elt F) → (⟨S128, .f32⟩ : BufTy).Contents (Elt F)),
    StableHlo.unary main_v100 main_v101 (broadcastInDim S1x128 ![1] bcast_S128_S1x128_1 : (⟨S128, .f32⟩ : BufTy).Contents (Elt F) → (⟨S1x128, .f32⟩ : BufTy).Contents (Elt F)) ]

/-- Operations 199 … 222 of 222. -/
abbrev opsE2 : List (HloOp τ sig (Elt F)) :=
  [ StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v102 main_v103 (subf : (⟨S50000x128, .f32⟩ : BufTy).Contents (Elt F) → (⟨S50000x128, .f32⟩ : BufTy).Contents (Elt F) → (⟨S50000x128, .f32⟩ : BufTy).Contents (Elt F)),
    StableHlo.binary main_v103 main_v103 main_v104 (mulf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x00000000#32),
    StableHlo.binary main_v104 main_cst_16 main_v105 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v106 (broadcastInDim S128 ![] bcast_S_S128 : (⟨S_, .f32⟩ : BufTy).Contents (Elt F) → (⟨S128, .f32⟩ : BufTy).Contents (Elt F)),
    StableHlo.binary main_v105 main_v106 main_v107 (Host.divf : (⟨S128, .f32⟩ : BufTy).Contents (Elt F) → (⟨S128, .f32⟩ : BufTy).Contents (Elt F) → (⟨S128, .f32⟩ : BufTy).Contents (Elt F)),
    StableHlo.unary main_v100 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v109 main_v110 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v111 (broadcastInDim S128 ![] bcast_S_S128 : (⟨S_, .f32⟩ : BufTy).Contents (Elt F) → (⟨S128, .f32⟩ : BufTy).Contents (Elt F)),
    StableHlo.binary main_v107 main_v111 main_v112 (addf : (⟨S128, .f32⟩ : BufTy).Contents (Elt F) → (⟨S128, .f32⟩ : BufTy).Contents (Elt F) → (⟨S128, .f32⟩ : BufTy).Contents (Elt F)),
    StableHlo.unary main_v112 main_v113 (Host.sqrt : (⟨S128, .f32⟩ : BufTy).Contents (Elt F) → (⟨S128, .f32⟩ : BufTy).Contents (Elt F)),
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v115 main_v116 (Host.divf : (⟨S50000x128, .f32⟩ : BufTy).Contents (Elt F) → (⟨S50000x128, .f32⟩ : BufTy).Contents (Elt F) → (⟨S50000x128, .f32⟩ : BufTy).Contents (Elt F)),
    StableHlo.unary main_arg12 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v118 main_v119 (mulf : (⟨S50000x128, .f32⟩ : BufTy).Contents (Elt F) → (⟨S50000x128, .f32⟩ : BufTy).Contents (Elt F) → (⟨S50000x128, .f32⟩ : BufTy).Contents (Elt F)),
    StableHlo.unary main_arg13 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v121 main_v122 (addf : (⟨S50000x128, .f32⟩ : BufTy).Contents (Elt F) → (⟨S50000x128, .f32⟩ : BufTy).Contents (Elt F) → (⟨S50000x128, .f32⟩ : BufTy).Contents (Elt F)) ]

end Cert.ReferenceIdeal.RefRun

end
-- ==== Proof.RefList.lean ====
/-
  The reference program's operations as ONE list.

  The reference's @main is a straight line of host operations: its own, and those of the functions it calls (a leaky
  rectifier three times, and four times the replacement of non-finite values, which itself calls a select with a
  broadcast scalar three times). Running a call is running the callee's operations over the call's own buffers, so the
  whole program is one list of 222 operations, `ops`. It is kept as consecutive lists: `opsA` ends with the edge
  messages (main_v22), `opsB` with the first segment mean (main_v34), `opsC = opsC1 ++ opsC2` with the fourth
  standardized moment (main_v77), `opsD` with the second dense layer (main_v97), `opsE = opsE1 ++ opsE2` with the
  normalized result (main_v122). `opsC` and `opsE` are cut once more where a window of @main ends (after main_v48 and
  after main_v101); `ops_windows` regroups the list window by window.
-/
import proofs.«155120_j26276609917535_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 49 … 104: the second, third and fourth moments (to main_v77). -/
abbrev opsC : List (HloOp τ sig (Elt F)) := opsC1 ++ opsC2

/-- Operations 193 … 222: the normalization over the nodes (to main_v122). -/
abbrev opsE : List (HloOp τ sig (Elt F)) := opsE1 ++ opsE2

/-- @main's 222 operations, in order, the calls unfolded. -/
abbrev ops : List (HloOp τ sig (Elt F)) := opsA ++ (opsB ++ (opsC ++ (opsD ++ opsE)))

/-- The same list cut at the ends of @main's windows instead. -/
theorem ops_windows :
    (ops : List (HloOp τ sig (Elt F))) = (opsA ++ (opsB ++ opsC1)) ++ ((opsC2 ++ (opsD ++ opsE1)) ++ opsE2) := by
  simp only [ops, opsC, opsE, List.append_assoc]

end Cert.ReferenceIdeal.RefRun

end
-- ==== Proof.RefSeq.lean ====
/-
  The run of the reference program, read as a fold.

  * `main_eq`: @main is the sequence of `ops`. Each window is the sequence of its operations by unfolding (a call
    unfolds to its body, and sequencing re-associates by computation); two sequences one after the other are the
    sequence of the concatenation.
  * `ops_sub`: every operation touches TensorCore references only (each builder does).
  * `run_main`: hence every weakly fair execution of @main terminates with every buffer at the fold `after ops` of the
    operations' results over the launch contents.
-/
import proofs.«155120_j26276609917535_2_alg».proof.Proof.RefList

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main is the sequence of its operations -/

set_option maxRecDepth 8192 in
set_option maxHeartbeats 4000000 in
/-- The first window (statements 1 … 60) is the sequence of its 72 operations. -/
theorem main_part0_eq (c : Dev nD) : main_part0 (F := F) c = seq (opsA ++ (opsB ++ opsC1)) := rfl

set_option maxRecDepth 8192 in
set_option maxHeartbeats 4000000 in
/-- The second window (statements 61 … 120) is the sequence of its 126 operations. -/
theorem main_part1_eq (c : Dev nD) : main_part1 (F := F) c = seq (opsC2 ++ (opsD ++ opsE1)) := rfl

set_option maxRecDepth 8192 in
/-- The third window (statements 121 … 145) is the sequence of its 24 operations. -/
theorem main_part2_eq (c : Dev nD) : main_part2 (F := F) c = seq opsE2 := rfl

/-- @main runs its three windows in turn, so it is the sequence of all the operations. -/
theorem main_eq (c : Dev nD) : main (F := F) c = seq ops :=
  calc main (F := F) c
      = (main_part0 c >>= fun _ => main_part1 c >>= fun _ => main_part2 c) := rfl
    _ = (seq (opsA ++ (opsB ++ opsC1)) >>= fun _ => seq (opsC2 ++ (opsD ++ opsE1)) >>= fun _ => seq opsE2) := by
        rw [main_part0_eq c, main_part1_eq c, main_part2_eq c]
    _ = seq ((opsA ++ (opsB ++ opsC1)) ++ ((opsC2 ++ (opsD ++ opsE1)) ++ opsE2)) :=
        ((seq_append (opsA ++ (opsB ++ opsC1)) ((opsC2 ++ (opsD ++ opsE1)) ++ opsE2)).trans
          (congrArg (fun t => seq (opsA ++ (opsB ++ opsC1)) >>= fun _ => t) (seq_append (opsC2 ++ (opsD ++ opsE1)) opsE2))).symm
    _ = seq ops := by rw [ops_windows]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub .., unary_bufs_sub ..,
    binary_bufs_sub .., unary_bufs_sub .., unary_bufs_sub .., binary_bufs_sub .., nullary_bufs_sub ..,
    nullary_bufs_sub .., unary_bufs_sub .., binary_bufs_sub .., unary_bufs_sub .., unary_bufs_sub ..,
    binary_bufs_sub .., ternary_bufs_sub .., unary_bufs_sub .., binary_bufs_sub .., unary_bufs_sub ..,
    unary_bufs_sub .., binary_bufs_sub ..⟩

set_option maxRecDepth 8192 in
theorem opsB_sub : (opsB : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., binary_bufs_sub .., nullary_bufs_sub ..,
    unary_bufs_sub .., unary_bufs_sub .., ternary_bufs_sub .., unary_bufs_sub .., unary_bufs_sub ..,
    binary_bufs_sub ..⟩

set_option maxRecDepth 8192 in
theorem opsC1_sub : (opsC1 : List (HloOp τ sig (Elt F))).Forall fun op => op.bufs ⊆ tcRefs τ sig :=
  ⟨binary_bufs_sub .., nullary_bufs_sub .., unary_bufs_sub .., unary_bufs_sub .., ternary_bufs_sub ..,
    unary_bufs_sub .., unary_bufs_sub .., binary_bufs_sub .., binary_bufs_sub .., binary_bufs_sub ..,
    nullary_bufs_sub .., nullary_bufs_sub .., unary_bufs_sub .., binary_bufs_sub .., unary_bufs_sub ..,
    unary_bufs_sub .., binary_bufs_sub .., ternary_bufs_sub .., nullary_bufs_sub .., unary_bufs_sub ..,
    binary_bufs_sub .., unary_bufs_sub .., nullary_bufs_sub .., unary_bufs_sub ..⟩

set_option maxRecDepth 8192 in
theorem opsC2_sub : (opsC2 : List (HloOp τ sig (Elt F))).Forall fun op => op.bufs ⊆ tcRefs τ sig :=
  ⟨binary_bufs_sub .., nullary_bufs_sub .., unary_bufs_sub .., binary_bufs_sub .., ternary_bufs_sub ..,
    unary_bufs_sub .., binary_bufs_sub .., binary_bufs_sub .., binary_bufs_sub .., binary_bufs_sub ..,
    nullary_bufs_sub .., unary_bufs_sub .., unary_bufs_sub .., ternary_bufs_sub .., unary_bufs_sub ..,
    unary_bufs_sub .., binary_bufs_sub .., binary_bufs_sub .., binary_bufs_sub .., binary_bufs_sub ..,
    binary_bufs_sub .., binary_bufs_sub .., nullary_bufs_sub .., unary_bufs_sub .., unary_bufs_sub ..,
    ternary_bufs_sub .., unary_bufs_sub .., unary_bufs_sub .., binary_bufs_sub .., binary_bufs_sub ..,
    binary_bufs_sub .., binary_bufs_sub ..⟩

set_option maxRecDepth 8192 in
theorem opsD_sub : (opsD : List (HloOp τ sig (Elt F))).Forall fun op => op.bufs ⊆ tcRefs τ sig :=
  ⟨binary_bufs_sub .., nullary_bufs_sub .., unary_bufs_sub .., ternary_bufs_sub .., nullary_bufs_sub ..,
    unary_bufs_sub .., binary_bufs_sub .., nullary_bufs_sub .., unary_bufs_sub .., ternary_bufs_sub ..,
    nullary_bufs_sub .., unary_bufs_sub .., binary_bufs_sub .., nullary_bufs_sub .., unary_bufs_sub ..,
    ternary_bufs_sub .., binary_bufs_sub .., nullary_bufs_sub .., unary_bufs_sub .., ternary_bufs_sub ..,
    nullary_bufs_sub .., unary_bufs_sub .., binary_bufs_sub .., nullary_bufs_sub .., unary_bufs_sub ..,
    ternary_bufs_sub .., nullary_bufs_sub .., unary_bufs_sub .., binary_bufs_sub .., nullary_bufs_sub ..,
    unary_bufs_sub .., ternary_bufs_sub .., nullary_bufs_sub .., unary_bufs_sub .., binary_bufs_sub ..,
    unary_bufs_sub .., binary_bufs_sub .., nullary_bufs_sub .., unary_bufs_sub .., ternary_bufs_sub ..,
    nullary_bufs_sub .., unary_bufs_sub .., binary_bufs_sub .., nullary_bufs_sub .., unary_bufs_sub ..,
    ternary_bufs_sub .., nullary_bufs_sub .., unary_bufs_sub .., binary_bufs_sub .., nullary_bufs_sub ..,
    unary_bufs_sub .., ternary_bufs_sub .., binary_bufs_sub .., nullary_bufs_sub .., unary_bufs_sub ..,
    ternary_bufs_sub .., nullary_bufs_sub .., unary_bufs_sub .., binary_bufs_sub .., nullary_bufs_sub ..,
    unary_bufs_sub .., ternary_bufs_sub .., nullary_bufs_sub .., unary_bufs_sub .., binary_bufs_sub ..,
    nullary_bufs_sub .., unary_bufs_sub .., ternary_bufs_sub .., unary_bufs_sub .., nary_bufs_sub ..,
    unary_bufs_sub .., binary_bufs_sub .., unary_bufs_sub .., unary_bufs_sub .., binary_bufs_sub ..,
    nullary_bufs_sub .., nullary_bufs_sub .., unary_bufs_sub .., binary_bufs_sub .., unary_bufs_sub ..,
    unary_bufs_sub .., binary_bufs_sub .., ternary_bufs_sub .., unary_bufs_sub .., binary_bufs_sub ..,
    unary_bufs_sub .., unary_bufs_sub .., binary_bufs_sub ..⟩

set_option maxRecDepth 8192 in
theorem opsE1_sub : (opsE1 : List (HloOp τ sig (Elt F))).Forall fun op => op.bufs ⊆ tcRefs τ sig :=
  ⟨nullary_bufs_sub .., binary_bufs_sub .., nullary_bufs_sub .., unary_bufs_sub .., binary_bufs_sub ..,
    unary_bufs_sub ..⟩

set_option maxRecDepth 8192 in
theorem opsE2_sub : (opsE2 : List (HloOp τ sig (Elt F))).Forall fun op => op.bufs ⊆ tcRefs τ sig :=
  ⟨unary_bufs_sub .., binary_bufs_sub .., binary_bufs_sub .., nullary_bufs_sub .., binary_bufs_sub ..,
    nullary_bufs_sub .., unary_bufs_sub .., binary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, opsC, opsE, List.mem_append] at h
    rcases h with h | h | (h | h) | h | h | h
    exacts [List.forall_iff_forall_mem.mp opsA_sub op h, List.forall_iff_forall_mem.mp opsB_sub op h,
      List.forall_iff_forall_mem.mp opsC1_sub op h, List.forall_iff_forall_mem.mp opsC2_sub op h,
      List.forall_iff_forall_mem.mp opsD_sub op h, List.forall_iff_forall_mem.mp opsE1_sub op h,
      List.forall_iff_forall_mem.mp opsE2_sub op h]

/-! ## The run -/

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefArgs.lean ====
/-
  No operation of the reference writes an argument.

  Every operation writes exactly one reference, its result's, and none of the 222 results is an argument of @main. The
  fold of the operations' results at a reference that an operation does not write passes through that operation, so at
  an argument's reference it passes through all of them: each argument's buffer ends as it began. (The fold over the
  concatenated lists is the fold over the later list from the fold over the earlier one; unrolled, which reference each
  operation writes is decided by computation.)
-/
import proofs.«155120_j26276609917535_2_alg».proof.Proof.RefList
import proofs.«155120_j26276609917535_2_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
theorem arg0_eq (V : Valuation τ sig (Elt F)) :
    after ops V (main_arg0 : DevRef τ sig) = V (main_arg0 : DevRef τ sig) := by
  simp only [ops, opsC, opsE, Cert.Lib.after_append, after_cons, after_nil]
  rfl

set_option maxRecDepth 16384 in
theorem arg1_eq (V : Valuation τ sig (Elt F)) :
    after ops V (main_arg1 : DevRef τ sig) = V (main_arg1 : DevRef τ sig) := by
  simp only [ops, opsC, opsE, Cert.Lib.after_append, after_cons, after_nil]
  rfl

set_option maxRecDepth 16384 in
theorem arg2_eq (V : Valuation τ sig (Elt F)) :
    after ops V (main_arg2 : DevRef τ sig) = V (main_arg2 : DevRef τ sig) := by
  simp only [ops, opsC, opsE, Cert.Lib.after_append, after_cons, after_nil]
  rfl

set_option maxRecDepth 16384 in
theorem arg3_eq (V : Valuation τ sig (Elt F)) :
    after ops V (main_arg3 : DevRef τ sig) = V (main_arg3 : DevRef τ sig) := by
  simp only [ops, opsC, opsE, Cert.Lib.after_append, after_cons, after_nil]
  rfl

set_option maxRecDepth 16384 in
theorem arg4_eq (V : Valuation τ sig (Elt F)) :
    after ops V (main_arg4 : DevRef τ sig) = V (main_arg4 : DevRef τ sig) := by
  simp only [ops, opsC, opsE, Cert.Lib.after_append, after_cons, after_nil]
  rfl

set_option maxRecDepth 16384 in
theorem arg5_eq (V : Valuation τ sig (Elt F)) :
    after ops V (main_arg5 : DevRef τ sig) = V (main_arg5 : DevRef τ sig) := by
  simp only [ops, opsC, opsE, Cert.Lib.after_append, after_cons, after_nil]
  rfl

set_option maxRecDepth 16384 in
theorem arg6_eq (V : Valuation τ sig (Elt F)) :
    after ops V (main_arg6 : DevRef τ sig) = V (main_arg6 : DevRef τ sig) := by
  simp only [ops, opsC, opsE, Cert.Lib.after_append, after_cons, after_nil]
  rfl

set_option maxRecDepth 16384 in
theorem arg7_eq (V : Valuation τ sig (Elt F)) :
    after ops V (main_arg7 : DevRef τ sig) = V (main_arg7 : DevRef τ sig) := by
  simp only [ops, opsC, opsE, Cert.Lib.after_append, after_cons, after_nil]
  rfl

set_option maxRecDepth 16384 in
theorem arg8_eq (V : Valuation τ sig (Elt F)) :
    after ops V (main_arg8 : DevRef τ sig) = V (main_arg8 : DevRef τ sig) := by
  simp only [ops, opsC, opsE, Cert.Lib.after_append, after_cons, after_nil]
  rfl

set_option maxRecDepth 16384 in
theorem arg9_eq (V : Valuation τ sig (Elt F)) :
    after ops V (main_arg9 : DevRef τ sig) = V (main_arg9 : DevRef τ sig) := by
  simp only [ops, opsC, opsE, Cert.Lib.after_append, after_cons, after_nil]
  rfl

set_option maxRecDepth 16384 in
theorem arg10_eq (V : Valuation τ sig (Elt F)) :
    after ops V (main_arg10 : DevRef τ sig) = V (main_arg10 : DevRef τ sig) := by
  simp only [ops, opsC, opsE, Cert.Lib.after_append, after_cons, after_nil]
  rfl

set_option maxRecDepth 16384 in
theorem arg11_eq (V : Valuation τ sig (Elt F)) :
    after ops V (main_arg11 : DevRef τ sig) = V (main_arg11 : DevRef τ sig) := by
  simp only [ops, opsC, opsE, Cert.Lib.after_append, after_cons, after_nil]
  rfl

set_option maxRecDepth 16384 in
theorem arg12_eq (V : Valuation τ sig (Elt F)) :
    after ops V (main_arg12 : DevRef τ sig) = V (main_arg12 : DevRef τ sig) := by
  simp only [ops, opsC, opsE, Cert.Lib.after_append, after_cons, after_nil]
  rfl

set_option maxRecDepth 16384 in
theorem arg13_eq (V : Valuation τ sig (Elt F)) :
    after ops V (main_arg13 : DevRef τ sig) = V (main_arg13 : DevRef τ sig) := by
  simp only [ops, opsC, opsE, Cert.Lib.after_append, after_cons, after_nil]
  rfl

set_option maxRecDepth 16384 in
theorem arg14_eq (V : Valuation τ sig (Elt F)) :
    after ops V (main_arg14 : DevRef τ sig) = V (main_arg14 : DevRef τ sig) := by
  simp only [ops, opsC, opsE, Cert.Lib.after_append, after_cons, after_nil]
  rfl

end Cert.ReferenceIdeal.RefRun

end
-- ==== Proof.RefRun.lean ====
/-
  The reference program's run: the list of its operations (`ops`, in consecutive stages `opsA … opsE`), that @main is
  their sequence (`main_eq`), that they touch TensorCore references only (`ops_sub`), the run itself (`run_main`: every
  buffer ends at the fold `after ops` of the operations' results over the launch contents), and that the fifteen
  arguments end as they began (`arg0_eq … arg14_eq`). The statements live in the two modules imported here.
-/
import proofs.«155120_j26276609917535_2_alg».proof.Proof.RefSeq
import proofs.«155120_j26276609917535_2_alg».proof.Proof.RefArgs
-- ==== Proof.Spec.lean ====
import proofs.«155120_j26276609917535_2_alg».proof.ReferenceIdeal

/-!
# The reference, stage by stage, as functions of whole arrays

The reference program is a straight line of array operations. Its stages, each a function of the arrays it reads:
the source and target index columns; the gathered target rows; the edge perceptron (messages); the per-node
edge count clamped below by one; the mean over a node's edges of any per-edge array (a scatter-add of rows
divided by the count); the deviations of the messages from their node's mean; the node statistics and the node
perceptron; the batch normalisation. The result is their composition.
-/

noncomputable section

namespace Cert.Spec

open Idealize.ShloMosaic Cert.ReferenceIdeal

variable {F : FTy → Type} [FloatOps F] [Facts]
open Facts₀ Facts

/-- Contents of a float array of shape `s`. -/
abbrev FA (F : FTy → Type) (s : Shape) : Type := (⟨s, .f32⟩ : BufTy).Contents (Elt F)
/-- Contents of a 32-bit integer array of shape `s`. -/
abbrev IA (F : FTy → Type) (s : Shape) : Type := (⟨s, .i32⟩ : BufTy).Contents (Elt F)

/-- Row 0 of the edge index: each edge's source node. -/
def srcVec (ei : IA F S2x400000) : IA F S400000 :=
  shapeCast S400000 (extractStridedSlice S1x400000 ![0, 0] ei slices_S2x400000_S1x400000_0_0) shapeCasts_S1x400000_S400000
/-- Row 1 of the edge index: each edge's target node. -/
def tgtVec (ei : IA F S2x400000) : IA F S400000 :=
  shapeCast S400000 (extractStridedSlice S1x400000 ![1, 0] ei slices_S2x400000_S1x400000_1_0) shapeCasts_S1x400000_S400000
/-- An index vector as a column. -/
def col (v : IA F S400000) : IA F S400000x1 := broadcastInDim S400000x1 ![0] bcast_S400000_S400000x1_0 v
/-- A negative index counts from the end: add the node count where negative; then as a column. -/
def wrapCol (v : IA F S400000) : IA F S400000x1 :=
  col (F := F) (select (cmpi .slt v (broadcastInDim S400000 ![] bcast_S_S400000 (constantI S_ 32 0#32)))
    (addi v (broadcastInDim S400000 ![] bcast_S_S400000 (constantI S_ 32 50000#32))) v)

/-- The target nodes' feature rows, edge by edge. -/
def xtTgt (xt : FA F S50000x128) (ei : IA F S2x400000) : FA F S400000x128 :=
  Host.gather gather_S50000x128_S400000x1_S400000x128_1_0_n_n_0_1_1128 xt (wrapCol (F := F) (tgtVec (F := F) ei))

/-- The edge perceptron: two affine layers (weights stored output-major, so transposed) with a leaky rectifier of slope 0.1 between. -/
def msg (xtt ea : FA F S400000x128) (W1a : FA F S256x256) (b1a : FA F S256) (W1b : FA F S256x256) (b1b : FA F S256) :
    FA F S400000x256 :=
  let h : FA F S400000x256 := addf
    (Host.dotGeneral dot_S400000x256_S256x256_S400000x256_1_0_0_1_n_n none
      (concatenate S400000x256 1 [⟨S400000x128, xtt⟩, ⟨S400000x128, ea⟩] concatenates_S400000x128_S400000x128_S400000x256_d1)
      (transpose S256x256 [1, 0] W1a transposes_S256x256_S256x256_1_0))
    (broadcastInDim S400000x256 ![0, 1] bcast_S1x256_S400000x256_0_1 (broadcastInDim S1x256 ![1] bcast_S256_S1x256_1 b1a))
  let a : FA F S400000x256 := select
    (cmpf .oge h (broadcastInDim S400000x256 ![] bcast_S_S400000x256 (constant S_ .f32 0x00000000#32))) h
    (mulf (broadcastInDim S400000x256 ![] bcast_S_S400000x256 (id (constant S_ .f32 0x3DCCCCCD#32))) h)
  addf
    (Host.dotGeneral dot_S400000x256_S256x256_S400000x256_1_0_0_1_n_n none a
      (transpose S256x256 [1, 0] W1b transposes_S256x256_S256x256_1_0))
    (broadcastInDim S400000x256 ![0, 1] bcast_S1x256_S400000x256_0_1 (broadcastInDim S1x256 ![1] bcast_S256_S1x256_1 b1b))

/-- Each node's number of incoming edges (a scatter-add of ones), at least one. -/
def denom (ei : IA F S2x400000) : FA F S50000 :=
  maximumf
    (Host.scatterAdd scatter_S50000_S400000x1_S400000_n_0_0_1
      (broadcastInDim S50000 ![] bcast_S_S50000 (constant S_ .f32 0x00000000#32))
      (col (F := F) (srcVec (F := F) ei))
      (broadcastInDim S400000 ![] bcast_S_S400000 (constant S_ .f32 0x3F800000#32)))
    (broadcastInDim S50000 ![] bcast_S_S50000 (constant S_ .f32 0x3F800000#32))

/-- The mean over each node's edges of a per-edge array: rows scatter-added by source node, divided by the count. -/
def segMean (A : FA F S400000x256) (ei : IA F S2x400000) : FA F S50000x256 :=
  Host.divf
    (Host.scatterAdd scatter_S50000x256_S400000x1_S400000x256_1_0_0_1
      (broadcastInDim S50000x256 ![] bcast_S_S50000x256 (constant S_ .f32 0x00000000#32))
      (col (F := F) (srcVec (F := F) ei)) A)
    (broadcastInDim S50000x256 ![0, 1] bcast_S50000x1_S50000x256_0_1
      (broadcastInDim S50000x1 ![0] bcast_S50000_S50000x1_0 (denom (F := F) ei)))

/-- Each message minus its source node's mean message. -/
def dev (m : FA F S400000x256) (mean : FA F S50000x256) (ei : IA F S2x400000) : FA F S400000x256 :=
  subf m (Host.gather gather_S50000x256_S400000x1_S400000x256_1_0_n_n_0_1_1256 mean (wrapCol (F := F) (srcVec (F := F) ei)))

/-- Third and fourth powers as the program multiplies them. -/
def cube (d : FA F S400000x256) : FA F S400000x256 := mulf (mulf d d) d
def quart (d : FA F S400000x256) : FA F S400000x256 := mulf (mulf d d) (mulf d d)

/-- Leaky rectifier on a node array. -/
def leakyN (slope : BitVec 32) (x : FA F S50000x256) : FA F S50000x256 :=
  select (cmpf .oge x (broadcastInDim S50000x256 ![] bcast_S_S50000x256 (constant S_ .f32 0x00000000#32))) x
    (mulf (broadcastInDim S50000x256 ![] bcast_S_S50000x256 (id (constant S_ .f32 slope))) x)

/-- Replace infinities by the largest finite magnitudes (after a test "x ≠ x"). -/
def clampN (x : FA F S50000x256) : FA F S50000x256 :=
  let a : FA F S50000x256 := select (cmpf .une x x) (broadcastInDim S50000x256 ![] bcast_S_S50000x256 (constant S_ .f32 0x00000000#32)) x
  let b : FA F S50000x256 := select (cmpf .oeq a (broadcastInDim S50000x256 ![] bcast_S_S50000x256 (constant S_ .f32 0x7F800000#32)))
    (broadcastInDim S50000x256 ![] bcast_S_S50000x256 (constant S_ .f32 0x7F7FFFFF#32)) a
  select (cmpf .oeq b (broadcastInDim S50000x256 ![] bcast_S_S50000x256 (constant S_ .f32 0xFF800000#32)))
    (broadcastInDim S50000x256 ![] bcast_S_S50000x256 (constant S_ .f32 0xFF7FFFFF#32)) b

/-- √(v + 1e-6). -/
def stdN (v : FA F S50000x256) : FA F S50000x256 :=
  Host.sqrt (addf v (broadcastInDim S50000x256 ![] bcast_S_S50000x256 (constant S_ .f32 0x358637BD#32)))

/-- The node perceptron's 1280 input features. -/
def nodeFeat (xs : FA F S50000x128) (mean m2 m3 m4 : FA F S50000x256) (u : FA F S1x128) : FA F S50000x1280 :=
  let var : FA F S50000x256 := leakyN (F := F) 0x3C23D70A#32 (subf m2 (mulf mean mean))
  let std : FA F S50000x256 := stdN (F := F) var
  let skew : FA F S50000x256 := Host.divf m3 (mulf (mulf std std) std)
  let kurt : FA F S50000x256 := Host.divf m4 (mulf (mulf std std) (mulf std std))
  concatenate S50000x1280 1
    [⟨S50000x128, xs⟩, ⟨S50000x256, clampN (F := F) mean⟩, ⟨S50000x256, stdN (F := F) (clampN (F := F) var)⟩,
     ⟨S50000x256, clampN (F := F) skew⟩, ⟨S50000x256, clampN (F := F) kurt⟩,
     ⟨S50000x128, broadcastInDim S50000x128 ![0, 1] bcast_S1x128_S50000x128_0_1 u⟩]
    concatenates_S50000x128_S50000x256_S50000x256_S50000x256_S50000x256_S50000x128_S50000x1280_d1

/-- The node perceptron. -/
def nodeMlp (h : FA F S50000x1280) (W2a : FA F S1280x1280) (b2a : FA F S1280) (W2b : FA F S128x1280) (b2b : FA F S128) :
    FA F S50000x128 :=
  let g : FA F S50000x1280 := addf
    (Host.dotGeneral dot_S50000x1280_S1280x1280_S50000x1280_1_0_0_1_n_n none h
      (transpose S1280x1280 [1, 0] W2a transposes_S1280x1280_S1280x1280_1_0))
    (broadcastInDim S50000x1280 ![0, 1] bcast_S1x1280_S50000x1280_0_1 (broadcastInDim S1x1280 ![1] bcast_S1280_S1x1280_1 b2a))
  let a : FA F S50000x1280 := select
    (cmpf .oge g (broadcastInDim S50000x1280 ![] bcast_S_S50000x1280 (constant S_ .f32 0x00000000#32))) g
    (mulf (broadcastInDim S50000x1280 ![] bcast_S_S50000x1280 (id (constant S_ .f32 0x3DCCCCCD#32))) g)
  addf
    (Host.dotGeneral dot_S50000x1280_S1280x128_S50000x128_1_0_0_1_n_n none a
      (transpose S1280x128 [1, 0] W2b transposes_S128x1280_S1280x128_1_0))
    (broadcastInDim S50000x128 ![0, 1] bcast_S1x128_S50000x128_0_1 (broadcastInDim S1x128 ![1] bcast_S128_S1x128_1 b2b))

/-- Batch normalisation over the node axis with the biased variance, then scale and shift. -/
def bn (o : FA F S50000x128) (gamma beta : FA F S128) : FA F S50000x128 :=
  let n : FA F S128 := broadcastInDim S128 ![] bcast_S_S128 (constant S_ .f32 0x47435000#32)
  let mu : FA F S128 := Host.divf (Host.reduceAdd o (constant S_ .f32 0x00000000#32) reducesTo_S50000x128_S128_d0 h_S_) n
  let row (v : FA F S128) : FA F S50000x128 :=
    broadcastInDim S50000x128 ![0, 1] bcast_S1x128_S50000x128_0_1 (broadcastInDim S1x128 ![1] bcast_S128_S1x128_1 v)
  let c : FA F S50000x128 := subf o (row mu)
  let v : FA F S128 := Host.divf (Host.reduceAdd (mulf c c) (constant S_ .f32 0x00000000#32) reducesTo_S50000x128_S128_d0 h_S_) n
  let sd : FA F S128 := Host.sqrt (addf v (broadcastInDim S128 ![] bcast_S_S128 (constant S_ .f32 0x3727C5AC#32)))
  addf (mulf (Host.divf (subf o (row mu)) (row sd)) (row gamma)) (row beta)

/-- The reference's result as a function of its fifteen arguments. -/
def out (xs xt : FA F S50000x128) (ea : FA F S400000x128) (u : FA F S1x128) (W1a : FA F S256x256) (b1a : FA F S256)
    (W1b : FA F S256x256) (b1b : FA F S256) (W2a : FA F S1280x1280) (b2a : FA F S1280) (W2b : FA F S128x1280) (b2b : FA F S128)
    (gamma beta : FA F S128) (ei : IA F S2x400000) : FA F S50000x128 :=
  let m : FA F S400000x256 := msg (F := F) (xtTgt (F := F) xt ei) ea W1a b1a W1b b1b
  let mean : FA F S50000x256 := segMean (F := F) m ei
  let d : FA F S400000x256 := dev (F := F) m mean ei
  bn (F := F)
    (nodeMlp (F := F)
      (nodeFeat (F := F) xs mean (segMean (F := F) (mulf m m) ei) (segMean (F := F) (cube (F := F) d) ei)
        (segMean (F := F) (quart (F := F) d) ei) u)
      W2a b2a W2b b2b)
    gamma beta

end Cert.Spec

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.RefStageDefs.lean ====
/-
  The reference's stages, read one list at a time.

  For each of the consecutive lists of the reference's operations, and for ANY contents `W` of the buffers before it,
  what the list leaves in the buffers later lists read, as a function of what it reads from `W`; and which of those
  buffers it leaves alone. Each statement is a computation: the fold is unrolled, at each operation the buffer read is
  or is not the one the operation writes, and what remains is the stage function's own definition. The segment sums,
  gathers, matrix products and the sum over the nodes are kept folded meanwhile (nothing here looks inside them).

  The stage functions of the specification read the edge index; a later list reads instead the buffers earlier lists
  left (the source-node vector, the clamped edge counts, the zero vector used to wrap negative indices, the node mean
  already broadcast), so the same functions are stated here over those buffers (`denomOf`, `segMeanOf`, `devOf`,
  `featOf`, `muOf`, `bnOf`); each is the specification's function once the buffers hold what the earlier lists
  compute (`*_spec`, by unfolding).
-/
import proofs.«155120_j26276609917535_2_alg».proof.Proof.RefList
import proofs.«155120_j26276609917535_2_alg».proof.Proof.Spec
import proofs.«155120_j26276609917535_2_alg».proof.Proof.LibTypedRef

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.Spec (FA IA)

variable {F : FTy → Type} [FloatOps F]

/-! ## The stage functions over the buffers a later list reads -/

/-- Each node's number of edges, at least one, from the source-node vector. -/
def denomOf (src : IA F S400000) : FA F S50000 :=
  maximumf
    (Host.scatterAdd scatter_S50000_S400000x1_S400000_n_0_0_1
      (broadcastInDim S50000 ![] bcast_S_S50000 (constant S_ .f32 0x00000000#32))
      (Cert.Spec.col (F := F) src)
      (broadcastInDim S400000 ![] bcast_S_S400000 (constant S_ .f32 0x3F800000#32)))
    (broadcastInDim S50000 ![] bcast_S_S50000 (constant S_ .f32 0x3F800000#32))

/-- The mean over each node's edges of a per-edge array, from the source-node vector and the counts. -/
def segMeanOf (A : FA F S400000x256) (src : IA F S400000) (dn : FA F S50000) : FA F S50000x256 :=
  Host.divf
    (Host.scatterAdd scatter_S50000x256_S400000x1_S400000x256_1_0_0_1
      (broadcastInDim S50000x256 ![] bcast_S_S50000x256 (constant S_ .f32 0x00000000#32))
      (Cert.Spec.col (F := F) src) A)
    (broadcastInDim S50000x256 ![0, 1] bcast_S50000x1_S50000x256_0_1
      (broadcastInDim S50000x1 ![0] bcast_S50000_S50000x1_0 dn))

/-- Each message minus its source node's mean, from the source-node vector and the zero vector it is compared with. -/
def devOf (m : FA F S400000x256) (mean : FA F S50000x256) (src zero : IA F S400000) : FA F S400000x256 :=
  subf m (Host.gather gather_S50000x256_S400000x1_S400000x256_1_0_n_n_0_1_1256 mean
    (Cert.Spec.col (F := F) (select (cmpi .slt src zero)
      (addi src (broadcastInDim S400000 ![] bcast_S_S400000 (constantI S_ 32 50000#32))) src)))

/-- The node perceptron's input from the statistics themselves. -/
def featOf (xs : FA F S50000x128) (mean var skew kurt : FA F S50000x256) (u : FA F S1x128) : FA F S50000x1280 :=
  concatenate S50000x1280 1
    [⟨S50000x128, xs⟩, ⟨S50000x256, Cert.Spec.clampN (F := F) mean⟩,
     ⟨S50000x256, Cert.Spec.stdN (F := F) (Cert.Spec.clampN (F := F) var)⟩,
     ⟨S50000x256, Cert.Spec.clampN (F := F) skew⟩, ⟨S50000x256, Cert.Spec.clampN (F := F) kurt⟩,
     ⟨S50000x128, broadcastInDim S50000x128 ![0, 1] bcast_S1x128_S50000x128_0_1 u⟩]
    concatenates_S50000x128_S50000x256_S50000x256_S50000x256_S50000x256_S50000x128_S50000x1280_d1

/-- The mean over the nodes. -/
def muOf (o : FA F S50000x128) : FA F S128 :=
  Host.divf (Host.reduceAdd o (constant S_ .f32 0x00000000#32) reducesTo_S50000x128_S128_d0 h_S_)
    (broadcastInDim S128 ![] bcast_S_S128 (constant S_ .f32 0x47435000#32))

/-- A vector over the features as a row. -/
def rowOf (v : FA F S128) : FA F S1x128 := broadcastInDim S1x128 ![1] bcast_S128_S1x128_1 v
/-- A row repeated over the nodes. -/
def rowsOf (r : FA F S1x128) : FA F S50000x128 := broadcastInDim S50000x128 ![0, 1] bcast_S1x128_S50000x128_0_1 r

/-- The normalization from the mean over the nodes and that mean as a row. -/
def bnOf (o : FA F S50000x128) (mu : FA F S128) (mu1 : FA F S1x128) (gamma beta : FA F S128) : FA F S50000x128 :=
  let c : FA F S50000x128 := subf o (rowsOf (F := F) mu1)
  let v : FA F S128 := Host.divf (Host.reduceAdd (mulf c c) (constant S_ .f32 0x00000000#32) reducesTo_S50000x128_S128_d0 h_S_)
    (broadcastInDim S128 ![] bcast_S_S128 (constant S_ .f32 0x47435000#32))
  let sd : FA F S128 := Host.sqrt (addf v (broadcastInDim S128 ![] bcast_S_S128 (constant S_ .f32 0x3727C5AC#32)))
  addf (mulf (Host.divf (subf o (rowsOf (F := F) (rowOf (F := F) mu))) (rowsOf (F := F) (rowOf (F := F) sd)))
    (rowsOf (F := F) (rowOf (F := F) gamma))) (rowsOf (F := F) (rowOf (F := F) beta))

theorem denomOf_spec (ei : IA F S2x400000) : denomOf (F := F) (Cert.Spec.srcVec (F := F) ei) = Cert.Spec.denom (F := F) ei := rfl
theorem segMeanOf_spec (A : FA F S400000x256) (ei : IA F S2x400000) :
    segMeanOf (F := F) A (Cert.Spec.srcVec (F := F) ei) (Cert.Spec.denom (F := F) ei) = Cert.Spec.segMean (F := F) A ei := rfl
theorem devOf_spec (m : FA F S400000x256) (mean : FA F S50000x256) (ei : IA F S2x400000) :
    devOf (F := F) m mean (Cert.Spec.srcVec (F := F) ei) (broadcastInDim S400000 ![] bcast_S_S400000 (constantI S_ 32 0#32))
      = Cert.Spec.dev (F := F) m mean ei := rfl
theorem bnOf_spec (o : FA F S50000x128) (gamma beta : FA F S128) :
    bnOf (F := F) o (muOf (F := F) o) (rowOf (F := F) (muOf (F := F) o)) gamma beta = Cert.Spec.bn (F := F) o gamma beta := rfl

/-- Reads the fold of a literal list of operations at a buffer none of them writes: unrolls the fold; that each operation
    writes another buffer holds by computation. -/
macro "keep_fold" : tactic => `(tactic| (simp only [after_cons, after_nil]; rfl))

/-- Reads the fold of a literal list of operations at a buffer one of them writes: rewrites each operation's result at its
    own buffer to its function's value and at any other to what was there; a called function's operations carry each
    value to its buffer's type and back, which is the identity; what is left is the stage function's definition. -/
macro "read_fold" : tactic =>
  `(tactic| (after_results_simp <;> (try simp only [Cert.LibTypedRef.ofBuf_toBuf]) <;> rfl))

end Cert.ReferenceIdeal.RefRead

end
-- ==== Proof.RefStagesAB.lean ====
/-
  The reference's first two lists read at the buffers later lists use: the edge messages, the edge counts and the mean
  message; and the buffers those lists leave alone.
-/
import proofs.«155120_j26276609917535_2_alg».proof.Proof.RefStageDefs

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.Spec (FA IA)

variable {F : FTy → Type} [FloatOps F]

variable (W : Valuation τ sig (Elt F))

/-! ## Edge messages (`opsA`) -/

attribute [local irreducible] Host.gather Host.scatterAdd Host.reduceAdd in
set_option maxRecDepth 8192 in
theorem readA_v1 : after opsA W (main_v1 : DevRef τ sig) = Cert.Spec.srcVec (F := F) (W (main_arg14 : DevRef τ sig)) := by read_fold

attribute [local irreducible] Host.gather Host.scatterAdd Host.reduceAdd in
set_option maxRecDepth 8192 in
theorem readA_v22 :
    after opsA W (main_v22 : DevRef τ sig)
      = Cert.Spec.msg (F := F) (Cert.Spec.xtTgt (F := F) (W (main_arg1 : DevRef τ sig)) (W (main_arg14 : DevRef τ sig)))
          (W (main_arg2 : DevRef τ sig)) (W (main_arg4 : DevRef τ sig)) (W (main_arg5 : DevRef τ sig)) (W (main_arg6 : DevRef τ sig)) (W (main_arg7 : DevRef τ sig)) := by read_fold

attribute [local irreducible] Host.gather Host.scatterAdd Host.reduceAdd in
set_option maxRecDepth 8192 in
theorem keepA_arg0 : after opsA W (main_arg0 : DevRef τ sig) = W (main_arg0 : DevRef τ sig) := by keep_fold

attribute [local irreducible] Host.gather Host.scatterAdd Host.reduceAdd in
set_option maxRecDepth 8192 in
theorem keepA_arg3 : after opsA W (main_arg3 : DevRef τ sig) = W (main_arg3 : DevRef τ sig) := by keep_fold

attribute [local irreducible] Host.gather Host.scatterAdd Host.reduceAdd in
set_option maxRecDepth 8192 in
theorem keepA_arg8 : after opsA W (main_arg8 : DevRef τ sig) = W (main_arg8 : DevRef τ sig) := by keep_fold

attribute [local irreducible] Host.gather Host.scatterAdd Host.reduceAdd in
set_option maxRecDepth 8192 in
theorem keepA_arg9 : after opsA W (main_arg9 : DevRef τ sig) = W (main_arg9 : DevRef τ sig) := by keep_fold

attribute [local irreducible] Host.gather Host.scatterAdd Host.reduceAdd in
set_option maxRecDepth 8192 in
theorem keepA_arg10 : after opsA W (main_arg10 : DevRef τ sig) = W (main_arg10 : DevRef τ sig) := by keep_fold

attribute [local irreducible] Host.gather Host.scatterAdd Host.reduceAdd in
set_option maxRecDepth 8192 in
theorem keepA_arg11 : after opsA W (main_arg11 : DevRef τ sig) = W (main_arg11 : DevRef τ sig) := by keep_fold

attribute [local irreducible] Host.gather Host.scatterAdd Host.reduceAdd in
set_option maxRecDepth 8192 in
theorem keepA_arg12 : after opsA W (main_arg12 : DevRef τ sig) = W (main_arg12 : DevRef τ sig) := by keep_fold

attribute [local irreducible] Host.gather Host.scatterAdd Host.reduceAdd in
set_option maxRecDepth 8192 in
theorem keepA_arg13 : after opsA W (main_arg13 : DevRef τ sig) = W (main_arg13 : DevRef τ sig) := by keep_fold

/-! ## Edge counts and the mean message (`opsB`) -/

attribute [local irreducible] Host.gather Host.scatterAdd Host.reduceAdd in
set_option maxRecDepth 8192 in
theorem readB_v28 : after opsB W (main_v28 : DevRef τ sig) = denomOf (F := F) (W (main_v1 : DevRef τ sig)) := by read_fold

attribute [local irreducible] Host.gather Host.scatterAdd Host.reduceAdd in
set_option maxRecDepth 8192 in
theorem readB_v34 :
    after opsB W (main_v34 : DevRef τ sig) = segMeanOf (F := F) (W (main_v22 : DevRef τ sig)) (W (main_v1 : DevRef τ sig)) (denomOf (F := F) (W (main_v1 : DevRef τ sig))) := by
  read_fold

attribute [local irreducible] Host.gather Host.scatterAdd Host.reduceAdd in
set_option maxRecDepth 8192 in
theorem keepB_v1 : after opsB W (main_v1 : DevRef τ sig) = W (main_v1 : DevRef τ sig) := by keep_fold

attribute [local irreducible] Host.gather Host.scatterAdd Host.reduceAdd in
set_option maxRecDepth 8192 in
theorem keepB_v22 : after opsB W (main_v22 : DevRef τ sig) = W (main_v22 : DevRef τ sig) := by keep_fold

attribute [local irreducible] Host.gather Host.scatterAdd Host.reduceAdd in
set_option maxRecDepth 8192 in
theorem keepB_arg0 : after opsB W (main_arg0 : DevRef τ sig) = W (main_arg0 : DevRef τ sig) := by keep_fold

attribute [local irreducible] Host.gather Host.scatterAdd Host.reduceAdd in
set_option maxRecDepth 8192 in
theorem keepB_arg3 : after opsB W (main_arg3 : DevRef τ sig) = W (main_arg3 : DevRef τ sig) := by keep_fold

attribute [local irreducible] Host.gather Host.scatterAdd Host.reduceAdd in
set_option maxRecDepth 8192 in
theorem keepB_arg8 : after opsB W (main_arg8 : DevRef τ sig) = W (main_arg8 : DevRef τ sig) := by keep_fold

attribute [local irreducible] Host.gather Host.scatterAdd Host.reduceAdd in
set_option maxRecDepth 8192 in
theorem keepB_arg9 : after opsB W (main_arg9 : DevRef τ sig) = W (main_arg9 : DevRef τ sig) := by keep_fold

attribute [local irreducible] Host.gather Host.scatterAdd Host.reduceAdd in
set_option maxRecDepth 8192 in
theorem keepB_arg10 : after opsB W (main_arg10 : DevRef τ sig) = W (main_arg10 : DevRef τ sig) := by keep_fold

attribute [local irreducible] Host.gather Host.scatterAdd Host.reduceAdd in
set_option maxRecDepth 8192 in
theorem keepB_arg11 : after opsB W (main_arg11 : DevRef τ sig) = W (main_arg11 : DevRef τ sig) := by keep_fold

attribute [local irreducible] Host.gather Host.scatterAdd Host.reduceAdd in
set_option maxRecDepth 8192 in
theorem keepB_arg12 : after opsB W (main_arg12 : DevRef τ sig) = W (main_arg12 : DevRef τ sig) := by keep_fold

attribute [local irreducible] Host.gather Host.scatterAdd Host.reduceAdd in
set_option maxRecDepth 8192 in
theorem keepB_arg13 : after opsB W (main_arg13 : DevRef τ sig) = W (main_arg13 : DevRef τ sig) := by keep_fold

end Cert.ReferenceIdeal.RefRead

end
-- ==== Proof.RefStagesC.lean ====
/-
  The reference's third list (in its two parts) read at the buffers later lists use: the second moment, the rectified
  variance and the deviation scale; the third and fourth moments and their standardized forms; and the buffers those lists
  leave alone.
-/
import proofs.«155120_j26276609917535_2_alg».proof.Proof.RefStageDefs

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.Spec (FA IA)

variable {F : FTy → Type} [FloatOps F]

variable (W : Valuation τ sig (Elt F))

/-! ## Second moment, variance and deviation scale (`opsC1`) -/

attribute [local irreducible] Host.gather Host.scatterAdd Host.reduceAdd in
set_option maxRecDepth 8192 in
theorem readC1_v41 : after opsC1 W (main_v41 : DevRef τ sig) = segMeanOf (F := F) (mulf (W (main_v22 : DevRef τ sig)) (W (main_v22 : DevRef τ sig))) (W (main_v1 : DevRef τ sig)) (W (main_v28 : DevRef τ sig)) := by read_fold

attribute [local irreducible] Host.gather Host.scatterAdd Host.reduceAdd in
set_option maxRecDepth 8192 in
theorem readC1_v44 : after opsC1 W (main_v44 : DevRef τ sig) = Cert.Spec.leakyN (F := F) 0x3C23D70A#32 (subf (segMeanOf (F := F) (mulf (W (main_v22 : DevRef τ sig)) (W (main_v22 : DevRef τ sig))) (W (main_v1 : DevRef τ sig)) (W (main_v28 : DevRef τ sig))) (mulf (W (main_v34 : DevRef τ sig)) (W (main_v34 : DevRef τ sig)))) := by read_fold

attribute [local irreducible] Host.gather Host.scatterAdd Host.reduceAdd in
set_option maxRecDepth 8192 in
theorem readC1_v47 : after opsC1 W (main_v47 : DevRef τ sig) = Cert.Spec.stdN (F := F) (Cert.Spec.leakyN (F := F) 0x3C23D70A#32 (subf (segMeanOf (F := F) (mulf (W (main_v22 : DevRef τ sig)) (W (main_v22 : DevRef τ sig))) (W (main_v1 : DevRef τ sig)) (W (main_v28 : DevRef τ sig))) (mulf (W (main_v34 : DevRef τ sig)) (W (main_v34 : DevRef τ sig))))) := by read_fold

attribute [local irreducible] Host.gather Host.scatterAdd Host.reduceAdd in
set_option maxRecDepth 8192 in
theorem readC1_v48 :
    after opsC1 W (main_v48 : DevRef τ sig) = (broadcastInDim S400000 ![] bcast_S_S400000 (constantI S_ 32 0#32) : IA F S400000) := by
  read_fold

attribute [local irreducible] Host.gather Host.scatterAdd Host.reduceAdd in
set_option maxRecDepth 8192 in
theorem keepC1_v1 : after opsC1 W (main_v1 : DevRef τ sig) = W (main_v1 : DevRef τ sig) := by keep_fold

attribute [local irreducible] Host.gather Host.scatterAdd Host.reduceAdd in
set_option maxRecDepth 8192 in
theorem keepC1_v22 : after opsC1 W (main_v22 : DevRef τ sig) = W (main_v22 : DevRef τ sig) := by keep_fold

attribute [local irreducible] Host.gather Host.scatterAdd Host.reduceAdd in
set_option maxRecDepth 8192 in
theorem keepC1_v28 : after opsC1 W (main_v28 : DevRef τ sig) = W (main_v28 : DevRef τ sig) := by keep_fold

attribute [local irreducible] Host.gather Host.scatterAdd Host.reduceAdd in
set_option maxRecDepth 8192 in
theorem keepC1_v34 : after opsC1 W (main_v34 : DevRef τ sig) = W (main_v34 : DevRef τ sig) := by keep_fold

attribute [local irreducible] Host.gather Host.scatterAdd Host.reduceAdd in
set_option maxRecDepth 8192 in
theorem keepC1_arg0 : after opsC1 W (main_arg0 : DevRef τ sig) = W (main_arg0 : DevRef τ sig) := by keep_fold

attribute [local irreducible] Host.gather Host.scatterAdd Host.reduceAdd in
set_option maxRecDepth 8192 in
theorem keepC1_arg3 : after opsC1 W (main_arg3 : DevRef τ sig) = W (main_arg3 : DevRef τ sig) := by keep_fold

attribute [local irreducible] Host.gather Host.scatterAdd Host.reduceAdd in
set_option maxRecDepth 8192 in
theorem keepC1_arg8 : after opsC1 W (main_arg8 : DevRef τ sig) = W (main_arg8 : DevRef τ sig) := by keep_fold

attribute [local irreducible] Host.gather Host.scatterAdd Host.reduceAdd in
set_option maxRecDepth 8192 in
theorem keepC1_arg9 : after opsC1 W (main_arg9 : DevRef τ sig) = W (main_arg9 : DevRef τ sig) := by keep_fold

attribute [local irreducible] Host.gather Host.scatterAdd Host.reduceAdd in
set_option maxRecDepth 8192 in
theorem keepC1_arg10 : after opsC1 W (main_arg10 : DevRef τ sig) = W (main_arg10 : DevRef τ sig) := by keep_fold

attribute [local irreducible] Host.gather Host.scatterAdd Host.reduceAdd in
set_option maxRecDepth 8192 in
theorem keepC1_arg11 : after opsC1 W (main_arg11 : DevRef τ sig) = W (main_arg11 : DevRef τ sig) := by keep_fold

attribute [local irreducible] Host.gather Host.scatterAdd Host.reduceAdd in
set_option maxRecDepth 8192 in
theorem keepC1_arg12 : after opsC1 W (main_arg12 : DevRef τ sig) = W (main_arg12 : DevRef τ sig) := by keep_fold

attribute [local irreducible] Host.gather Host.scatterAdd Host.reduceAdd in
set_option maxRecDepth 8192 in
theorem keepC1_arg13 : after opsC1 W (main_arg13 : DevRef τ sig) = W (main_arg13 : DevRef τ sig) := by keep_fold

/-! ## Third and fourth moments (`opsC2`) -/

attribute [local irreducible] Host.gather Host.scatterAdd Host.reduceAdd in
set_option maxRecDepth 8192 in
theorem readC2_v63 : after opsC2 W (main_v63 : DevRef τ sig) = segMeanOf (F := F) (Cert.Spec.cube (F := F) (devOf (F := F) (W (main_v22 : DevRef τ sig)) (W (main_v34 : DevRef τ sig)) (W (main_v1 : DevRef τ sig)) (W (main_v48 : DevRef τ sig)))) (W (main_v1 : DevRef τ sig)) (W (main_v28 : DevRef τ sig)) := by read_fold

attribute [local irreducible] Host.gather Host.scatterAdd Host.reduceAdd in
set_option maxRecDepth 8192 in
theorem readC2_v66 :
    after opsC2 W (main_v66 : DevRef τ sig) = Host.divf (segMeanOf (F := F) (Cert.Spec.cube (F := F) (devOf (F := F) (W (main_v22 : DevRef τ sig)) (W (main_v34 : DevRef τ sig)) (W (main_v1 : DevRef τ sig)) (W (main_v48 : DevRef τ sig)))) (W (main_v1 : DevRef τ sig)) (W (main_v28 : DevRef τ sig))) (mulf (mulf (W (main_v47 : DevRef τ sig)) (W (main_v47 : DevRef τ sig))) (W (main_v47 : DevRef τ sig))) := by read_fold

attribute [local irreducible] Host.gather Host.scatterAdd Host.reduceAdd in
set_option maxRecDepth 8192 in
theorem readC2_v74 : after opsC2 W (main_v74 : DevRef τ sig) = segMeanOf (F := F) (Cert.Spec.quart (F := F) (devOf (F := F) (W (main_v22 : DevRef τ sig)) (W (main_v34 : DevRef τ sig)) (W (main_v1 : DevRef τ sig)) (W (main_v48 : DevRef τ sig)))) (W (main_v1 : DevRef τ sig)) (W (main_v28 : DevRef τ sig)) := by read_fold

attribute [local irreducible] Host.gather Host.scatterAdd Host.reduceAdd in
set_option maxRecDepth 8192 in
theorem readC2_v77 :
    after opsC2 W (main_v77 : DevRef τ sig) = Host.divf (segMeanOf (F := F) (Cert.Spec.quart (F := F) (devOf (F := F) (W (main_v22 : DevRef τ sig)) (W (main_v34 : DevRef τ sig)) (W (main_v1 : DevRef τ sig)) (W (main_v48 : DevRef τ sig)))) (W (main_v1 : DevRef τ sig)) (W (main_v28 : DevRef τ sig))) (mulf (mulf (W (main_v47 : DevRef τ sig)) (W (main_v47 : DevRef τ sig))) (mulf (W (main_v47 : DevRef τ sig)) (W (main_v47 : DevRef τ sig)))) := by read_fold

attribute [local irreducible] Host.gather Host.scatterAdd Host.reduceAdd in
set_option maxRecDepth 8192 in
theorem keepC2_v34 : after opsC2 W (main_v34 : DevRef τ sig) = W (main_v34 : DevRef τ sig) := by keep_fold

attribute [local irreducible] Host.gather Host.scatterAdd Host.reduceAdd in
set_option maxRecDepth 8192 in
theorem keepC2_v44 : after opsC2 W (main_v44 : DevRef τ sig) = W (main_v44 : DevRef τ sig) := by keep_fold

attribute [local irreducible] Host.gather Host.scatterAdd Host.reduceAdd in
set_option maxRecDepth 8192 in
theorem keepC2_arg0 : after opsC2 W (main_arg0 : DevRef τ sig) = W (main_arg0 : DevRef τ sig) := by keep_fold

attribute [local irreducible] Host.gather Host.scatterAdd Host.reduceAdd in
set_option maxRecDepth 8192 in
theorem keepC2_arg3 : after opsC2 W (main_arg3 : DevRef τ sig) = W (main_arg3 : DevRef τ sig) := by keep_fold

attribute [local irreducible] Host.gather Host.scatterAdd Host.reduceAdd in
set_option maxRecDepth 8192 in
theorem keepC2_arg8 : after opsC2 W (main_arg8 : DevRef τ sig) = W (main_arg8 : DevRef τ sig) := by keep_fold

attribute [local irreducible] Host.gather Host.scatterAdd Host.reduceAdd in
set_option maxRecDepth 8192 in
theorem keepC2_arg9 : after opsC2 W (main_arg9 : DevRef τ sig) = W (main_arg9 : DevRef τ sig) := by keep_fold

attribute [local irreducible] Host.gather Host.scatterAdd Host.reduceAdd in
set_option maxRecDepth 8192 in
theorem keepC2_arg10 : after opsC2 W (main_arg10 : DevRef τ sig) = W (main_arg10 : DevRef τ sig) := by keep_fold

attribute [local irreducible] Host.gather Host.scatterAdd Host.reduceAdd in
set_option maxRecDepth 8192 in
theorem keepC2_arg11 : after opsC2 W (main_arg11 : DevRef τ sig) = W (main_arg11 : DevRef τ sig) := by keep_fold

attribute [local irreducible] Host.gather Host.scatterAdd Host.reduceAdd in
set_option maxRecDepth 8192 in
theorem keepC2_arg12 : after opsC2 W (main_arg12 : DevRef τ sig) = W (main_arg12 : DevRef τ sig) := by keep_fold

attribute [local irreducible] Host.gather Host.scatterAdd Host.reduceAdd in
set_option maxRecDepth 8192 in
theorem keepC2_arg13 : after opsC2 W (main_arg13 : DevRef τ sig) = W (main_arg13 : DevRef τ sig) := by keep_fold

end Cert.ReferenceIdeal.RefRead

end
-- ==== Proof.RefStagesDE.lean ====
/-
  The reference's last lists read at the buffers later lists use: the node perceptron's output, the mean over the nodes,
  the normalized result; and the buffers those lists leave alone.
-/
import proofs.«155120_j26276609917535_2_alg».proof.Proof.RefStageDefs

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.Spec (FA IA)

variable {F : FTy → Type} [FloatOps F]

variable (W : Valuation τ sig (Elt F))

/-! ## Node features and the node perceptron (`opsD`) -/

attribute [local irreducible] Host.gather Host.scatterAdd Host.reduceAdd in
set_option maxRecDepth 8192 in
set_option maxHeartbeats 1000000 in
theorem readD_v97 :
    after opsD W (main_v97 : DevRef τ sig)
      = Cert.Spec.nodeMlp (F := F)
          (featOf (F := F) (W (main_arg0 : DevRef τ sig)) (W (main_v34 : DevRef τ sig)) (W (main_v44 : DevRef τ sig)) (W (main_v66 : DevRef τ sig)) (W (main_v77 : DevRef τ sig)) (W (main_arg3 : DevRef τ sig)))
          (W (main_arg8 : DevRef τ sig)) (W (main_arg9 : DevRef τ sig)) (W (main_arg10 : DevRef τ sig)) (W (main_arg11 : DevRef τ sig)) := by read_fold

attribute [local irreducible] Host.gather Host.scatterAdd Host.reduceAdd in
set_option maxRecDepth 8192 in
theorem keepD_arg12 : after opsD W (main_arg12 : DevRef τ sig) = W (main_arg12 : DevRef τ sig) := by keep_fold

attribute [local irreducible] Host.gather Host.scatterAdd Host.reduceAdd in
set_option maxRecDepth 8192 in
theorem keepD_arg13 : after opsD W (main_arg13 : DevRef τ sig) = W (main_arg13 : DevRef τ sig) := by keep_fold

/-! ## The mean over the nodes (`opsE1`) and the normalization (`opsE2`) -/

attribute [local irreducible] Host.gather Host.scatterAdd Host.reduceAdd in
set_option maxRecDepth 8192 in
theorem readE1_v100 : after opsE1 W (main_v100 : DevRef τ sig) = muOf (F := F) (W (main_v97 : DevRef τ sig)) := by read_fold

attribute [local irreducible] Host.gather Host.scatterAdd Host.reduceAdd in
set_option maxRecDepth 8192 in
theorem readE1_v101 : after opsE1 W (main_v101 : DevRef τ sig) = rowOf (F := F) (muOf (F := F) (W (main_v97 : DevRef τ sig))) := by read_fold

attribute [local irreducible] Host.gather Host.scatterAdd Host.reduceAdd in
set_option maxRecDepth 8192 in
theorem keepE1_v97 : after opsE1 W (main_v97 : DevRef τ sig) = W (main_v97 : DevRef τ sig) := by keep_fold

attribute [local irreducible] Host.gather Host.scatterAdd Host.reduceAdd in
set_option maxRecDepth 8192 in
theorem keepE1_arg12 : after opsE1 W (main_arg12 : DevRef τ sig) = W (main_arg12 : DevRef τ sig) := by keep_fold

attribute [local irreducible] Host.gather Host.scatterAdd Host.reduceAdd in
set_option maxRecDepth 8192 in
theorem keepE1_arg13 : after opsE1 W (main_arg13 : DevRef τ sig) = W (main_arg13 : DevRef τ sig) := by keep_fold

attribute [local irreducible] Host.gather Host.scatterAdd Host.reduceAdd in
set_option maxRecDepth 8192 in
theorem readE2_v122 :
    after opsE2 W (main_v122 : DevRef τ sig)
      = bnOf (F := F) (W (main_v97 : DevRef τ sig)) (W (main_v100 : DevRef τ sig)) (W (main_v101 : DevRef τ sig)) (W (main_arg12 : DevRef τ sig)) (W (main_arg13 : DevRef τ sig)) := by read_fold

end Cert.ReferenceIdeal.RefRead

end
-- ==== Proof.RefStages.lean ====
/-
  The reference's stages, read one list at a time: the three modules imported here.
-/
import proofs.«155120_j26276609917535_2_alg».proof.Proof.RefStagesAB
import proofs.«155120_j26276609917535_2_alg».proof.Proof.RefStagesC
import proofs.«155120_j26276609917535_2_alg».proof.Proof.RefStagesDE
-- ==== Proof.RefRead.lean ====
/-
  The reference's result as the specification's function of its arguments.

  The contents after each list of the reference's operations, started from contents `V`, are named `sA V … sE2 V`; the
  fold over the whole program is the last of them (a fold over a concatenation is the fold over the second list from
  the fold over the first). For each stage, each buffer a later list reads is identified with the specification's value
  at the ARGUMENTS' contents in `V`: a buffer the stage writes by the stage's reading (RefStages) at the values already
  identified for the buffers it reads, a buffer it leaves alone by the previous stage's identification. The last
  identification is the result buffer's, which is `Cert.Spec.out` of the fifteen arguments once the specification's
  intermediate values are unfolded.
-/
import proofs.«155120_j26276609917535_2_alg».proof.Proof.RefStages
import proofs.«155120_j26276609917535_2_alg».proof.Proof.LibAfterAppend

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo
open Cert.Spec (FA IA)

variable {F : FTy → Type} [FloatOps F] (V : Valuation τ sig (Elt F))

/-! ## The specification's intermediate values at the arguments' contents -/

/-- The edge messages. -/
def mS : FA F S400000x256 :=
  Cert.Spec.msg (F := F) (Cert.Spec.xtTgt (F := F) (V (main_arg1 : DevRef τ sig)) (V (main_arg14 : DevRef τ sig))) (V (main_arg2 : DevRef τ sig)) (V (main_arg4 : DevRef τ sig)) (V (main_arg5 : DevRef τ sig)) (V (main_arg6 : DevRef τ sig)) (V (main_arg7 : DevRef τ sig))
/-- Each node's mean message. -/
def meanS : FA F S50000x256 := Cert.Spec.segMean (F := F) (mS V) (V (main_arg14 : DevRef τ sig))
/-- The deviations of the messages from their node's mean. -/
def dvS : FA F S400000x256 := Cert.Spec.dev (F := F) (mS V) (meanS V) (V (main_arg14 : DevRef τ sig))
/-- Each node's mean squared message, mean cubed deviation, mean fourth-power deviation. -/
def m2S : FA F S50000x256 := Cert.Spec.segMean (F := F) (mulf (mS V) (mS V)) (V (main_arg14 : DevRef τ sig))
def m3S : FA F S50000x256 := Cert.Spec.segMean (F := F) (Cert.Spec.cube (F := F) (dvS V)) (V (main_arg14 : DevRef τ sig))
def m4S : FA F S50000x256 := Cert.Spec.segMean (F := F) (Cert.Spec.quart (F := F) (dvS V)) (V (main_arg14 : DevRef τ sig))
/-- The rectified variance, the deviation scale, the standardized third and fourth moments. -/
def varS : FA F S50000x256 := Cert.Spec.leakyN (F := F) 0x3C23D70A#32 (subf (m2S V) (mulf (meanS V) (meanS V)))
def sdS : FA F S50000x256 := Cert.Spec.stdN (F := F) (varS V)
def skewS : FA F S50000x256 := Host.divf (m3S V) (mulf (mulf (sdS V) (sdS V)) (sdS V))
def kurtS : FA F S50000x256 := Host.divf (m4S V) (mulf (mulf (sdS V) (sdS V)) (mulf (sdS V) (sdS V)))
/-- The node perceptron's output. -/
def oS : FA F S50000x128 :=
  Cert.Spec.nodeMlp (F := F) (Cert.Spec.nodeFeat (F := F) (V (main_arg0 : DevRef τ sig)) (meanS V) (m2S V) (m3S V) (m4S V) (V (main_arg3 : DevRef τ sig))) (V (main_arg8 : DevRef τ sig)) (V (main_arg9 : DevRef τ sig)) (V (main_arg10 : DevRef τ sig)) (V (main_arg11 : DevRef τ sig))

/-! ## The contents after each list -/

abbrev sA : Valuation τ sig (Elt F) := after opsA V
abbrev sB : Valuation τ sig (Elt F) := after opsB (sA V)
abbrev sC1 : Valuation τ sig (Elt F) := after opsC1 (sB V)
abbrev sC2 : Valuation τ sig (Elt F) := after opsC2 (sC1 V)
abbrev sD : Valuation τ sig (Elt F) := after opsD (sC2 V)
abbrev sE1 : Valuation τ sig (Elt F) := after opsE1 (sD V)
abbrev sE2 : Valuation τ sig (Elt F) := after opsE2 (sE1 V)

/-- The fold over the whole program is the fold over its lists in turn. -/
theorem after_ops : after ops V = sE2 V := by
  simp only [ops, opsC, opsE, Cert.Lib.after_append, sE2, sE1, sD, sC2, sC1, sB, sA]

/-! ## After the edge messages -/

theorem sA_v1 : sA V (main_v1 : DevRef τ sig) = Cert.Spec.srcVec (F := F) (V (main_arg14 : DevRef τ sig)) := readA_v1 V
theorem sA_v22 : sA V (main_v22 : DevRef τ sig) = mS V := readA_v22 V
theorem sA_arg0 : sA V (main_arg0 : DevRef τ sig) = (V (main_arg0 : DevRef τ sig)) := keepA_arg0 V
theorem sA_arg3 : sA V (main_arg3 : DevRef τ sig) = (V (main_arg3 : DevRef τ sig)) := keepA_arg3 V
theorem sA_arg8 : sA V (main_arg8 : DevRef τ sig) = (V (main_arg8 : DevRef τ sig)) := keepA_arg8 V
theorem sA_arg9 : sA V (main_arg9 : DevRef τ sig) = (V (main_arg9 : DevRef τ sig)) := keepA_arg9 V
theorem sA_arg10 : sA V (main_arg10 : DevRef τ sig) = (V (main_arg10 : DevRef τ sig)) := keepA_arg10 V
theorem sA_arg11 : sA V (main_arg11 : DevRef τ sig) = (V (main_arg11 : DevRef τ sig)) := keepA_arg11 V
theorem sA_arg12 : sA V (main_arg12 : DevRef τ sig) = (V (main_arg12 : DevRef τ sig)) := keepA_arg12 V
theorem sA_arg13 : sA V (main_arg13 : DevRef τ sig) = (V (main_arg13 : DevRef τ sig)) := keepA_arg13 V

/-! ## After the counts and the mean message -/

theorem sB_v1 : sB V (main_v1 : DevRef τ sig) = Cert.Spec.srcVec (F := F) (V (main_arg14 : DevRef τ sig)) :=
  (keepB_v1 (sA V)).trans (sA_v1 V)
theorem sB_v22 : sB V (main_v22 : DevRef τ sig) = mS V :=
  (keepB_v22 (sA V)).trans (sA_v22 V)
theorem sB_v28 : sB V (main_v28 : DevRef τ sig) = Cert.Spec.denom (F := F) (V (main_arg14 : DevRef τ sig)) :=
  (readB_v28 (sA V)).trans (by rw [sA_v1 V]; rfl)
theorem sB_v34 : sB V (main_v34 : DevRef τ sig) = meanS V :=
  (readB_v34 (sA V)).trans (by rw [sA_v22 V, sA_v1 V]; rfl)
theorem sB_arg0 : sB V (main_arg0 : DevRef τ sig) = (V (main_arg0 : DevRef τ sig)) :=
  (keepB_arg0 (sA V)).trans (sA_arg0 V)
theorem sB_arg3 : sB V (main_arg3 : DevRef τ sig) = (V (main_arg3 : DevRef τ sig)) :=
  (keepB_arg3 (sA V)).trans (sA_arg3 V)
theorem sB_arg8 : sB V (main_arg8 : DevRef τ sig) = (V (main_arg8 : DevRef τ sig)) :=
  (keepB_arg8 (sA V)).trans (sA_arg8 V)
theorem sB_arg9 : sB V (main_arg9 : DevRef τ sig) = (V (main_arg9 : DevRef τ sig)) :=
  (keepB_arg9 (sA V)).trans (sA_arg9 V)
theorem sB_arg10 : sB V (main_arg10 : DevRef τ sig) = (V (main_arg10 : DevRef τ sig)) :=
  (keepB_arg10 (sA V)).trans (sA_arg10 V)
theorem sB_arg11 : sB V (main_arg11 : DevRef τ sig) = (V (main_arg11 : DevRef τ sig)) :=
  (keepB_arg11 (sA V)).trans (sA_arg11 V)
theorem sB_arg12 : sB V (main_arg12 : DevRef τ sig) = (V (main_arg12 : DevRef τ sig)) :=
  (keepB_arg12 (sA V)).trans (sA_arg12 V)
theorem sB_arg13 : sB V (main_arg13 : DevRef τ sig) = (V (main_arg13 : DevRef τ sig)) :=
  (keepB_arg13 (sA V)).trans (sA_arg13 V)

/-! ## After the second moment and the deviation scale -/

theorem sC1_v1 : sC1 V (main_v1 : DevRef τ sig) = Cert.Spec.srcVec (F := F) (V (main_arg14 : DevRef τ sig)) :=
  (keepC1_v1 (sB V)).trans (sB_v1 V)
theorem sC1_v22 : sC1 V (main_v22 : DevRef τ sig) = mS V :=
  (keepC1_v22 (sB V)).trans (sB_v22 V)
theorem sC1_v28 : sC1 V (main_v28 : DevRef τ sig) = Cert.Spec.denom (F := F) (V (main_arg14 : DevRef τ sig)) :=
  (keepC1_v28 (sB V)).trans (sB_v28 V)
theorem sC1_v34 : sC1 V (main_v34 : DevRef τ sig) = meanS V :=
  (keepC1_v34 (sB V)).trans (sB_v34 V)
theorem sC1_v41 : sC1 V (main_v41 : DevRef τ sig) = m2S V :=
  (readC1_v41 (sB V)).trans (by rw [sB_v22 V, sB_v1 V, sB_v28 V]; rfl)
theorem sC1_v44 : sC1 V (main_v44 : DevRef τ sig) = varS V :=
  (readC1_v44 (sB V)).trans (by rw [sB_v22 V, sB_v1 V, sB_v28 V, sB_v34 V]; rfl)
theorem sC1_v47 : sC1 V (main_v47 : DevRef τ sig) = sdS V :=
  (readC1_v47 (sB V)).trans (by rw [sB_v22 V, sB_v1 V, sB_v28 V, sB_v34 V]; rfl)
theorem sC1_v48 :
    sC1 V (main_v48 : DevRef τ sig) = (broadcastInDim S400000 ![] bcast_S_S400000 (constantI S_ 32 0#32) : IA F S400000) :=
  readC1_v48 (sB V)
theorem sC1_arg0 : sC1 V (main_arg0 : DevRef τ sig) = (V (main_arg0 : DevRef τ sig)) :=
  (keepC1_arg0 (sB V)).trans (sB_arg0 V)
theorem sC1_arg3 : sC1 V (main_arg3 : DevRef τ sig) = (V (main_arg3 : DevRef τ sig)) :=
  (keepC1_arg3 (sB V)).trans (sB_arg3 V)
theorem sC1_arg8 : sC1 V (main_arg8 : DevRef τ sig) = (V (main_arg8 : DevRef τ sig)) :=
  (keepC1_arg8 (sB V)).trans (sB_arg8 V)
theorem sC1_arg9 : sC1 V (main_arg9 : DevRef τ sig) = (V (main_arg9 : DevRef τ sig)) :=
  (keepC1_arg9 (sB V)).trans (sB_arg9 V)
theorem sC1_arg10 : sC1 V (main_arg10 : DevRef τ sig) = (V (main_arg10 : DevRef τ sig)) :=
  (keepC1_arg10 (sB V)).trans (sB_arg10 V)
theorem sC1_arg11 : sC1 V (main_arg11 : DevRef τ sig) = (V (main_arg11 : DevRef τ sig)) :=
  (keepC1_arg11 (sB V)).trans (sB_arg11 V)
theorem sC1_arg12 : sC1 V (main_arg12 : DevRef τ sig) = (V (main_arg12 : DevRef τ sig)) :=
  (keepC1_arg12 (sB V)).trans (sB_arg12 V)
theorem sC1_arg13 : sC1 V (main_arg13 : DevRef τ sig) = (V (main_arg13 : DevRef τ sig)) :=
  (keepC1_arg13 (sB V)).trans (sB_arg13 V)

/-! ## After the third and fourth moments -/

theorem sC2_v34 : sC2 V (main_v34 : DevRef τ sig) = meanS V :=
  (keepC2_v34 (sC1 V)).trans (sC1_v34 V)
theorem sC2_v44 : sC2 V (main_v44 : DevRef τ sig) = varS V :=
  (keepC2_v44 (sC1 V)).trans (sC1_v44 V)
theorem sC2_v63 : sC2 V (main_v63 : DevRef τ sig) = m3S V :=
  (readC2_v63 (sC1 V)).trans (by rw [sC1_v22 V, sC1_v34 V, sC1_v1 V, sC1_v48 V, sC1_v28 V]; rfl)
theorem sC2_v66 : sC2 V (main_v66 : DevRef τ sig) = skewS V :=
  (readC2_v66 (sC1 V)).trans (by rw [sC1_v22 V, sC1_v34 V, sC1_v1 V, sC1_v48 V, sC1_v28 V, sC1_v47 V]; rfl)
theorem sC2_v74 : sC2 V (main_v74 : DevRef τ sig) = m4S V :=
  (readC2_v74 (sC1 V)).trans (by rw [sC1_v22 V, sC1_v34 V, sC1_v1 V, sC1_v48 V, sC1_v28 V]; rfl)
theorem sC2_v77 : sC2 V (main_v77 : DevRef τ sig) = kurtS V :=
  (readC2_v77 (sC1 V)).trans (by rw [sC1_v22 V, sC1_v34 V, sC1_v1 V, sC1_v48 V, sC1_v28 V, sC1_v47 V]; rfl)
theorem sC2_arg0 : sC2 V (main_arg0 : DevRef τ sig) = (V (main_arg0 : DevRef τ sig)) :=
  (keepC2_arg0 (sC1 V)).trans (sC1_arg0 V)
theorem sC2_arg3 : sC2 V (main_arg3 : DevRef τ sig) = (V (main_arg3 : DevRef τ sig)) :=
  (keepC2_arg3 (sC1 V)).trans (sC1_arg3 V)
theorem sC2_arg8 : sC2 V (main_arg8 : DevRef τ sig) = (V (main_arg8 : DevRef τ sig)) :=
  (keepC2_arg8 (sC1 V)).trans (sC1_arg8 V)
theorem sC2_arg9 : sC2 V (main_arg9 : DevRef τ sig) = (V (main_arg9 : DevRef τ sig)) :=
  (keepC2_arg9 (sC1 V)).trans (sC1_arg9 V)
theorem sC2_arg10 : sC2 V (main_arg10 : DevRef τ sig) = (V (main_arg10 : DevRef τ sig)) :=
  (keepC2_arg10 (sC1 V)).trans (sC1_arg10 V)
theorem sC2_arg11 : sC2 V (main_arg11 : DevRef τ sig) = (V (main_arg11 : DevRef τ sig)) :=
  (keepC2_arg11 (sC1 V)).trans (sC1_arg11 V)
theorem sC2_arg12 : sC2 V (main_arg12 : DevRef τ sig) = (V (main_arg12 : DevRef τ sig)) :=
  (keepC2_arg12 (sC1 V)).trans (sC1_arg12 V)
theorem sC2_arg13 : sC2 V (main_arg13 : DevRef τ sig) = (V (main_arg13 : DevRef τ sig)) :=
  (keepC2_arg13 (sC1 V)).trans (sC1_arg13 V)

/-! ## After the node perceptron -/

theorem sD_v97 : sD V (main_v97 : DevRef τ sig) = oS V :=
  (readD_v97 (sC2 V)).trans (by rw [sC2_arg0 V, sC2_v34 V, sC2_v44 V, sC2_v66 V, sC2_v77 V, sC2_arg3 V, sC2_arg8 V, sC2_arg9 V, sC2_arg10 V, sC2_arg11 V]; rfl)
theorem sD_arg12 : sD V (main_arg12 : DevRef τ sig) = (V (main_arg12 : DevRef τ sig)) :=
  (keepD_arg12 (sC2 V)).trans (sC2_arg12 V)
theorem sD_arg13 : sD V (main_arg13 : DevRef τ sig) = (V (main_arg13 : DevRef τ sig)) :=
  (keepD_arg13 (sC2 V)).trans (sC2_arg13 V)

/-! ## After the mean over the nodes -/

theorem sE1_v97 : sE1 V (main_v97 : DevRef τ sig) = oS V :=
  (keepE1_v97 (sD V)).trans (sD_v97 V)
theorem sE1_v100 : sE1 V (main_v100 : DevRef τ sig) = muOf (F := F) (oS V) :=
  (readE1_v100 (sD V)).trans (congrArg (fun t => muOf (F := F) t) (sD_v97 V))
theorem sE1_v101 : sE1 V (main_v101 : DevRef τ sig) = rowOf (F := F) (muOf (F := F) (oS V)) :=
  (readE1_v101 (sD V)).trans (congrArg (fun t => rowOf (F := F) (muOf (F := F) t)) (sD_v97 V))
theorem sE1_arg12 : sE1 V (main_arg12 : DevRef τ sig) = (V (main_arg12 : DevRef τ sig)) :=
  (keepE1_arg12 (sD V)).trans (sD_arg12 V)
theorem sE1_arg13 : sE1 V (main_arg13 : DevRef τ sig) = (V (main_arg13 : DevRef τ sig)) :=
  (keepE1_arg13 (sD V)).trans (sD_arg13 V)

/-! ## The result -/

theorem sE2_v122 : sE2 V (main_v122 : DevRef τ sig) = Cert.Spec.bn (F := F) (oS V) (V (main_arg12 : DevRef τ sig)) (V (main_arg13 : DevRef τ sig)) :=
  (readE2_v122 (sE1 V)).trans
    (by rw [sE1_v97 V, sE1_v100 V, sE1_v101 V, sE1_arg12 V, sE1_arg13 V]; exact bnOf_spec _ _ _)

/-- The reference's result buffer, after all 222 operations from contents `V`, is the specification's result at the
    fifteen arguments' contents in `V`. -/
theorem out_eq :
    after ops V (main_v122 : DevRef τ sig)
      = Cert.Spec.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_ops V, sE2_v122 V]
  rfl

end Cert.ReferenceIdeal.RefRead

end
-- ==== Proof.KRun.lean ====
/- The kernel program's run with its result array named: from any launch memory with zero counters, every weakly
   fair execution of @main on the TensorCores terminates without fault, the result array `main_v83` ends at the last
   boundary's contents `Gen.W5` (the fold of the host stretches and the two regions' write-backs from the launch
   memory), and the fifteen argument arrays end as launched. -/
import proofs.«155120_j26276609917535_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main at any `F`: it terminates, the result array holds the last boundary's contents, and the
    argument arrays are unchanged. The last thread state holds every unscoped buffer at `Gen.W5`; read against the
    final state it gives the result array's contents by name and each argument's by the fold walked back to launch. -/
theorem run_val : θ_run defs (onTc (τ := τ) (main (F := F))) ⟨m, fun _ => 0, ρ⟩ (fun r => ∀ c : Dev nD,
      r.2.mem ((c.tc : Thread nD τ).loc main_v83) = Gen.W5 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v83 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c)⟩)

end Cert.KernelIdeal.KRun

end
-- ==== Proof.KSpec.lean ====
/- The kernel program's host stretches as pure terms: what each array that a region reads (or the program returns)
   holds, as a function of the arrays the stretch itself reads. Written with the program's own shape records and
   operations, so that each equals the fold of the stretch's operations by unfolding alone. -/
import proofs.«155120_j26276609917535_2_alg».proof.Proof.Gen.KernelIdeal

noncomputable section

namespace Cert.KSpec

open Idealize.ShloMosaic
open Cert.KernelIdeal Cert.KernelIdeal.Gen

variable {F : FTy → Type} [FloatOps F]

/-! ## Before the edge region -/

/-- Row 0 of the edge list: each edge's segment (the node its message is summed into). -/
def src (ei : IVec S2x400000 32) : IVec S400000 32 :=
  shapeCast S400000 (extractStridedSlice S1x400000 ![0, 0] ei slices_S2x400000_S1x400000_0_0) shapeCasts_S1x400000_S400000
/-- Row 1 of the edge list: the node each edge reads its features from. -/
def dst (ei : IVec S2x400000 32) : IVec S400000 32 :=
  shapeCast S400000 (extractStridedSlice S1x400000 ![1, 0] ei slices_S2x400000_S1x400000_1_0) shapeCasts_S1x400000_S400000
/-- A negative index counted from the end: `i + 50000` where `i < 0`, else `i`. -/
def wrap (i : IVec S400000 32) : IVec S400000 32 :=
  select (cmpi .slt i (broadcastInDim S400000 ![] bcast_S_S400000 (constantI S_ 32 0#32)))
    (addi i (broadcastInDim S400000 ![] bcast_S_S400000 (constantI S_ 32 50000#32))) i
/-- An index vector as a one-column index array. -/
def col (i : IVec S400000 32) : IVec S400000x1 32 :=
  broadcastInDim S400000x1 ![0] bcast_S400000_S400000x1_0 i
/-- The node features gathered per edge: row `e` is `x`'s row `wrap (dst ei) e`. -/
def xdst (x : FVec F S50000x128 .f32) (ei : IVec S2x400000 32) : FVec F S400000x128 .f32 :=
  Host.gather gather_S50000x128_S400000x1_S400000x128_1_0_n_n_0_1_1128 x (col (wrap (dst ei)))
/-- A 256x256 weight transposed and rounded to bf16. -/
def wT256 (w : FVec F S256x256 .f32) : FVec F S256x256 .bf16 :=
  truncf .bf16 (transpose S256x256 [1, 0] w transposes_S256x256_S256x256_1_0) bitsLt_bf16_f32
/-- A 256-vector as a one-row array. -/
def row256 (b : FVec F S256 .f32) : FVec F S1x256 .f32 := shapeCast S1x256 b shapeCasts_S256_S1x256

/-! ## Between the regions: the segment sums -/

/-- Each node's edge count: ones scatter-added by segment into zeros. -/
def deg (s : IVec S400000 32) : FVec F S50000 .f32 :=
  Host.scatterAdd scatter_S50000_S400000x1_S400000_n_0_0_1
    (broadcastInDim S50000 ![] bcast_S_S50000 (constant (F := F) S_ .f32 0x00000000#32)) (col s)
    (broadcastInDim S400000 ![] bcast_S_S400000 (constant (F := F) S_ .f32 0x3F800000#32))
/-- The denominator column: `max (count, 1)`. -/
def denom (s : IVec S400000 32) : FVec F S50000x1 .f32 :=
  shapeCast S50000x1 (maximumf (deg (F := F) s) (broadcastInDim S50000 ![] bcast_S_S50000 (constant (F := F) S_ .f32 0x3F800000#32)))
    shapeCasts_S50000_S50000x1
/-- Two 256-column arrays side by side. -/
def cat (a b : FVec F S400000x256 .f32) : FVec F S400000x512 .f32 :=
  concatenate S400000x512 1 [⟨S400000x256, a⟩, ⟨S400000x256, b⟩] concatenates_S400000x256_S400000x256_S400000x512_d1
/-- Rows scatter-added by segment into zeros. -/
def segsum (s : IVec S400000 32) (u : FVec F S400000x512 .f32) : FVec F S50000x512 .f32 :=
  Host.scatterAdd scatter_S50000x512_S400000x1_S400000x512_1_0_0_1
    (broadcastInDim S50000x512 ![] bcast_S_S50000x512 (constant (F := F) S_ .f32 0x00000000#32)) (col s) u
/-- The left and right halves of a 512-column array. -/
def lo (y : FVec F S50000x512 .f32) : FVec F S50000x256 .f32 :=
  extractStridedSlice S50000x256 ![0, 0] y slices_S50000x512_S50000x256_0_0
def hi (y : FVec F S50000x512 .f32) : FVec F S50000x256 .f32 :=
  extractStridedSlice S50000x256 ![0, 256] y slices_S50000x512_S50000x256_0_256
/-- Per segment: the sum of the messages, and of their squares. -/
def sum1 (msg : FVec F S400000x256 .f32) (s : IVec S400000 32) : FVec F S50000x256 .f32 := lo (segsum s (cat msg (mulf msg msg)))
def sumsq (msg : FVec F S400000x256 .f32) (s : IVec S400000 32) : FVec F S50000x256 .f32 := hi (segsum s (cat msg (mulf msg msg)))
/-- The segment mean: the sum over the denominator column. -/
def mean (msg : FVec F S400000x256 .f32) (s : IVec S400000 32) : FVec F S50000x256 .f32 :=
  Host.divf (sum1 msg s) (broadcastInDim S50000x256 ![0, 1] bcast_S50000x1_S50000x256_0_1 (denom (F := F) s))
/-- Each message less its segment's mean. -/
def centered (msg : FVec F S400000x256 .f32) (s : IVec S400000 32) : FVec F S400000x256 .f32 :=
  subf msg (Host.gather gather_S50000x256_S400000x1_S400000x256_1_0_n_n_0_1_1256 (mean msg s) (col (wrap s)))
/-- The cube and the fourth power as the program multiplies them: `(d·d)·d` and `(d·d)·(d·d)`. -/
def cube (d : FVec F S400000x256 .f32) : FVec F S400000x256 .f32 := mulf (mulf d d) d
def fourth (d : FVec F S400000x256 .f32) : FVec F S400000x256 .f32 := mulf (mulf d d) (mulf d d)
/-- Per segment: the sums of the centered messages' cubes and fourth powers. -/
def sum3 (msg : FVec F S400000x256 .f32) (s : IVec S400000 32) : FVec F S50000x256 .f32 :=
  lo (segsum s (cat (cube (centered msg s)) (fourth (centered msg s))))
def sum4 (msg : FVec F S400000x256 .f32) (s : IVec S400000 32) : FVec F S50000x256 .f32 :=
  hi (segsum s (cat (cube (centered msg s)) (fourth (centered msg s))))
/-- The second layer's weights transposed and rounded to bf16, its biases as one-row arrays. -/
def wT1280 (w : FVec F S1280x1280 .f32) : FVec F S1280x1280 .bf16 :=
  truncf .bf16 (transpose S1280x1280 [1, 0] w transposes_S1280x1280_S1280x1280_1_0) bitsLt_bf16_f32
def wT1280x128 (w : FVec F S128x1280 .f32) : FVec F S1280x128 .bf16 :=
  truncf .bf16 (transpose S1280x128 [1, 0] w transposes_S128x1280_S1280x128_1_0) bitsLt_bf16_f32
def row1280 (b : FVec F S1280 .f32) : FVec F S1x1280 .f32 := shapeCast S1x1280 b shapeCasts_S1280_S1x1280
def row128 (b : FVec F S128 .f32) : FVec F S1x128 .f32 := shapeCast S1x128 b shapeCasts_S128_S1x128

/-! ## After the node region: the batch normalisation -/

/-- A 128-vector repeated down 50000 rows. -/
def rows (v : FVec F S128 .f32) : FVec F S50000x128 .f32 :=
  broadcastInDim S50000x128 ![0, 1] bcast_S1x128_S50000x128_0_1 (broadcastInDim S1x128 ![1] bcast_S128_S1x128_1 v)
/-- A column sum over the 50000 rows, from zero, over 50000. -/
def colavg (h : FVec F S50000x128 .f32) : FVec F S128 .f32 :=
  Host.divf (Host.reduceAdd h (constant (F := F) S_ .f32 0x00000000#32) reducesTo_S50000x128_S128_d0 h_S_)
    (broadcastInDim S128 ![] bcast_S_S128 (constant (F := F) S_ .f32 0x47435000#32))
/-- The array less its column means. -/
def hc (h : FVec F S50000x128 .f32) : FVec F S50000x128 .f32 := subf h (rows (colavg h))
/-- The column variances: the column means of the squared differences. -/
def colvar (h : FVec F S50000x128 .f32) : FVec F S128 .f32 := colavg (mulf (hc h) (hc h))
/-- The normalised array, scaled by `g` and shifted by `b`. -/
def bn (h : FVec F S50000x128 .f32) (g b : FVec F S128 .f32) : FVec F S50000x128 .f32 :=
  addf (mulf (Host.divf (hc h) (rows (Host.sqrt (addf (colvar h) (broadcastInDim S128 ![] bcast_S_S128 (constant (F := F) S_ .f32 0x3727C5AC#32))))))
    (rows g)) (rows b)

end Cert.KSpec

end
-- ==== Proof.KHost.lean ====
/- The kernel program's host stretches read as pure terms (the definitions of `Cert.KSpec`), from any contents
   `W` at the stretch's start; and which array each window of the two regions stages. -/
import proofs.«155120_j26276609917535_2_alg».proof.Proof.Gen.KernelIdeal.Launch
import proofs.«155120_j26276609917535_2_alg».proof.Proof.KSpec
import Idealize.ShloMosaic.Lib.StableHlo.Run

set_option maxRecDepth 16384
set_option maxHeartbeats 800000

noncomputable section

namespace Cert.KernelIdeal.KHost

open Idealize.ShloMosaic Idealize.ShloMosaic.StableHlo
open Cert.KernelIdeal.Gen

variable {F : FTy → Type} [FloatOps F]

/-! ## The windows' arrays -/

theorem arrRef0_0 : Pipeline.arrRef spec0 0 = main_v10 := rfl
theorem arrRef0_1 : Pipeline.arrRef spec0 1 = main_arg2 := rfl
theorem arrRef0_2 : Pipeline.arrRef spec0 2 = main_v12 := rfl
theorem arrRef0_3 : Pipeline.arrRef spec0 3 = main_v15 := rfl
theorem arrRef0_4 : Pipeline.arrRef spec0 4 = main_v14 := rfl
theorem arrRef0_5 : Pipeline.arrRef spec0 5 = main_v16 := rfl
theorem arrRef0_6 : Pipeline.arrRef spec0 6 = main_v17 := rfl
theorem arrRef1_0 : Pipeline.arrRef spec1 0 = main_v33 := rfl
theorem arrRef1_1 : Pipeline.arrRef spec1 1 = main_v31 := rfl
theorem arrRef1_2 : Pipeline.arrRef spec1 2 = main_v24 := rfl
theorem arrRef1_3 : Pipeline.arrRef spec1 3 = main_v50 := rfl
theorem arrRef1_4 : Pipeline.arrRef spec1 4 = main_v51 := rfl
theorem arrRef1_5 : Pipeline.arrRef spec1 5 = main_arg0 := rfl
theorem arrRef1_6 : Pipeline.arrRef spec1 6 = main_arg3 := rfl
theorem arrRef1_7 : Pipeline.arrRef spec1 7 = main_v53 := rfl
theorem arrRef1_8 : Pipeline.arrRef spec1 8 = main_v56 := rfl
theorem arrRef1_9 : Pipeline.arrRef spec1 9 = main_v55 := rfl
theorem arrRef1_10 : Pipeline.arrRef spec1 10 = main_v57 := rfl
theorem arrRef1_11 : Pipeline.arrRef spec1 11 = main_v58 := rfl

/-- The denominator column's shape, as its buffer's type gives it. -/
theorem v24_shape : main_v24.ty.shape = S50000x1 := rfl

/-- An operation's result holds, at its own result buffer, its function of the operands' contents, and at any other
    buffer what was there before. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (W : Valuation τ sig (Elt F))

/-! ## The first stretch: before the edge region -/

theorem h0_v1 : (after hostOps0 W (Proc.devRef .tc main_v1) : IVec S400000 32) = KSpec.src (W (Proc.devRef .tc main_arg14)) := by
  unfold hostOps0; after_results; rfl
theorem h0_v10 : (after hostOps0 W (Proc.devRef .tc main_v10) : FVec F S400000x128 .f32)
    = KSpec.xdst (W (Proc.devRef .tc main_arg1)) (W (Proc.devRef .tc main_arg14)) := by
  unfold hostOps0; after_results; rfl
theorem h0_v12 : (after hostOps0 W (Proc.devRef .tc main_v12) : FVec F S256x256 .bf16) = KSpec.wT256 (W (Proc.devRef .tc main_arg4)) := by
  unfold hostOps0; after_results; rfl
theorem h0_v14 : (after hostOps0 W (Proc.devRef .tc main_v14) : FVec F S256x256 .bf16) = KSpec.wT256 (W (Proc.devRef .tc main_arg6)) := by
  unfold hostOps0; after_results; rfl
theorem h0_v15 : (after hostOps0 W (Proc.devRef .tc main_v15) : FVec F S1x256 .f32) = KSpec.row256 (W (Proc.devRef .tc main_arg5)) := by
  unfold hostOps0; after_results; rfl
theorem h0_v16 : (after hostOps0 W (Proc.devRef .tc main_v16) : FVec F S1x256 .f32) = KSpec.row256 (W (Proc.devRef .tc main_arg7)) := by
  unfold hostOps0; after_results; rfl

/-! ## The second stretch: the segment sums, between the regions (`msg` is `W main_v17`, the segments `W main_v1`) -/

theorem h1_v24 : (after hostOps1 W (Proc.devRef .tc main_v24) : FVec F S50000x1 .f32) = KSpec.denom (W (Proc.devRef .tc main_v1)) := by
  unfold hostOps1; after_results_simp; results_rw; try dsimp only [v24_shape]
  rfl
theorem h1_v33 : (after hostOps1 W (Proc.devRef .tc main_v33) : FVec F S50000x256 .f32)
    = KSpec.mean (W (Proc.devRef .tc main_v17)) (W (Proc.devRef .tc main_v1)) := by
  unfold hostOps1; after_results_simp; results_rw; try dsimp only [v24_shape]
  rfl
theorem h1_v31 : (after hostOps1 W (Proc.devRef .tc main_v31) : FVec F S50000x256 .f32)
    = KSpec.sumsq (W (Proc.devRef .tc main_v17)) (W (Proc.devRef .tc main_v1)) := by
  unfold hostOps1; after_results_simp; results_rw; try dsimp only [v24_shape]
  rfl
theorem h1_v53 : (after hostOps1 W (Proc.devRef .tc main_v53) : FVec F S1280x1280 .bf16) = KSpec.wT1280 (W (Proc.devRef .tc main_arg8)) := by
  unfold hostOps1; after_results_simp; rfl
theorem h1_v55 : (after hostOps1 W (Proc.devRef .tc main_v55) : FVec F S1280x128 .bf16) = KSpec.wT1280x128 (W (Proc.devRef .tc main_arg10)) := by
  unfold hostOps1; after_results_simp; rfl
theorem h1_v56 : (after hostOps1 W (Proc.devRef .tc main_v56) : FVec F S1x1280 .f32) = KSpec.row1280 (W (Proc.devRef .tc main_arg9)) := by
  unfold hostOps1; after_results_simp; rfl
theorem h1_v57 : (after hostOps1 W (Proc.devRef .tc main_v57) : FVec F S1x128 .f32) = KSpec.row128 (W (Proc.devRef .tc main_arg11)) := by
  unfold hostOps1; after_results_simp; rfl

/-! ## The last stretch: the batch normalisation of the node region's result `W main_v58` -/

theorem h2_v83 : (after hostOps2 W (Proc.devRef .tc main_v83) : FVec F S50000x128 .f32)
    = KSpec.bn (W (Proc.devRef .tc main_v58)) (W (Proc.devRef .tc main_arg12)) (W (Proc.devRef .tc main_arg13)) := by
  unfold hostOps2; after_results_simp; rfl

end Cert.KernelIdeal.KHost

end
-- ==== Proof.KHostB.lean ====
/- The middle host stretch of the kernel program read in three stages — the segment sums and the mean; the messages
   less their segment's mean; the sums of their third and fourth powers — and put together: the arrays of third and
   fourth moment sums as the terms `Cert.KSpec.sum3`, `Cert.KSpec.sum4` of the messages and the segment index vector. -/
import proofs.«155120_j26276609917535_2_alg».proof.Proof.Gen.KernelIdeal.Launch
import proofs.«155120_j26276609917535_2_alg».proof.Proof.KSpec
import proofs.«155120_j26276609917535_2_alg».proof.Proof.LibAfterAppend
import Idealize.ShloMosaic.Lib.StableHlo.Run

set_option maxRecDepth 16384
set_option maxHeartbeats 800000

noncomputable section

namespace Cert.KernelIdeal.KHost

open Idealize.ShloMosaic Idealize.ShloMosaic.StableHlo
open Cert.KernelIdeal.Gen

variable {F : FTy → Type} [FloatOps F]

/-- The stretch's first twenty operations: the edge counts, the sums of the messages and of their squares, the mean. -/
abbrev opsA : List (HloOp τ sig (Elt F)) :=
  [ StableHlo.nullary main_cst (constant S_ .f32 0x3F800000#32),
    StableHlo.unary main_cst main_v18 (broadcastInDim S400000 ![] bcast_S_S400000 : (⟨S_, .f32⟩ : BufTy).Contents (Elt F) → (⟨S400000, .f32⟩ : BufTy).Contents (Elt F)),
    StableHlo.nullary main_cst_1 (constant S_ .f32 0x00000000#32),
    StableHlo.unary main_cst_1 main_v19 (broadcastInDim S50000 ![] bcast_S_S50000 : (⟨S_, .f32⟩ : BufTy).Contents (Elt F) → (⟨S50000, .f32⟩ : BufTy).Contents (Elt F)),
    StableHlo.unary main_v1 main_v20 (broadcastInDim S400000x1 ![0] bcast_S400000_S400000x1_0 : (⟨S400000, .i32⟩ : BufTy).Contents (Elt F) → (⟨S400000x1, .i32⟩ : BufTy).Contents (Elt F)),
    StableHlo.ternary main_v19 main_v20 main_v18 main_v21 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    StableHlo.nullary main_cst_2 (constant S_ .f32 0x3F800000#32),
    StableHlo.unary main_cst_2 main_v22 (broadcastInDim S50000 ![] bcast_S_S50000 : (⟨S_, .f32⟩ : BufTy).Contents (Elt F) → (⟨S50000, .f32⟩ : BufTy).Contents (Elt F)),
    StableHlo.binary main_v21 main_v22 main_v23 (maximumf : (⟨S50000, .f32⟩ : BufTy).Contents (Elt F) → (⟨S50000, .f32⟩ : BufTy).Contents (Elt F) → (⟨S50000, .f32⟩ : BufTy).Contents (Elt F)),
    StableHlo.reshape main_v23 main_v24 rfl shapeCasts_S50000_S50000x1,
    StableHlo.binary main_v17 main_v17 main_v25 (mulf : (⟨S400000x256, .f32⟩ : BufTy).Contents (Elt F) → (⟨S400000x256, .f32⟩ : BufTy).Contents (Elt F) → (⟨S400000x256, .f32⟩ : BufTy).Contents (Elt F)),
    StableHlo.binary main_v17 main_v25 main_v26 ((fun a b => concatenate S400000x512 1 [⟨S400000x256, a⟩, ⟨S400000x256, b⟩] concatenates_S400000x256_S400000x256_S400000x512_d1) : (⟨S400000x256, .f32⟩ : BufTy).Contents (Elt F) → (⟨S400000x256, .f32⟩ : BufTy).Contents (Elt F) → (⟨S400000x512, .f32⟩ : BufTy).Contents (Elt F)),
    StableHlo.nullary main_cst_3 (constant S_ .f32 0x00000000#32),
    StableHlo.unary main_cst_3 main_v27 (broadcastInDim S50000x512 ![] bcast_S_S50000x512 : (⟨S_, .f32⟩ : BufTy).Contents (Elt F) → (⟨S50000x512, .f32⟩ : BufTy).Contents (Elt F)),
    StableHlo.unary main_v1 main_v28 (broadcastInDim S400000x1 ![0] bcast_S400000_S400000x1_0 : (⟨S400000, .i32⟩ : BufTy).Contents (Elt F) → (⟨S400000x1, .i32⟩ : BufTy).Contents (Elt F)),
    StableHlo.ternary main_v27 main_v28 main_v26 main_v29 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    StableHlo.unary main_v29 main_v30 ((extractStridedSlice S50000x256 ![0, 0] · slices_S50000x512_S50000x256_0_0) : (⟨S50000x512, .f32⟩ : BufTy).Contents (Elt F) → (⟨S50000x256, .f32⟩ : BufTy).Contents (Elt F)),
    StableHlo.unary main_v29 main_v31 ((extractStridedSlice S50000x256 ![0, 256] · slices_S50000x512_S50000x256_0_256) : (⟨S50000x512, .f32⟩ : BufTy).Contents (Elt F) → (⟨S50000x256, .f32⟩ : BufTy).Contents (Elt F)),
    StableHlo.unary main_v24 main_v32 (broadcastInDim S50000x256 ![0, 1] bcast_S50000x1_S50000x256_0_1 : (⟨S50000x1, .f32⟩ : BufTy).Contents (Elt F) → (⟨S50000x256, .f32⟩ : BufTy).Contents (Elt F)),
    StableHlo.binary main_v30 main_v32 main_v33 (Host.divf : (⟨S50000x256, .f32⟩ : BufTy).Contents (Elt F) → (⟨S50000x256, .f32⟩ : BufTy).Contents (Elt F) → (⟨S50000x256, .f32⟩ : BufTy).Contents (Elt F)) ]
/-- Its next ten: the messages less their segment's mean. -/
abbrev opsB : List (HloOp τ sig (Elt F)) :=
  [ StableHlo.nullary main_c_4 (constantI S_ 32 0#32),
    StableHlo.unary main_c_4 main_v34 (broadcastInDim S400000 ![] bcast_S_S400000 : (⟨S_, .i32⟩ : BufTy).Contents (Elt F) → (⟨S400000, .i32⟩ : BufTy).Contents (Elt F)),
    StableHlo.binary main_v1 main_v34 main_v35 (cmpi .slt : (⟨S400000, .i32⟩ : BufTy).Contents (Elt F) → (⟨S400000, .i32⟩ : BufTy).Contents (Elt F) → (⟨S400000, .i1⟩ : BufTy).Contents (Elt F)),
    StableHlo.nullary main_c_5 (constantI S_ 32 50000#32),
    StableHlo.unary main_c_5 main_v36 (broadcastInDim S400000 ![] bcast_S_S400000 : (⟨S_, .i32⟩ : BufTy).Contents (Elt F) → (⟨S400000, .i32⟩ : BufTy).Contents (Elt F)),
    StableHlo.binary main_v1 main_v36 main_v37 (addi : (⟨S400000, .i32⟩ : BufTy).Contents (Elt F) → (⟨S400000, .i32⟩ : BufTy).Contents (Elt F) → (⟨S400000, .i32⟩ : BufTy).Contents (Elt F)),
    StableHlo.ternary main_v35 main_v37 main_v1 main_v38 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v38 main_v39 (broadcastInDim S400000x1 ![0] bcast_S400000_S400000x1_0 : (⟨S400000, .i32⟩ : BufTy).Contents (Elt F) → (⟨S400000x1, .i32⟩ : BufTy).Contents (Elt F)),
    StableHlo.binary main_v33 main_v39 main_v40 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.binary main_v17 main_v40 main_v41 (subf : (⟨S400000x256, .f32⟩ : BufTy).Contents (Elt F) → (⟨S400000x256, .f32⟩ : BufTy).Contents (Elt F) → (⟨S400000x256, .f32⟩ : BufTy).Contents (Elt F)) ]
/-- Its last seventeen: the third and fourth powers summed by segment, and the second layer's weights and biases laid out. -/
abbrev opsC : List (HloOp τ sig (Elt F)) :=
  [ StableHlo.binary main_v41 main_v41 main_v42 (mulf : (⟨S400000x256, .f32⟩ : BufTy).Contents (Elt F) → (⟨S400000x256, .f32⟩ : BufTy).Contents (Elt F) → (⟨S400000x256, .f32⟩ : BufTy).Contents (Elt F)),
    StableHlo.binary main_v42 main_v41 main_v43 (mulf : (⟨S400000x256, .f32⟩ : BufTy).Contents (Elt F) → (⟨S400000x256, .f32⟩ : BufTy).Contents (Elt F) → (⟨S400000x256, .f32⟩ : BufTy).Contents (Elt F)),
    StableHlo.binary main_v41 main_v41 main_v44 (mulf : (⟨S400000x256, .f32⟩ : BufTy).Contents (Elt F) → (⟨S400000x256, .f32⟩ : BufTy).Contents (Elt F) → (⟨S400000x256, .f32⟩ : BufTy).Contents (Elt F)),
    StableHlo.binary main_v44 main_v44 main_v45 (mulf : (⟨S400000x256, .f32⟩ : BufTy).Contents (Elt F) → (⟨S400000x256, .f32⟩ : BufTy).Contents (Elt F) → (⟨S400000x256, .f32⟩ : BufTy).Contents (Elt F)),
    StableHlo.binary main_v43 main_v45 main_v46 ((fun a b => concatenate S400000x512 1 [⟨S400000x256, a⟩, ⟨S400000x256, b⟩] concatenates_S400000x256_S400000x256_S400000x512_d1) : (⟨S400000x256, .f32⟩ : BufTy).Contents (Elt F) → (⟨S400000x256, .f32⟩ : BufTy).Contents (Elt F) → (⟨S400000x512, .f32⟩ : BufTy).Contents (Elt F)),
    StableHlo.nullary main_cst_6 (constant S_ .f32 0x00000000#32),
    StableHlo.unary main_cst_6 main_v47 (broadcastInDim S50000x512 ![] bcast_S_S50000x512 : (⟨S_, .f32⟩ : BufTy).Contents (Elt F) → (⟨S50000x512, .f32⟩ : BufTy).Contents (Elt F)),
    StableHlo.unary main_v1 main_v48 (broadcastInDim S400000x1 ![0] bcast_S400000_S400000x1_0 : (⟨S400000, .i32⟩ : BufTy).Contents (Elt F) → (⟨S400000x1, .i32⟩ : BufTy).Contents (Elt F)),
    StableHlo.ternary main_v47 main_v48 main_v46 main_v49 ((fun x i u => Host.scatterAdd scatter_S50000x512_S400000x1_S400000x512_1_0_0_1 x i u) : (⟨S50000x512, .f32⟩ : BufTy).Contents (Elt F) → (⟨S400000x1, .i32⟩ : BufTy).Contents (Elt F) → (⟨S400000x512, .f32⟩ : BufTy).Contents (Elt F) → (⟨S50000x512, .f32⟩ : BufTy).Contents (Elt F)),
    StableHlo.unary main_v49 main_v50 ((extractStridedSlice S50000x256 ![0, 0] · slices_S50000x512_S50000x256_0_0) : (⟨S50000x512, .f32⟩ : BufTy).Contents (Elt F) → (⟨S50000x256, .f32⟩ : BufTy).Contents (Elt F)),
    StableHlo.unary main_v49 main_v51 ((extractStridedSlice S50000x256 ![0, 256] · slices_S50000x512_S50000x256_0_256) : (⟨S50000x512, .f32⟩ : BufTy).Contents (Elt F) → (⟨S50000x256, .f32⟩ : BufTy).Contents (Elt F)),
    StableHlo.unary main_arg8 main_v52 ((transpose S1280x1280 [1, 0] · transposes_S1280x1280_S1280x1280_1_0) : (⟨S1280x1280, .f32⟩ : BufTy).Contents (Elt F) → (⟨S1280x1280, .f32⟩ : BufTy).Contents (Elt F)),
    StableHlo.unary main_v52 main_v53 ((truncf .bf16 · bitsLt_bf16_f32) : (⟨S1280x1280, .f32⟩ : BufTy).Contents (Elt F) → (⟨S1280x1280, .bf16⟩ : BufTy).Contents (Elt F)),
    StableHlo.unary main_arg10 main_v54 ((transpose S1280x128 [1, 0] · transposes_S128x1280_S1280x128_1_0) : (⟨S128x1280, .f32⟩ : BufTy).Contents (Elt F) → (⟨S1280x128, .f32⟩ : BufTy).Contents (Elt F)),
    StableHlo.unary main_v54 main_v55 ((truncf .bf16 · bitsLt_bf16_f32) : (⟨S1280x128, .f32⟩ : BufTy).Contents (Elt F) → (⟨S1280x128, .bf16⟩ : BufTy).Contents (Elt F)),
    StableHlo.reshape main_arg9 main_v56 rfl shapeCasts_S1280_S1x1280,
    StableHlo.reshape main_arg11 main_v57 rfl shapeCasts_S128_S1x128 ]
/-- The stretch is the three stages in order. -/
theorem hostOps1_split : (hostOps1 : List (HloOp τ sig (Elt F))) = opsA ++ (opsB ++ opsC) := rfl

/-- An operation's result holds, at its own result buffer, its function of the operands' contents, and at any other
    buffer what was there before. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

theorem v24_shape' : main_v24.ty.shape = S50000x1 := rfl

variable (W : Valuation τ sig (Elt F))

/-! ## The first stage -/

theorem a_v33 : (after opsA W (Proc.devRef .tc main_v33) : FVec F S50000x256 .f32)
    = KSpec.mean (W (Proc.devRef .tc main_v17)) (W (Proc.devRef .tc main_v1)) := by
  unfold opsA; after_results_simp; results_rw; try dsimp only [v24_shape']
  rfl
theorem a_v17 : after opsA W (Proc.devRef .tc main_v17) = W (Proc.devRef .tc main_v17) := by
  unfold opsA; after_results_simp
theorem a_v1 : after opsA W (Proc.devRef .tc main_v1) = W (Proc.devRef .tc main_v1) := by
  unfold opsA; after_results_simp

/-! ## The second stage -/

theorem b_v41 : (after opsB W (Proc.devRef .tc main_v41) : FVec F S400000x256 .f32)
    = subf (W (Proc.devRef .tc main_v17) : FVec F S400000x256 .f32)
        (Host.gather gather_S50000x256_S400000x1_S400000x256_1_0_n_n_0_1_1256 (W (Proc.devRef .tc main_v33) : FVec F S50000x256 .f32)
          (KSpec.col (KSpec.wrap (W (Proc.devRef .tc main_v1))))) := by
  unfold opsB; after_results_simp; rfl
theorem b_v1 : after opsB W (Proc.devRef .tc main_v1) = W (Proc.devRef .tc main_v1) := by
  unfold opsB; after_results_simp

/-! ## The third stage -/

theorem c_v50 : (after opsC W (Proc.devRef .tc main_v50) : FVec F S50000x256 .f32)
    = KSpec.lo (KSpec.segsum (W (Proc.devRef .tc main_v1))
        (KSpec.cat (KSpec.cube (W (Proc.devRef .tc main_v41))) (KSpec.fourth (W (Proc.devRef .tc main_v41))))) := by
  unfold opsC; after_results_simp; results_rw
  rfl
theorem c_v51 : (after opsC W (Proc.devRef .tc main_v51) : FVec F S50000x256 .f32)
    = KSpec.hi (KSpec.segsum (W (Proc.devRef .tc main_v1))
        (KSpec.cat (KSpec.cube (W (Proc.devRef .tc main_v41))) (KSpec.fourth (W (Proc.devRef .tc main_v41))))) := by
  unfold opsC; after_results_simp; results_rw
  rfl

/-! ## Together -/

theorem h1_v50 : (after hostOps1 W (Proc.devRef .tc main_v50) : FVec F S50000x256 .f32)
    = KSpec.sum3 (W (Proc.devRef .tc main_v17)) (W (Proc.devRef .tc main_v1)) := by
  rw [hostOps1_split, Cert.Lib.after_append, Cert.Lib.after_append, c_v50, b_v41, b_v1, a_v33, a_v17, a_v1]
  rfl
theorem h1_v51 : (after hostOps1 W (Proc.devRef .tc main_v51) : FVec F S50000x256 .f32)
    = KSpec.sum4 (W (Proc.devRef .tc main_v17)) (W (Proc.devRef .tc main_v1)) := by
  rw [hostOps1_split, Cert.Lib.after_append, Cert.Lib.after_append, c_v51, b_v41, b_v1, a_v33, a_v17, a_v1]
  rfl

end Cert.KernelIdeal.KHost

end
-- ==== Proof.KKeep.lean ====
/- The kernel program's host stretches leave the argument arrays (and, in the middle stretch, the segment index
   vector and the messages) as they find them: no operation of a stretch writes one. -/
import proofs.«155120_j26276609917535_2_alg».proof.Proof.Gen.KernelIdeal.Launch
import Idealize.ShloMosaic.Lib.StableHlo.Run

set_option maxRecDepth 16384

noncomputable section

namespace Cert.KernelIdeal.KHost

open Idealize.ShloMosaic Idealize.ShloMosaic.StableHlo
open Cert.KernelIdeal.Gen

variable {F : FTy → Type} [FloatOps F]
variable (W : Valuation τ sig (Elt F))

/-! ## Stretch 0 writes no argument array -/

theorem h0_arg0 : after hostOps0 W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg1 : after hostOps0 W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg2 : after hostOps0 W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg3 : after hostOps0 W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg4 : after hostOps0 W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg5 : after hostOps0 W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg6 : after hostOps0 W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg7 : after hostOps0 W (Proc.devRef .tc main_arg7) = W (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg8 : after hostOps0 W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg9 : after hostOps0 W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg10 : after hostOps0 W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg11 : after hostOps0 W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg12 : after hostOps0 W (Proc.devRef .tc main_arg12) = W (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg13 : after hostOps0 W (Proc.devRef .tc main_arg13) = W (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h0_arg14 : after hostOps0 W (Proc.devRef .tc main_arg14) = W (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 1 writes no argument array (nor the segment index vector, nor the messages) -/

theorem h1_arg0 : after hostOps1 W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg1 : after hostOps1 W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg2 : after hostOps1 W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg3 : after hostOps1 W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg4 : after hostOps1 W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg5 : after hostOps1 W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg6 : after hostOps1 W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg7 : after hostOps1 W (Proc.devRef .tc main_arg7) = W (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg8 : after hostOps1 W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg9 : after hostOps1 W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg10 : after hostOps1 W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg11 : after hostOps1 W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg12 : after hostOps1 W (Proc.devRef .tc main_arg12) = W (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg13 : after hostOps1 W (Proc.devRef .tc main_arg13) = W (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_arg14 : after hostOps1 W (Proc.devRef .tc main_arg14) = W (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_v1 : after hostOps1 W (Proc.devRef .tc main_v1) = W (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h1_v17 : after hostOps1 W (Proc.devRef .tc main_v17) = W (Proc.devRef .tc main_v17) :=
  StableHlo.after_of_forall_not_mem (b := Proc.devRef .tc main_v17) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 2 writes no argument array -/

theorem h2_arg0 : after hostOps2 W (Proc.devRef .tc main_arg0) = W (Proc.devRef .tc main_arg0) :=
  StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg1 : after hostOps2 W (Proc.devRef .tc main_arg1) = W (Proc.devRef .tc main_arg1) :=
  StableHlo.after_of_forall_not_mem (b := Proc.devRef .tc main_arg1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg2 : after hostOps2 W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg3 : after hostOps2 W (Proc.devRef .tc main_arg3) = W (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg4 : after hostOps2 W (Proc.devRef .tc main_arg4) = W (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg5 : after hostOps2 W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg6 : after hostOps2 W (Proc.devRef .tc main_arg6) = W (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg7 : after hostOps2 W (Proc.devRef .tc main_arg7) = W (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg8 : after hostOps2 W (Proc.devRef .tc main_arg8) = W (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg9 : after hostOps2 W (Proc.devRef .tc main_arg9) = W (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg10 : after hostOps2 W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg11 : after hostOps2 W (Proc.devRef .tc main_arg11) = W (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg12 : after hostOps2 W (Proc.devRef .tc main_arg12) = W (Proc.devRef .tc main_arg12) :=
  StableHlo.after_of_forall_not_mem (b := Proc.devRef .tc main_arg12) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg13 : after hostOps2 W (Proc.devRef .tc main_arg13) = W (Proc.devRef .tc main_arg13) :=
  StableHlo.after_of_forall_not_mem (b := Proc.devRef .tc main_arg13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem h2_arg14 : after hostOps2 W (Proc.devRef .tc main_arg14) = W (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.KHost

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibEdgeSum.lean ====
import proofs.«155120_j26276609917535_2_alg».proof.Proof.LibReal
import proofs.«155120_j26276609917535_2_alg».proof.Proof.LibRowIndex

/-!
# A scatter-add of rows as a sum over edges, and projecting before or after aggregating

A scatter-add of E update rows into an [N, C] array, the e-th row landing on the row its scatter index names,
leaves at entry (p, q) the operand's entry plus the sum, over the edges e whose index is p, of update (e, q).

If every update row is a weight a_e times a feature row x_e, then multiplying the aggregated row by a matrix
column w is aggregating the projected rows: Σ_k (Σ_e a_e x_{e,k}) w_k = Σ_e a_e (Σ_k x_{e,k} w_k) — on the
extended reals this needs every number to be real, since products do not distribute over sums that meet
both infinities.
-/

noncomputable section

namespace Cert.EdgeSum

open Idealize.ShloMosaic Idealize.ShloMosaic.ValueIdx Cert.GinMath Cert.RowIndex
open scoped BigOperators

/-- A scatter-add of rows at entry (p, q): the operand there plus the updates (e, q) of the edges e whose
    scatter index, read signed, is p. -/
theorem rowScatterAdd_apply {N E C w : Nat}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w)
    (u : (⟨2, ![E, C]⟩ : Shape).Idx → EReal) (p : Fin N) (q : Fin C) :
    Host.scatterAdd (F := Ideal) (φ := .f32) (rowScatterDims N E C wf) z idx u (ix2 p q)
      = z (ix2 p q)
        + ∑ e ∈ Finset.univ.filter (fun e : Fin E => (idx (ix2 e (0 : Fin 1))).toInt = (p.val : ℤ)), u (ix2 e q) := by
  show Ideal.hostScatterAdd (rowScatterDims N E C wf) z idx u (ix2 p q) = _
  unfold Ideal.hostScatterAdd
  congr 1
  refine Finset.sum_nbij' (fun j => j 0) (fun e => ix2 e q) ?_ ?_ ?_ ?_ ?_
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    exact Finset.mem_filter.mpr ⟨Finset.mem_univ _, h.1⟩
  · intro e he
    exact Finset.mem_filter.mpr ⟨Finset.mem_univ _,
      (rowScatter_resultIdx wf idx e q p q).mpr ⟨(Finset.mem_filter.mp he).2, rfl⟩⟩
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show ix2 e q = ix2 e c
    rw [h.2]
  · intro e _
    rfl
  · intro j hj
    obtain ⟨e, c, rfl⟩ : ∃ (e : Fin E) (c : Fin C), j = ix2 e c := ⟨j 0, j 1, eq_ix2 j⟩
    have h := (rowScatter_resultIdx wf idx e c p q).mp (Finset.mem_filter.mp hj).2
    show u (ix2 e c) = u (ix2 e q)
    rw [h.2]

/-- Projecting the aggregated row is aggregating the projected rows, all numbers being real. -/
theorem project_aggregate {ι κ : Type*} [Fintype κ] (S : Finset ι) (a : ι → EReal) (x : ι → κ → EReal) (w : κ → EReal)
    (ha : ∀ e, IsReal (a e)) (hx : ∀ e k, IsReal (x e k)) (hw : ∀ k, IsReal (w k)) :
    ∑ k : κ, (0 + ∑ e ∈ S, a e * x e k) * w k = 0 + ∑ e ∈ S, a e * ∑ k : κ, x e k * w k := by
  classical
  obtain ⟨a', ha'⟩ := exists_real_fun ha
  obtain ⟨w', hw'⟩ := exists_real_fun hw
  obtain ⟨x', hx'⟩ := exists_real_fun (f := fun q : ι × κ => x q.1 q.2) (fun q => hx q.1 q.2)
  have hxe : ∀ e k, x e k = ((x' (e, k) : ℝ) : EReal) := fun e k => hx' (e, k)
  simp only [ha', hw', hxe, zero_add, ← EReal.coe_mul, ← coe_sum]
  congr 1
  simp only [Finset.sum_mul, Finset.mul_sum]
  rw [Finset.sum_comm]
  refine Finset.sum_congr rfl fun e _ => Finset.sum_congr rfl fun k _ => ?_
  ring

end Cert.EdgeSum

end
-- ==== Proof.LibSegSum.lean ====
import proofs.«155120_j26276609917535_2_alg».proof.Proof.LibEdgeSum
import Idealize.ShloMosaic.Lib.ValueLayout
import Idealize.ShloMosaic.Lib.Pipeline.Value

/-!
# Two per-edge arrays aggregated in one pass

Scatter-adding the rows of two per-edge arrays laid side by side, and then cutting the aggregated matrix back
into its left and right halves, gives the two arrays' own aggregates: at entry (p, q) both are the operand's
entry plus the sum, over the edges whose index is p, of that array's entry (e, q) — a column of the
side-by-side array is a column of one of the two.
-/

noncomputable section

namespace Cert.SegSum

open Idealize.ShloMosaic Idealize.ShloMosaic.ValueIdx Cert.RowIndex Cert.EdgeSum
open scoped BigOperators

variable {N E C C2 w : Nat}

/-- The left half of the aggregate of `A` beside `B` is the aggregate of `A`. -/
theorem left_apply
    (wf2 : ScatterDims.WF ⟨2, ![N, C2]⟩ ⟨2, ![E, 1]⟩ ⟨2, ![E, C2]⟩ [1] [0] [0] 1)
    (wf1 : ScatterDims.WF ⟨2, ![N, C]⟩ ⟨2, ![E, 1]⟩ ⟨2, ![E, C]⟩ [1] [0] [0] 1)
    (hc : Shape.Concatenates [(⟨2, ![E, C]⟩ : Shape), ⟨2, ![E, C]⟩] ⟨2, ![E, C2]⟩ 1)
    (hs : (⟨2, ![N, C2]⟩ : Shape).Slices ![0, 0] ⟨2, ![N, C]⟩)
    (z2 : (⟨2, ![N, C2]⟩ : Shape).Idx → EReal) (z1 : (⟨2, ![N, C]⟩ : Shape).Idx → EReal)
    (idx : IVec ⟨2, ![E, 1]⟩ w) (A B : (⟨2, ![E, C]⟩ : Shape).Idx → EReal) (p : Fin N) (q : Fin C)
    (hz : ∀ q2 : Fin C2, z2 (ix2 p q2) = z1 (ix2 p q)) :
    extractStridedSlice ⟨2, ![N, C]⟩ ![0, 0]
        (Host.scatterAdd (F := Ideal) (φ := .f32) (rowScatterDims N E C2 wf2) z2 idx
          (concatenate ⟨2, ![E, C2]⟩ 1 [⟨⟨2, ![E, C]⟩, A⟩, ⟨⟨2, ![E, C]⟩, B⟩] hc)) hs (ix2 p q)
      = Host.scatterAdd (F := Ideal) (φ := .f32) (rowScatterDims N E C wf1) z1 idx A (ix2 p q) := by
  rw [slice2_axis1_eq 0 _ hs p q, rowScatterAdd_apply wf2, rowScatterAdd_apply wf1, hz]
  refine congrArg _ (Finset.sum_congr rfl fun e _ => ?_)
  refine concatenate_pair_apply_left (t := ⟨2, ![E, C2]⟩) (1 : Fin 2) A B hc _ rfl (ix2 e q) fun b => ?_
  match b with
  | ⟨0, _⟩ => rfl
  | ⟨1, _⟩ => exact (Nat.zero_add _).symm

/-- The right half of the aggregate of `A` beside `B` is the aggregate of `B`. -/
theorem right_apply
    (wf2 : ScatterDims.WF ⟨2, ![N, C2]⟩ ⟨2, ![E, 1]⟩ ⟨2, ![E, C2]⟩ [1] [0] [0] 1)
    (wf1 : ScatterDims.WF ⟨2, ![N, C]⟩ ⟨2, ![E, 1]⟩ ⟨2, ![E, C]⟩ [1] [0] [0] 1)
    (hc : Shape.Concatenates [(⟨2, ![E, C]⟩ : Shape), ⟨2, ![E, C]⟩] ⟨2, ![E, C2]⟩ 1)
    (hs : (⟨2, ![N, C2]⟩ : Shape).Slices ![0, C] ⟨2, ![N, C]⟩)
    (z2 : (⟨2, ![N, C2]⟩ : Shape).Idx → EReal) (z1 : (⟨2, ![N, C]⟩ : Shape).Idx → EReal)
    (idx : IVec ⟨2, ![E, 1]⟩ w) (A B : (⟨2, ![E, C]⟩ : Shape).Idx → EReal) (p : Fin N) (q : Fin C)
    (hz : ∀ q2 : Fin C2, z2 (ix2 p q2) = z1 (ix2 p q)) :
    extractStridedSlice ⟨2, ![N, C]⟩ ![0, C]
        (Host.scatterAdd (F := Ideal) (φ := .f32) (rowScatterDims N E C2 wf2) z2 idx
          (concatenate ⟨2, ![E, C2]⟩ 1 [⟨⟨2, ![E, C]⟩, A⟩, ⟨⟨2, ![E, C]⟩, B⟩] hc)) hs (ix2 p q)
      = Host.scatterAdd (F := Ideal) (φ := .f32) (rowScatterDims N E C wf1) z1 idx B (ix2 p q) := by
  rw [slice2_axis1_eq C _ hs p q, rowScatterAdd_apply wf2, rowScatterAdd_apply wf1, hz]
  refine congrArg _ (Finset.sum_congr rfl fun e _ => ?_)
  refine concatenate_pair_apply_right (t := ⟨2, ![E, C2]⟩) (1 : Fin 2) A B hc _ rfl rfl (ix2 e q) (fun b hb => ?_) ?_
  · match b with
    | ⟨0, _⟩ => rfl
    | ⟨1, _⟩ => exact absurd rfl hb
  · show q.val + C = C + q.val
    exact Nat.add_comm _ _

end Cert.SegSum

end
-- ==== Proof.LibLay.lean ====
import Idealize.ShloMosaic.Lib.ValueIdx
import Idealize.ShloMosaic.Lib.ValueLayout
import Idealize.ShloMosaic.Lib.Pipeline.Value

/-!
# Rows, columns and scalars spread over a matrix, read at an entry

A vector laid along the columns of one row, a row repeated down the rows, a vector laid down one column, a
column repeated across the columns, a scalar everywhere: each read at an entry is the operand at the
evident place.
-/

namespace Cert.Lay

open Idealize.ShloMosaic Idealize.ShloMosaic.ValueIdx

variable {α : Type}

/-- A scalar spread over any shape reads the scalar everywhere. -/
theorem scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector of length b as the one row of a [1, b] matrix. -/
theorem vecRow_apply {b : Nat} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x _ _ fun a => ?_
  match a with
  | ⟨0, _⟩ =>
    show c.val = if b = 1 then 0 else c.val
    split
    · have := c.isLt; omega
    · rfl

/-- One row repeated down a rows. -/
theorem rowRep_apply {a b : Nat} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x _ _ fun ax => ?_
  match ax with
  | ⟨0, _⟩ => rfl
  | ⟨1, _⟩ =>
    show c.val = if b = 1 then 0 else c.val
    split
    · have := c.isLt; omega
    · rfl

/-- A vector of length a as the one column of an [a, 1] matrix (by broadcasting). -/
theorem vecCol_apply {a : Nat} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- A vector of length a recast as an [a, 1] matrix. -/
theorem vecColCast_apply {a : Nat} (h : (⟨1, ![a]⟩ : Shape).ShapeCasts ⟨2, ![a, 1]⟩)
    (x : (⟨1, ![a]⟩ : Shape).Idx → α) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column repeated across b columns. -/
theorem colRep_apply {a b : Nat} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

end Cert.Lay
-- ==== Proof.Mid.lean ====
import proofs.«155120_j26276609917535_2_alg».proof.Proof.Spec
import proofs.«155120_j26276609917535_2_alg».proof.Proof.KSpec
import proofs.«155120_j26276609917535_2_alg».proof.Proof.LibSegSum
import proofs.«155120_j26276609917535_2_alg».proof.Proof.LibLay
import proofs.«155120_j26276609917535_2_alg».proof.Proof.Gen.ReferenceIdeal

/-!
# Between the regions: the kernel program's statistics are the reference's

The kernel program aggregates two per-edge arrays in one scatter-add (side by side, then cut apart) and divides
later; the reference aggregates each array by itself and divides at once. Entry by entry the aggregates agree
(SegSum), and both denominators are the node's clamped edge count: a vector recast as a column, or broadcast
to a column, then repeated across the columns, reads the same number. The index columns, the gathers and the
batch normalisation are the same operations in both programs.
-/

set_option maxRecDepth 16384

noncomputable section

namespace Cert.Mid

open Idealize.ShloMosaic Idealize.ShloMosaic.ValueIdx

/-- Float arrays at the ideal instance, shapes spelt out. -/
abbrev EA (E C : Nat) : Type := (⟨2, ![E, C]⟩ : Shape).Idx → EReal

theorem src_eq (ei : Cert.Spec.IA Ideal Cert.ReferenceIdeal.S2x400000) :
    Cert.KSpec.src ei = Cert.Spec.srcVec (F := Ideal) ei := rfl

theorem xdst_eq (x : EA 50000 128) (ei : Cert.Spec.IA Ideal Cert.ReferenceIdeal.S2x400000) :
    Cert.KSpec.xdst (F := Ideal) x ei = Cert.Spec.xtTgt (F := Ideal) x ei := rfl

theorem col_eq (s : Cert.Spec.IA Ideal Cert.ReferenceIdeal.S400000) : Cert.KSpec.col s = Cert.Spec.col (F := Ideal) s := rfl

/-- The reference's aggregate of a per-edge array. -/
def segSumR (A : EA 400000 256) (ei : Cert.Spec.IA Ideal Cert.ReferenceIdeal.S2x400000) : EA 50000 256 :=
  Host.scatterAdd (F := Ideal) (φ := .f32) Cert.ReferenceIdeal.scatter_S50000x256_S400000x1_S400000x256_1_0_0_1
    (broadcastInDim Cert.ReferenceIdeal.S50000x256 ![] Cert.ReferenceIdeal.Facts₀.bcast_S_S50000x256
      (constant (F := Ideal) Cert.ReferenceIdeal.S_ .f32 0x00000000#32))
    (Cert.Spec.col (F := Ideal) (Cert.Spec.srcVec (F := Ideal) ei)) A

/-- The host quotient of two arrays at an entry. -/
theorem hostDivf_apply {s : Shape} (x y : FVec Ideal s .f32) (i : s.Idx) : Host.divf x y i = Ideal.div (x i) (y i) := rfl

/-- The reference's mean is its aggregate over the count at each entry. -/
theorem segMean_apply (A : EA 400000 256) (ei : Cert.Spec.IA Ideal Cert.ReferenceIdeal.S2x400000) (p : Fin 50000) (q : Fin 256) :
    Cert.Spec.segMean (F := Ideal) A ei (ix2 p q)
      = Ideal.div (segSumR A ei (ix2 p q)) (Cert.Spec.denom (F := Ideal) ei (ix1 p)) := by
  unfold Cert.Spec.segMean segSumR
  rw [hostDivf_apply]
  refine congrArg (Ideal.div _) ?_
  exact (Cert.Lay.colRep_apply _ _ p q).trans (Cert.Lay.vecCol_apply _ _ p 0)

/-- The kernel program's denominator column is the same count. -/
theorem denom_apply (ei : Cert.Spec.IA Ideal Cert.ReferenceIdeal.S2x400000) (p : Fin 50000) (u : Fin 1) :
    Cert.KSpec.denom (F := Ideal) (Cert.KSpec.src ei) (ix2 p u) = Cert.Spec.denom (F := Ideal) ei (ix1 p) :=
  Cert.Lay.vecColCast_apply _ _ p u

/-- Left half of the side-by-side aggregate. -/
theorem lo_apply (A B : EA 400000 256) (ei : Cert.Spec.IA Ideal Cert.ReferenceIdeal.S2x400000) (p : Fin 50000) (q : Fin 256) :
    Cert.KSpec.lo (F := Ideal) (Cert.KSpec.segsum (F := Ideal) (Cert.KSpec.src ei) (Cert.KSpec.cat (F := Ideal) A B)) (ix2 p q)
      = segSumR A ei (ix2 p q) :=
  Cert.SegSum.left_apply (N := 50000) (E := 400000) (C := 256) (C2 := 512)
    Cert.KernelIdeal.Facts₀.scatter_S50000x512_S400000x1_S400000x512_1_0_0_1_wf
    Cert.ReferenceIdeal.Facts₀.scatter_S50000x256_S400000x1_S400000x256_1_0_0_1_wf
    Cert.KernelIdeal.Facts₀.concatenates_S400000x256_S400000x256_S400000x512_d1
    Cert.KernelIdeal.Facts₀.slices_S50000x512_S50000x256_0_0 _ _ _ A B p q (fun _ => rfl)

/-- Right half of the side-by-side aggregate. -/
theorem hi_apply (A B : EA 400000 256) (ei : Cert.Spec.IA Ideal Cert.ReferenceIdeal.S2x400000) (p : Fin 50000) (q : Fin 256) :
    Cert.KSpec.hi (F := Ideal) (Cert.KSpec.segsum (F := Ideal) (Cert.KSpec.src ei) (Cert.KSpec.cat (F := Ideal) A B)) (ix2 p q)
      = segSumR B ei (ix2 p q) :=
  Cert.SegSum.right_apply (N := 50000) (E := 400000) (C := 256) (C2 := 512)
    Cert.KernelIdeal.Facts₀.scatter_S50000x512_S400000x1_S400000x512_1_0_0_1_wf
    Cert.ReferenceIdeal.Facts₀.scatter_S50000x256_S400000x1_S400000x256_1_0_0_1_wf
    Cert.KernelIdeal.Facts₀.concatenates_S400000x256_S400000x256_S400000x512_d1
    Cert.KernelIdeal.Facts₀.slices_S50000x512_S50000x256_0_256 _ _ _ A B p q (fun _ => rfl)

theorem mean_eq (msg : EA 400000 256) (ei : Cert.Spec.IA Ideal Cert.ReferenceIdeal.S2x400000) :
    Cert.KSpec.mean (F := Ideal) msg (Cert.KSpec.src ei) = Cert.Spec.segMean (F := Ideal) msg ei := by
  funext i
  obtain ⟨p, q, rfl⟩ : ∃ (p : Fin 50000) (q : Fin 256), i = ix2 p q := ⟨i 0, i 1, eq_ix2 i⟩
  rw [segMean_apply]
  unfold Cert.KSpec.mean Cert.KSpec.sum1
  rw [hostDivf_apply, lo_apply]
  refine congrArg (Ideal.div (segSumR msg ei (ix2 p q))) ?_
  exact (Cert.Lay.colRep_apply _ _ p q).trans (denom_apply ei p 0)

theorem m2_eq (msg : EA 400000 256) (ei : Cert.Spec.IA Ideal Cert.ReferenceIdeal.S2x400000) (s : Fin 50000) (q : Fin 256) :
    Ideal.div (Cert.KSpec.sumsq (F := Ideal) msg (Cert.KSpec.src ei) (ix2 s q)) (Cert.KSpec.denom (F := Ideal) (Cert.KSpec.src ei) (ix2 s 0))
      = Cert.Spec.segMean (F := Ideal) (mulf (F := Ideal) (s := ⟨2, ![400000, 256]⟩) (φ := .f32) msg msg) ei (ix2 s q) := by
  rw [segMean_apply, denom_apply]
  unfold Cert.KSpec.sumsq
  rw [hi_apply]

theorem centered_eq (msg : EA 400000 256) (ei : Cert.Spec.IA Ideal Cert.ReferenceIdeal.S2x400000) :
    Cert.KSpec.centered (F := Ideal) msg (Cert.KSpec.src ei)
      = Cert.Spec.dev (F := Ideal) msg (Cert.Spec.segMean (F := Ideal) msg ei) ei := by
  unfold Cert.KSpec.centered
  rw [mean_eq]
  rfl

theorem m3_eq (msg : EA 400000 256) (ei : Cert.Spec.IA Ideal Cert.ReferenceIdeal.S2x400000) (s : Fin 50000) (q : Fin 256) :
    Ideal.div (Cert.KSpec.sum3 (F := Ideal) msg (Cert.KSpec.src ei) (ix2 s q)) (Cert.KSpec.denom (F := Ideal) (Cert.KSpec.src ei) (ix2 s 0))
      = Cert.Spec.segMean (F := Ideal) (Cert.Spec.cube (F := Ideal)
          (Cert.Spec.dev (F := Ideal) msg (Cert.Spec.segMean (F := Ideal) msg ei) ei)) ei (ix2 s q) := by
  rw [segMean_apply, denom_apply]
  unfold Cert.KSpec.sum3
  rw [centered_eq, lo_apply]
  rfl

theorem m4_eq (msg : EA 400000 256) (ei : Cert.Spec.IA Ideal Cert.ReferenceIdeal.S2x400000) (s : Fin 50000) (q : Fin 256) :
    Ideal.div (Cert.KSpec.sum4 (F := Ideal) msg (Cert.KSpec.src ei) (ix2 s q)) (Cert.KSpec.denom (F := Ideal) (Cert.KSpec.src ei) (ix2 s 0))
      = Cert.Spec.segMean (F := Ideal) (Cert.Spec.quart (F := Ideal)
          (Cert.Spec.dev (F := Ideal) msg (Cert.Spec.segMean (F := Ideal) msg ei) ei)) ei (ix2 s q) := by
  rw [segMean_apply, denom_apply]
  unfold Cert.KSpec.sum4
  rw [centered_eq, hi_apply]
  rfl

theorem bn_eq (h : EA 50000 128) (g b : (⟨1, ![128]⟩ : Shape).Idx → EReal) :
    Cert.KSpec.bn (F := Ideal) h g b = Cert.Spec.bn (F := Ideal) h g b := rfl

theorem wT1280_apply (w : EA 1280 1280) (k jo : Fin 1280) : Cert.KSpec.wT1280 (F := Ideal) w (ix2 k jo) = w (ix2 jo k) :=
  transpose_ix2_apply w _ k jo
theorem wT1280x128_apply (w : EA 128 1280) (k : Fin 1280) (jo : Fin 128) :
    Cert.KSpec.wT1280x128 (F := Ideal) w (ix2 k jo) = w (ix2 jo k) :=
  transpose_ix2_apply w _ k jo
theorem wT256_apply (w : EA 256 256) (k jo : Fin 256) : Cert.KSpec.wT256 (F := Ideal) w (ix2 k jo) = w (ix2 jo k) :=
  transpose_ix2_apply w _ k jo
theorem row1280_apply (b : (⟨1, ![1280]⟩ : Shape).Idx → EReal) (u : Fin 1) (jo : Fin 1280) :
    Cert.KSpec.row1280 (F := Ideal) b (ix2 u jo) = b (ix1 jo) := shapeCast_a_1a_apply b _ u jo
theorem row128_apply (b : (⟨1, ![128]⟩ : Shape).Idx → EReal) (u : Fin 1) (jo : Fin 128) :
    Cert.KSpec.row128 (F := Ideal) b (ix2 u jo) = b (ix1 jo) := shapeCast_a_1a_apply b _ u jo
theorem row256_apply (b : (⟨1, ![256]⟩ : Shape).Idx → EReal) (u : Fin 1) (jo : Fin 256) :
    Cert.KSpec.row256 (F := Ideal) b (ix2 u jo) = b (ix1 jo) := shapeCast_a_1a_apply b _ u jo

end Cert.Mid

end
-- ==== Proof.RowSpec.lean ====
import Idealize.ShloMosaic.PureOps.Ideal

/-!
# The layer, one row at a time, on the extended reals

Every large array of this message-passing layer is computed row by row: an edge's message is a two-layer
perceptron of that edge's concatenated features, and a node's output row is a two-layer perceptron of that
node's own features, the four moment statistics of its incoming messages, and the global features. The
functions below say what one row is, as plain functions of finite index types. Sums are finite sums of
extended reals; the comparisons, the selection, the square root and the quotient are the ideal instance's
scalar operations, so that an array operation read at an index is one of these by unfolding.
-/

noncomputable section

namespace Cert.RowSpec

open Idealize.ShloMosaic
open scoped BigOperators

/-- The extended real an f32 word denotes. -/
abbrev w32 (b : BitVec 32) : EReal := Ideal.ofBits .f32 b

/-- Leaky rectifier with slope `a`: `x` where `0 ≤ x`, else `a · x`. -/
def leaky (a x : EReal) : EReal := Scalar.select (Ideal.cmp .oge x (w32 0x00000000#32)) x (a * x)

/-- Replace the two infinities by the largest finite f32 magnitudes (a test "x ≠ x" first, which no extended real passes). -/
def clampInf (x : EReal) : EReal :=
  let a := Scalar.select (Ideal.cmp .one x x) (w32 0x00000000#32) x
  let b := Scalar.select (Ideal.cmp .oeq a (w32 0x7F800000#32)) (w32 0x7F7FFFFF#32) a
  Scalar.select (Ideal.cmp .oeq b (w32 0xFF800000#32)) (w32 0xFF7FFFFF#32) b

/-- An affine layer's output `j`: the weights are stored output-major, `W j k`. -/
def lin {K N : Nat} (x : Fin K → EReal) (W : Fin N → Fin K → EReal) (b : Fin N → EReal) (j : Fin N) : EReal :=
  (∑ k : Fin K, x k * W j k) + b j

/-- Two feature rows side by side. -/
def cat2 {A B : Nat} (a : Fin A → EReal) (b : Fin B → EReal) (k : Fin (A + B)) : EReal :=
  if h : k.val < A then a ⟨k.val, h⟩ else b ⟨k.val - A, by have := k.isLt; omega⟩

/-- A two-layer perceptron with the leaky rectifier of slope 0.1 (the f32 word of 0.1) between the layers. -/
def mlp {K H N : Nat} (x : Fin K → EReal) (Wa : Fin H → Fin K → EReal) (ba : Fin H → EReal)
    (Wb : Fin N → Fin H → EReal) (bb : Fin N → EReal) (j : Fin N) : EReal :=
  lin (fun k => leaky (w32 0x3DCCCCCD#32) (lin x Wa ba k)) Wb bb j

/-- One edge's message: the perceptron of the gathered target-node row beside the edge's own features. -/
def msgRow (xt ea : Fin 128 → EReal) (W1a : Fin 256 → Fin 256 → EReal) (b1a : Fin 256 → EReal)
    (W1b : Fin 256 → Fin 256 → EReal) (b1b : Fin 256 → EReal) : Fin 256 → EReal :=
  mlp (cat2 xt ea) W1a b1a W1b b1b

/-- The variance statistic from the mean and the mean of squares: a leaky rectifier (slope the f32 word of 0.01) of m2 − mean². -/
def varOf (mean m2 : EReal) : EReal := leaky (w32 0x3C23D70A#32) (m2 - mean * mean)

/-- The standard deviation statistic: √(v + 1e-6), 1e-6 as its f32 word. -/
def stdOf (v : EReal) : EReal := Ideal.sqrt (v + w32 0x358637BD#32)

/-- The 1280 features a node's perceptron reads: its own 128, then per message feature the mean, the standard
    deviation, the skewness and the kurtosis (256 each, infinities clamped), then the 128 global features.
    `m3`, `m4` are the means of the cubed and fourth-power deviations. -/
def nodeFeat (xs : Fin 128 → EReal) (mean m2 m3 m4 : Fin 256 → EReal) (u : Fin 128 → EReal) (k : Fin 1280) : EReal :=
  if h0 : k.val < 128 then xs ⟨k.val, h0⟩
  else if h1 : k.val < 384 then clampInf (mean ⟨k.val - 128, by omega⟩)
  else if h2 : k.val < 640 then
    stdOf (clampInf (varOf (mean ⟨k.val - 384, by omega⟩) (m2 ⟨k.val - 384, by omega⟩)))
  else if h3 : k.val < 896 then
    let s := stdOf (varOf (mean ⟨k.val - 640, by omega⟩) (m2 ⟨k.val - 640, by omega⟩))
    clampInf (Ideal.div (m3 ⟨k.val - 640, by omega⟩) (s * s * s))
  else if h4 : k.val < 1152 then
    let s := stdOf (varOf (mean ⟨k.val - 896, by omega⟩) (m2 ⟨k.val - 896, by omega⟩))
    clampInf (Ideal.div (m4 ⟨k.val - 896, by omega⟩) (s * s * s * s))
  else u ⟨k.val - 1152, by have := k.isLt; omega⟩

/-- One node's output row before the batch normalisation. -/
def nodeRow (xs : Fin 128 → EReal) (mean m2 m3 m4 : Fin 256 → EReal) (u : Fin 128 → EReal)
    (W2a : Fin 1280 → Fin 1280 → EReal) (b2a : Fin 1280 → EReal)
    (W2b : Fin 128 → Fin 1280 → EReal) (b2b : Fin 128 → EReal) : Fin 128 → EReal :=
  mlp (nodeFeat xs mean m2 m3 m4 u) W2a b2a W2b b2b

end Cert.RowSpec

end
-- ==== Proof.Reg1Pt.lean ====
import proofs.«155120_j26276609917535_2_alg».proof.Proof.Gen.KernelIdeal.Skeleton
import proofs.«155120_j26276609917535_2_alg».proof.Proof.RowSpec
import Idealize.ShloMosaic.Lib.ValueIdx
import Idealize.ShloMosaic.Lib.ValueLayout
import Idealize.ShloMosaic.Lib.Pipeline.Value

/-!
# The node kernel's pointwise stages, read at one entry

Each stage of the node kernel before its two matrix products acts entry by entry on blocks of 1000 rows: the
variance statistic from the mean and the mean of squares, the standard deviation, the skewness and the kurtosis
(each sum divided by the row's own denominator, which sits in a one-column block), the replacement of the two
infinities, and the global feature row repeated on every row. Read at row r and column q, each is the
corresponding scalar function of the row specification applied to the operands' entries in row r.
-/

noncomputable section

namespace Cert.KernelIdeal.Reg1

open Idealize.ShloMosaic Idealize.ShloMosaic.ValueIdx
open Cert.KernelIdeal.Gen Cert.RowSpec

/-- A one-column block repeated over 256 columns reads, at (r, q), the column's entry in row r. -/
theorem bcol (d : FVec Ideal S1000x1 .f32) (h : S1000x1.Broadcasts S1000x256) (r : Fin 1000) (q : Fin 256) :
    broadcastTo S1000x256 d h (ix2 r q) = d (ix2 r (0 : Fin 1)) := by
  refine broadcastTo_apply d h (ix2 r q) (ix2 r (0 : Fin 1)) fun ax => ?_
  match ax with
  | ⟨0, _⟩ =>
    show r.val = if (1000 : Nat) = 1 then 0 else r.val
    rw [if_neg (by decide)]
  | ⟨1, _⟩ => rfl

/-- The quotient of a 256-wide block by the denominator column, at (r, q). -/
theorem quot_apply (d : Vec Ideal S1000x1 .f32) (x : Vec Ideal S1000x256 .f32) (r : Fin 1000) (q : Fin 256) :
    divf (shapeCast S1000x256 x shapeCasts_S1000x256_S1000x256) (broadcastTo S1000x256 (k1_pay2 (F := Ideal) d) broadcasts_S1000x1_S1000x256) (ix2 r q)
      = Ideal.div (x (ix2 r q)) (d (ix2 r (0 : Fin 1))) := by
  unfold k1_pay2
  rw [shapeCast_self, shapeCast_self]
  show Ideal.div (x (ix2 r q)) (broadcastTo S1000x256 d broadcasts_S1000x1_S1000x256 (ix2 r q)) = _
  rw [bcol]

/-- The variance statistic at (r, q). -/
theorem pay4_apply (d : Vec Ideal S1000x1 .f32) (mean s2 : Vec Ideal S1000x256 .f32) (r : Fin 1000) (q : Fin 256) :
    k1_pay4 (F := Ideal) d mean s2 (ix2 r q) = varOf (mean (ix2 r q)) (Ideal.div (s2 (ix2 r q)) (d (ix2 r (0 : Fin 1)))) := by
  have hq := quot_apply d s2 r q
  unfold k1_pay4 k1_pay3
  simp only [shapeCast_self] at hq ⊢
  unfold varOf leaky
  show Scalar.select (Ideal.cmp .oge (divf s2 (broadcastTo S1000x256 (k1_pay2 (F := Ideal) d) broadcasts_S1000x1_S1000x256) (ix2 r q) - mean (ix2 r q) * mean (ix2 r q)) (w32 0x00000000#32))
      (divf s2 (broadcastTo S1000x256 (k1_pay2 (F := Ideal) d) broadcasts_S1000x1_S1000x256) (ix2 r q) - mean (ix2 r q) * mean (ix2 r q))
      (w32 0x3C23D70A#32 * (divf s2 (broadcastTo S1000x256 (k1_pay2 (F := Ideal) d) broadcasts_S1000x1_S1000x256) (ix2 r q) - mean (ix2 r q) * mean (ix2 r q))) = _
  rw [hq]

/-- The standard deviation of the unclamped variance statistic at (r, q). -/
theorem pay5_apply (d : Vec Ideal S1000x1 .f32) (mean s2 : Vec Ideal S1000x256 .f32) (r : Fin 1000) (q : Fin 256) :
    k1_pay5 (F := Ideal) d mean s2 (ix2 r q)
      = stdOf (varOf (mean (ix2 r q)) (Ideal.div (s2 (ix2 r q)) (d (ix2 r (0 : Fin 1))))) := by
  have h4 := pay4_apply d mean s2 r q
  unfold k1_pay5 stdOf
  show Ideal.sqrt (k1_pay4 (F := Ideal) d mean s2 (ix2 r q) + w32 0x358637BD#32) = _
  rw [h4]

/-- The skewness before clamping at (r, q): the mean cubed deviation over the cube of the standard deviation. -/
theorem pay6_apply (d : Vec Ideal S1000x1 .f32) (mean s2 s3 : Vec Ideal S1000x256 .f32) (r : Fin 1000) (q : Fin 256) :
    k1_pay6 (F := Ideal) d mean s2 s3 (ix2 r q)
      = Ideal.div (Ideal.div (s3 (ix2 r q)) (d (ix2 r (0 : Fin 1))))
          (stdOf (varOf (mean (ix2 r q)) (Ideal.div (s2 (ix2 r q)) (d (ix2 r (0 : Fin 1)))))
            * stdOf (varOf (mean (ix2 r q)) (Ideal.div (s2 (ix2 r q)) (d (ix2 r (0 : Fin 1)))))
            * stdOf (varOf (mean (ix2 r q)) (Ideal.div (s2 (ix2 r q)) (d (ix2 r (0 : Fin 1)))))) := by
  have h5 := pay5_apply d mean s2 r q
  have hq := quot_apply d s3 r q
  unfold k1_pay6
  show Ideal.div (divf (shapeCast S1000x256 s3 shapeCasts_S1000x256_S1000x256) (broadcastTo S1000x256 (k1_pay2 (F := Ideal) d) broadcasts_S1000x1_S1000x256) (ix2 r q))
      (k1_pay5 (F := Ideal) d mean s2 (ix2 r q) * k1_pay5 (F := Ideal) d mean s2 (ix2 r q) * k1_pay5 (F := Ideal) d mean s2 (ix2 r q)) = _
  rw [hq, h5]

/-- The kurtosis before clamping at (r, q): the mean fourth-power deviation over the fourth power of the standard deviation. -/
theorem pay7_apply (d : Vec Ideal S1000x1 .f32) (mean s2 s4 : Vec Ideal S1000x256 .f32) (r : Fin 1000) (q : Fin 256) :
    k1_pay7 (F := Ideal) d mean s2 s4 (ix2 r q)
      = Ideal.div (Ideal.div (s4 (ix2 r q)) (d (ix2 r (0 : Fin 1))))
          (stdOf (varOf (mean (ix2 r q)) (Ideal.div (s2 (ix2 r q)) (d (ix2 r (0 : Fin 1)))))
            * stdOf (varOf (mean (ix2 r q)) (Ideal.div (s2 (ix2 r q)) (d (ix2 r (0 : Fin 1)))))
            * stdOf (varOf (mean (ix2 r q)) (Ideal.div (s2 (ix2 r q)) (d (ix2 r (0 : Fin 1)))))
            * stdOf (varOf (mean (ix2 r q)) (Ideal.div (s2 (ix2 r q)) (d (ix2 r (0 : Fin 1)))))) := by
  have h5 := pay5_apply d mean s2 r q
  have hq := quot_apply d s4 r q
  unfold k1_pay7
  show Ideal.div (divf (shapeCast S1000x256 s4 shapeCasts_S1000x256_S1000x256) (broadcastTo S1000x256 (k1_pay2 (F := Ideal) d) broadcasts_S1000x1_S1000x256) (ix2 r q))
      (k1_pay5 (F := Ideal) d mean s2 (ix2 r q) * k1_pay5 (F := Ideal) d mean s2 (ix2 r q) * k1_pay5 (F := Ideal) d mean s2 (ix2 r q) * k1_pay5 (F := Ideal) d mean s2 (ix2 r q)) = _
  rw [hq, h5]

/-- The mean with its infinities replaced, at any entry. -/
theorem clampMean_apply (v : Vec Ideal S1000x256 .f32) (i : S1000x256.Idx) :
    k1_pay10 (F := Ideal) (k1_pay8 v) (k1_pay9 v) i = clampInf (v i) := by
  unfold k1_pay10 k1_pay9 k1_pay8 k1_pay3
  simp only [shapeCast_self]
  rfl

/-- The standard deviation of the clamped variance statistic, at any entry. -/
theorem pay11_apply (v : FVec Ideal S1000x256 .f32) (i : S1000x256.Idx) :
    k1_pay11 (F := Ideal) v i = stdOf (clampInf (v i)) := rfl

/-- The skewness with its infinities replaced, at any entry. -/
theorem pay12_apply (v : FVec Ideal S1000x256 .f32) (i : S1000x256.Idx) :
    k1_pay12 (F := Ideal) v i = clampInf (v i) := rfl

/-- The kurtosis with its infinities replaced, at any entry. -/
theorem pay13_apply (v : FVec Ideal S1000x256 .f32) (i : S1000x256.Idx) :
    k1_pay13 (F := Ideal) v i = clampInf (v i) := rfl

/-- The global feature row repeated on every row: at (r, k) it is the row's entry k. -/
theorem pay14_apply (u : Vec Ideal S1x128 .f32) (r : Fin 1000) (k : Fin 128) :
    k1_pay14 (F := Ideal) u (ix2 r k) = u (ix2 (0 : Fin 1) k) := by
  unfold k1_pay14
  simp only [shapeCast_self]
  exact broadcastTo_1b_ab_apply u broadcasts_S1x128_S1000x128 r k

end Cert.KernelIdeal.Reg1

end
-- ==== Proof.Reg1Cat.lean ====
import proofs.«155120_j26276609917535_2_alg».proof.Proof.Gen.KernelIdeal.Skeleton
import Idealize.ShloMosaic.Lib.ValueIdx
import Idealize.ShloMosaic.Lib.Pipeline.Value

/-!
# Six blocks side by side, read at one entry

The node kernel lays six blocks of 1000 rows side by side along the columns: 128, 256, 256, 256, 256 and 128
columns wide. Column k of row r of the result is column k minus the widths before it of the block whose span
holds k, in the same row.
-/

noncomputable section

namespace Cert.KernelIdeal.Reg1

open Idealize.ShloMosaic Idealize.ShloMosaic.ValueIdx
open Cert.KernelIdeal.Gen

/-- The six-block concatenation at (r, k), by the span that holds k. -/
theorem cat_apply (p0 : S1000x128.Idx → EReal) (p1 p2 p3 p4 : S1000x256.Idx → EReal) (p5 : S1000x128.Idx → EReal)
    (r : Fin 1000) (k : Fin 1280) :
    concatenate S1000x1280 1 [⟨S1000x128, p0⟩, ⟨S1000x256, p1⟩, ⟨S1000x256, p2⟩, ⟨S1000x256, p3⟩, ⟨S1000x256, p4⟩, ⟨S1000x128, p5⟩]
        concatenates_S1000x128_S1000x256_S1000x256_S1000x256_S1000x256_S1000x128_S1000x1280_d1 (ix2 r k) =
      if h0 : k.val < 128 then p0 (ix2 r ⟨k.val, h0⟩)
      else if h1 : k.val < 384 then p1 (ix2 r ⟨k.val - 128, by omega⟩)
      else if h2 : k.val < 640 then p2 (ix2 r ⟨k.val - 384, by omega⟩)
      else if h3 : k.val < 896 then p3 (ix2 r ⟨k.val - 640, by omega⟩)
      else if h4 : k.val < 1152 then p4 (ix2 r ⟨k.val - 896, by omega⟩)
      else p5 (ix2 r ⟨k.val - 1152, by have := k.isLt; omega⟩) := by
  have hk := k.isLt
  split_ifs with h0 h1 h2 h3 h4
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 0 (by show (0 : Nat) < 6; omega) S1000x128 p0 rfl rfl 0 rfl (ix2 r ⟨k.val, h0⟩) (fun b hb => ?_) ?_
    · match b with
      | ⟨0, _⟩ => rfl
      | ⟨1, _⟩ => exact absurd rfl hb
    · show 0 + k.val = k.val; omega
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 1 (by show (1 : Nat) < 6; omega) S1000x256 p1 rfl rfl 128 rfl (ix2 r ⟨k.val - 128, by omega⟩) (fun b hb => ?_) ?_
    · match b with
      | ⟨0, _⟩ => rfl
      | ⟨1, _⟩ => exact absurd rfl hb
    · show 128 + (k.val - 128) = k.val; omega
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 2 (by show (2 : Nat) < 6; omega) S1000x256 p2 rfl rfl 384 rfl (ix2 r ⟨k.val - 384, by omega⟩) (fun b hb => ?_) ?_
    · match b with
      | ⟨0, _⟩ => rfl
      | ⟨1, _⟩ => exact absurd rfl hb
    · show 384 + (k.val - 384) = k.val; omega
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 3 (by show (3 : Nat) < 6; omega) S1000x256 p3 rfl rfl 640 rfl (ix2 r ⟨k.val - 640, by omega⟩) (fun b hb => ?_) ?_
    · match b with
      | ⟨0, _⟩ => rfl
      | ⟨1, _⟩ => exact absurd rfl hb
    · show 640 + (k.val - 640) = k.val; omega
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 4 (by show (4 : Nat) < 6; omega) S1000x256 p4 rfl rfl 896 rfl (ix2 r ⟨k.val - 896, by omega⟩) (fun b hb => ?_) ?_
    · match b with
      | ⟨0, _⟩ => rfl
      | ⟨1, _⟩ => exact absurd rfl hb
    · show 896 + (k.val - 896) = k.val; omega
  · refine concatenate_apply_piece (t := S1000x1280) (1 : Fin 2) [⟨S1000x128, p0⟩, ⟨S1000x256, p1⟩, ⟨S1000x256, p2⟩, ⟨S1000x256, p3⟩, ⟨S1000x256, p4⟩, ⟨S1000x128, p5⟩]
      concatenates_S1000x128_S1000x256_S1000x256_S1000x256_S1000x256_S1000x128_S1000x1280_d1 (ix2 r k) 5 (by show (5 : Nat) < 6; omega) S1000x128 p5 rfl rfl 1152 rfl (ix2 r ⟨k.val - 1152, by omega⟩) (fun b hb => ?_) ?_
    · match b with
      | ⟨0, _⟩ => rfl
      | ⟨1, _⟩ => exact absurd rfl hb
    · show 1152 + (k.val - 1152) = k.val; omega

end Cert.KernelIdeal.Reg1

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.Reg1Mlp.lean ====
import proofs.«155120_j26276609917535_2_alg».proof.Proof.Gen.KernelIdeal.Skeleton
import proofs.«155120_j26276609917535_2_alg».proof.Proof.RowSpec
import proofs.«155120_j26276609917535_2_alg».proof.Proof.LibPlainDot
import Idealize.ShloMosaic.Lib.ValueIdx
import Idealize.ShloMosaic.Lib.ValueLayout
import Idealize.ShloMosaic.Lib.Pipeline.Value

/-!
# The node kernel's two affine layers, read at one entry

After the six blocks are laid side by side, the node kernel multiplies the 1000 × 1280 block by the first weight
matrix (stored input-major, 1280 × 1280), adds the first bias row on every row, applies the leaky rectifier of
slope 0.1, multiplies by the second weight matrix (1280 × 128) and adds the second bias row. A matrix product into
a zero accumulator is, at an entry, the sum over the contracted coordinate; a change of float format is the
identity on the extended reals. So entry (r, j) of the result is the two-layer perceptron of row r of the
1280-wide block, with the weights read output-major.
-/

noncomputable section

namespace Cert.KernelIdeal.Reg1

open Idealize.ShloMosaic Idealize.ShloMosaic.ValueIdx
open Cert.KernelIdeal.Gen Cert.RowSpec
open scoped BigOperators

/-- The first product at (r, q): the sum over the 1280 inputs. -/
theorem mm1_apply (l : FVec Ideal S1000x1280 .bf16) (w : FVec Ideal S1280x1280 .bf16) (r : Fin 1000) (q : Fin 1280) :
    matmul dot_S1000x1280_S1280x1280_S1000x1280_1_0_0_1_n_n none l w (constant (F := Ideal) S1000x1280 .f32 0x00000000#32) (ix2 r q)
      = ∑ k : Fin 1280, l (ix2 r k) * w (ix2 k q) :=
  Cert.PlainDot.matmul_zero_apply 1000 1280 1280 none l w r q

/-- The second product at (r, j): the sum over the 1280 hidden units. -/
theorem mm2_apply (l : FVec Ideal S1000x1280 .bf16) (w : FVec Ideal S1280x128 .bf16) (r : Fin 1000) (j : Fin 128) :
    matmul dot_S1000x1280_S1280x128_S1000x128_1_0_0_1_n_n none l w (constant (F := Ideal) S1000x128 .f32 0x00000000#32) (ix2 r j)
      = ∑ k : Fin 1280, l (ix2 r k) * w (ix2 k j) :=
  Cert.PlainDot.matmul_zero_apply 1000 1280 128 none l w r j

/-- The first layer before its rectifier: the product with the first weights plus the first bias row. -/
def pre1 (x : FVec Ideal S1000x1280 .f32) (wa : FVec Ideal S1280x1280 .bf16) (ba : FVec Ideal S1x1280 .f32) : FVec Ideal S1000x1280 .f32 :=
  addf (matmul dot_S1000x1280_S1280x1280_S1000x1280_1_0_0_1_n_n none (truncf .bf16 x bitsLt_bf16_f32) wa (constant (F := Ideal) S1000x1280 .f32 0x00000000#32))
    (broadcastTo S1000x1280 ba broadcasts_S1x1280_S1000x1280)

/-- At (r, k) it is the affine form of row r with the weights read output-major. -/
theorem pre1_apply (x : FVec Ideal S1000x1280 .f32) (wa : FVec Ideal S1280x1280 .bf16) (ba : FVec Ideal S1x1280 .f32)
    (r : Fin 1000) (k : Fin 1280) :
    pre1 x wa ba (ix2 r k)
      = lin (fun k' => x (ix2 r k')) (fun jo k' => wa (ix2 k' jo)) (fun jo => ba (ix2 (0 : Fin 1) jo)) k := by
  unfold pre1 lin
  rw [addf_apply, mm1_apply, broadcastTo_1b_ab_apply]
  rfl

/-- The leaky rectifier of slope 0.1 on a block. -/
def act1 (z : FVec Ideal S1000x1280 .f32) : FVec Ideal S1000x1280 .f32 :=
  select (cmpf .oge z (broadcast S1000x1280 (Scalar.ofBits (F := Ideal) .f32 0x00000000#32))) z
    (mulf (broadcast S1000x1280 (Scalar.ofBits (F := Ideal) .f32 0x3DCCCCCD#32)) z)

theorem act1_apply (z : FVec Ideal S1000x1280 .f32) (i : S1000x1280.Idx) :
    act1 z i = leaky (w32 0x3DCCCCCD#32) (z i) := rfl

/-- The second layer: the product with the second weights plus the second bias row. -/
def out2 (h : FVec Ideal S1000x1280 .f32) (wb : FVec Ideal S1280x128 .bf16) (bb : FVec Ideal S1x128 .f32) : FVec Ideal S1000x128 .f32 :=
  addf (matmul dot_S1000x1280_S1280x128_S1000x128_1_0_0_1_n_n none (truncf .bf16 h bitsLt_bf16_f32) wb (constant (F := Ideal) S1000x128 .f32 0x00000000#32))
    (broadcastTo S1000x128 bb broadcasts_S1x128_S1000x128)

theorem out2_apply (h : FVec Ideal S1000x1280 .f32) (wb : FVec Ideal S1280x128 .bf16) (bb : FVec Ideal S1x128 .f32)
    (r : Fin 1000) (j : Fin 128) :
    out2 h wb bb (ix2 r j)
      = lin (fun k => h (ix2 r k)) (fun jo k => wb (ix2 k jo)) (fun jo => bb (ix2 (0 : Fin 1) jo)) j := by
  unfold out2 lin
  rw [addf_apply, mm2_apply, broadcastTo_1b_ab_apply]
  rfl

/-- The kernel's last payload is the second layer of the rectified first layer of the six blocks side by side. -/
theorem pay1_eq (v43 v57 v68 v79 : FVec Ideal S1000x256 .f32) (v82 : FVec Ideal S1000x128 .f32) (xs : Vec Ideal S1000x128 .f32)
    (wa : Vec Ideal S1280x1280 .bf16) (ba : Vec Ideal S1x1280 .f32) (wb : Vec Ideal S1280x128 .bf16) (bb : Vec Ideal S1x128 .f32) :
    k1_pay1 (F := Ideal) v43 v57 v68 v79 v82 xs wa ba wb bb
      = out2 (act1 (pre1 (concatenate S1000x1280 1 [⟨S1000x128, xs⟩, ⟨S1000x256, v43⟩, ⟨S1000x256, v57⟩, ⟨S1000x256, v68⟩, ⟨S1000x256, v79⟩, ⟨S1000x128, v82⟩]
          concatenates_S1000x128_S1000x256_S1000x256_S1000x256_S1000x256_S1000x128_S1000x1280_d1) wa ba)) wb bb := by
  unfold k1_pay1 out2 act1 pre1
  simp only [shapeCast_self]

/-- Entry (r, j) of the kernel's last payload: the perceptron of row r of the six blocks side by side. -/
theorem pay1_apply (v43 v57 v68 v79 : FVec Ideal S1000x256 .f32) (v82 : FVec Ideal S1000x128 .f32) (xs : Vec Ideal S1000x128 .f32)
    (wa : Vec Ideal S1280x1280 .bf16) (ba : Vec Ideal S1x1280 .f32) (wb : Vec Ideal S1280x128 .bf16) (bb : Vec Ideal S1x128 .f32)
    (r : Fin 1000) (j : Fin 128) :
    k1_pay1 (F := Ideal) v43 v57 v68 v79 v82 xs wa ba wb bb (ix2 r j)
      = mlp (fun k => concatenate S1000x1280 1 [⟨S1000x128, xs⟩, ⟨S1000x256, v43⟩, ⟨S1000x256, v57⟩, ⟨S1000x256, v68⟩, ⟨S1000x256, v79⟩, ⟨S1000x128, v82⟩]
            concatenates_S1000x128_S1000x256_S1000x256_S1000x256_S1000x256_S1000x128_S1000x1280_d1 (ix2 r k))
          (fun jo k => wa (ix2 k jo)) (fun jo => ba (ix2 (0 : Fin 1) jo))
          (fun jo k => wb (ix2 k jo)) (fun jo => bb (ix2 (0 : Fin 1) jo)) j := by
  rw [pay1_eq, out2_apply]
  unfold mlp
  refine congrArg (fun f => lin f (fun jo k => wb (ix2 k jo)) (fun jo => bb (ix2 (0 : Fin 1) jo)) j) (funext fun k => ?_)
  rw [act1_apply, pre1_apply]

end Cert.KernelIdeal.Reg1

end
-- ==== Proof.Reg1Blk.lean ====
import proofs.«155120_j26276609917535_2_alg».proof.Proof.Gen.KernelIdeal.Frame
import proofs.«155120_j26276609917535_2_alg».proof.Proof.Reg1Pt
import proofs.«155120_j26276609917535_2_alg».proof.Proof.Reg1Cat
import proofs.«155120_j26276609917535_2_alg».proof.Proof.Reg1Mlp

/-!
# What the node kernel leaves in its output block, entry by entry

One run of the node kernel's body reads a block of 1000 rows of each row-blocked input and the whole of each small
input, and stores one block of 1000 rows. Entry (r, j) of the stored block is output j of the node row function
applied to row r of the blocked inputs (each of the three raw moment sums divided by the row's own denominator) and
to the small inputs: the six feature groups side by side are the 1280 node features, and the two affine layers are
the perceptron.
-/

set_option maxRecDepth 16384

noncomputable section

namespace Cert.KernelIdeal.Reg1

open Idealize.ShloMosaic Idealize.ShloMosaic.ValueIdx
open Cert.KernelIdeal.Gen Cert.RowSpec

/-- The two zero offsets of a whole-block access, as the constant function. -/
theorem hz : (![0, 0] : Fin 2 → Nat) = fun _ => 0 :=
  funext fun a => by match a with | ⟨0, _⟩ => rfl | ⟨1, _⟩ => rfl

/-- Column k of row r of the six feature groups side by side is node feature k of that row. -/
theorem feat_apply (d : Vec Ideal S1000x1 .f32) (mean s2 s3 s4 : Vec Ideal S1000x256 .f32) (xs : Vec Ideal S1000x128 .f32)
    (u : Vec Ideal S1x128 .f32) (r : Fin 1000) (k : Fin 1280) :
    concatenate S1000x1280 1 [⟨S1000x128, xs⟩, ⟨S1000x256, k1_pay10 (F := Ideal) (k1_pay8 mean) (k1_pay9 mean)⟩, ⟨S1000x256, k1_pay11 (F := Ideal) (k1_pay4 d mean s2)⟩, ⟨S1000x256, k1_pay12 (F := Ideal) (k1_pay6 d mean s2 s3)⟩, ⟨S1000x256, k1_pay13 (F := Ideal) (k1_pay7 d mean s2 s4)⟩, ⟨S1000x128, k1_pay14 (F := Ideal) u⟩]
        concatenates_S1000x128_S1000x256_S1000x256_S1000x256_S1000x256_S1000x128_S1000x1280_d1 (ix2 r k)
      = nodeFeat (fun k => xs (ix2 r k)) (fun q => mean (ix2 r q))
          (fun q => Ideal.div (s2 (ix2 r q)) (d (ix2 r (0 : Fin 1))))
          (fun q => Ideal.div (s3 (ix2 r q)) (d (ix2 r (0 : Fin 1))))
          (fun q => Ideal.div (s4 (ix2 r q)) (d (ix2 r (0 : Fin 1))))
          (fun k => u (ix2 (0 : Fin 1) k)) k := by
  rw [cat_apply]
  unfold nodeFeat
  split_ifs with h0 h1 h2 h3 h4
  · rfl
  · exact clampMean_apply mean _
  · exact (pay11_apply _ _).trans (congrArg (fun v => stdOf (clampInf v)) (pay4_apply d mean s2 r _))
  · exact (pay12_apply _ _).trans (congrArg clampInf (pay6_apply d mean s2 s3 r _))
  · exact (pay13_apply _ _).trans (congrArg clampInf (pay7_apply d mean s2 s4 r _))
  · exact pay14_apply u r _

/-- Entry (r, j) of the block the body stores, from the input blocks. -/
theorem out_apply (x0 x1 : Vec Ideal S1000x256 .f32) (x2 : Vec Ideal S1000x1 .f32) (x3 x4 : Vec Ideal S1000x256 .f32)
    (x5 : Vec Ideal S1000x128 .f32) (x6 : Vec Ideal S1x128 .f32) (x7 : Vec Ideal S1280x1280 .bf16) (x8 : Vec Ideal S1x1280 .f32)
    (x9 : Vec Ideal S1280x128 .bf16) (x10 : Vec Ideal S1x128 .f32) (r : Fin 1000) (j : Fin 128) :
    out1_11 (F := Ideal) x0 x1 x2 x3 x4 x5 x6 x7 x8 x9 x10 (ix2 r j)
      = nodeRow (fun k => x5 (ix2 r k)) (fun q => x0 (ix2 r q))
          (fun q => Ideal.div (x1 (ix2 r q)) (x2 (ix2 r (0 : Fin 1))))
          (fun q => Ideal.div (x3 (ix2 r q)) (x2 (ix2 r (0 : Fin 1))))
          (fun q => Ideal.div (x4 (ix2 r q)) (x2 (ix2 r (0 : Fin 1))))
          (fun k => x6 (ix2 (0 : Fin 1) k))
          (fun jo k => x7 (ix2 k jo)) (fun jo => x8 (ix2 (0 : Fin 1) jo))
          (fun jo k => x9 (ix2 k jo)) (fun jo => x10 (ix2 (0 : Fin 1) jo)) j := by
  unfold out1_11
  rw [View.canon_unit_zero hz]
  simp only [View.ld_unit_zero (S := S1000x256) hz, View.ld_unit_zero (S := S1000x1) hz, View.ld_unit_zero (S := S1000x128) hz,
    View.ld_unit_zero (S := S1x128) hz, View.ld_unit_zero (S := S1280x1280) hz, View.ld_unit_zero (S := S1x1280) hz,
    View.ld_unit_zero (S := S1280x128) hz]
  rw [pay1_apply]
  unfold nodeRow
  exact congrArg (fun f => mlp f (fun jo k => x7 (ix2 k jo)) (fun jo => x8 (ix2 (0 : Fin 1) jo))
      (fun jo k => x9 (ix2 k jo)) (fun jo => x10 (ix2 (0 : Fin 1) jo)) j)
    (funext fun k => feat_apply x2 x0 x1 x3 x4 x5 x6 r k)

end Cert.KernelIdeal.Reg1

end
-- ==== Proof.Reg1Arr.lean ====
import proofs.«155120_j26276609917535_2_alg».proof.Proof.Gen.KernelIdeal.Frame
import proofs.«155120_j26276609917535_2_alg».proof.Proof.Reg1Blk
import Idealize.ShloMosaic.Lib.Pipeline.Value

/-!
# The node kernel's output array after its fifty grid points

Grid point t of the node kernel reads rows 1000 t … 1000 t + 999 of each row-blocked input and the whole of each
small input, and writes back rows 1000 t … 1000 t + 999 of the output. Every row of the output lies in exactly the
block of point ⌊row / 1000⌋, and what each point writes back is its block of ONE function of the input arrays: row s
of the output is the node row function of row s of the blocked inputs and of the small inputs. So after the run the
output array is that function, whatever it held before.
-/

set_option maxRecDepth 16384

noncomputable section

namespace Cert.KernelIdeal.Reg1

open Idealize.ShloMosaic Idealize.ShloMosaic.TcCoe Idealize.ShloMosaic.ValueIdx
open Idealize.SL.Sem
open Idealize.ShloMosaic.Pipeline (Dat)
open Cert.KernelIdeal.Gen

/-! ## Which block each window reads at a point (decided over the fifty points) -/

theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem idx3 : ∀ t : Fin cfg1.N, win1_3.index t (0 : Fin 2) = t.val ∧ win1_3.index t (1 : Fin 2) = 0 :=
  (by decide +kernel : ∀ t : Fin grid1.N, win1_3.index t (0 : Fin 2) = t.val ∧ win1_3.index t (1 : Fin 2) = 0)
theorem idx4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)
theorem idx5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)
theorem idx6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx11 : ∀ t : Fin cfg1.N, win1_11.index t (0 : Fin 2) = t.val ∧ win1_11.index t (1 : Fin 2) = 0 :=
  (by decide +kernel : ∀ t : Fin grid1.N, win1_11.index t (0 : Fin 2) = t.val ∧ win1_11.index t (1 : Fin 2) = 0)

variable (V : (c : Dev nD) → (b : Ref sig .tc) → Buf (Elt Ideal) ((c : Thread nD τ).loc b)) (c : Dev nD)

/-! ## The input blocks as rows of the arrays -/

/-- Row r of window 0's block at point t is row 1000 t + r of its array. -/
theorem blk0 (t : Fin cfg1.N) (r : Fin 1000) (s : Fin 50000) (hs : s.val = t.val * 1000 + r.val) (q : Fin 256) :
    (iblk1 (F := Ideal) V c 0 t : S1000x256.Idx → EReal) (ix2 r q) = (V c (Pipeline.arrRef spec1 0) : S50000x256.Idx → EReal) (ix2 s q) := by
  obtain ⟨e0, e1⟩ := idx0 t
  unfold iblk1
  show (V c (Pipeline.arrRef spec1 0) : S50000x256.Idx → EReal) (((cfg1.win 0).blk t).view.emb (ix2 r q)) = _
  refine congrArg (V c (Pipeline.arrRef spec1 0) : S50000x256.Idx → EReal) (funext fun a => Fin.ext ?_)
  match a with
  | ⟨0, _⟩ => show win1_0.index t (0 : Fin 2) * 1000 + 1 * r.val = s.val; omega
  | ⟨1, _⟩ => show win1_0.index t (1 : Fin 2) * 256 + 1 * q.val = q.val; omega

/-- Row r of window 1's block at point t is row 1000 t + r of its array. -/
theorem blk1 (t : Fin cfg1.N) (r : Fin 1000) (s : Fin 50000) (hs : s.val = t.val * 1000 + r.val) (q : Fin 256) :
    (iblk1 (F := Ideal) V c 1 t : S1000x256.Idx → EReal) (ix2 r q) = (V c (Pipeline.arrRef spec1 1) : S50000x256.Idx → EReal) (ix2 s q) := by
  obtain ⟨e0, e1⟩ := idx1 t
  unfold iblk1
  show (V c (Pipeline.arrRef spec1 1) : S50000x256.Idx → EReal) (((cfg1.win 1).blk t).view.emb (ix2 r q)) = _
  refine congrArg (V c (Pipeline.arrRef spec1 1) : S50000x256.Idx → EReal) (funext fun a => Fin.ext ?_)
  match a with
  | ⟨0, _⟩ => show win1_1.index t (0 : Fin 2) * 1000 + 1 * r.val = s.val; omega
  | ⟨1, _⟩ => show win1_1.index t (1 : Fin 2) * 256 + 1 * q.val = q.val; omega

/-- Row r of window 2's block at point t is row 1000 t + r of its array. -/
theorem blk2 (t : Fin cfg1.N) (r : Fin 1000) (s : Fin 50000) (hs : s.val = t.val * 1000 + r.val) (q : Fin 1) :
    (iblk1 (F := Ideal) V c 2 t : S1000x1.Idx → EReal) (ix2 r q) = (V c (Pipeline.arrRef spec1 2) : S50000x1.Idx → EReal) (ix2 s q) := by
  obtain ⟨e0, e1⟩ := idx2 t
  unfold iblk1
  show (V c (Pipeline.arrRef spec1 2) : S50000x1.Idx → EReal) (((cfg1.win 2).blk t).view.emb (ix2 r q)) = _
  refine congrArg (V c (Pipeline.arrRef spec1 2) : S50000x1.Idx → EReal) (funext fun a => Fin.ext ?_)
  match a with
  | ⟨0, _⟩ => show win1_2.index t (0 : Fin 2) * 1000 + 1 * r.val = s.val; omega
  | ⟨1, _⟩ => show win1_2.index t (1 : Fin 2) * 1 + 1 * q.val = q.val; omega

/-- Row r of window 3's block at point t is row 1000 t + r of its array. -/
theorem blk3 (t : Fin cfg1.N) (r : Fin 1000) (s : Fin 50000) (hs : s.val = t.val * 1000 + r.val) (q : Fin 256) :
    (iblk1 (F := Ideal) V c 3 t : S1000x256.Idx → EReal) (ix2 r q) = (V c (Pipeline.arrRef spec1 3) : S50000x256.Idx → EReal) (ix2 s q) := by
  obtain ⟨e0, e1⟩ := idx3 t
  unfold iblk1
  show (V c (Pipeline.arrRef spec1 3) : S50000x256.Idx → EReal) (((cfg1.win 3).blk t).view.emb (ix2 r q)) = _
  refine congrArg (V c (Pipeline.arrRef spec1 3) : S50000x256.Idx → EReal) (funext fun a => Fin.ext ?_)
  match a with
  | ⟨0, _⟩ => show win1_3.index t (0 : Fin 2) * 1000 + 1 * r.val = s.val; omega
  | ⟨1, _⟩ => show win1_3.index t (1 : Fin 2) * 256 + 1 * q.val = q.val; omega

/-- Row r of window 4's block at point t is row 1000 t + r of its array. -/
theorem blk4 (t : Fin cfg1.N) (r : Fin 1000) (s : Fin 50000) (hs : s.val = t.val * 1000 + r.val) (q : Fin 256) :
    (iblk1 (F := Ideal) V c 4 t : S1000x256.Idx → EReal) (ix2 r q) = (V c (Pipeline.arrRef spec1 4) : S50000x256.Idx → EReal) (ix2 s q) := by
  obtain ⟨e0, e1⟩ := idx4 t
  unfold iblk1
  show (V c (Pipeline.arrRef spec1 4) : S50000x256.Idx → EReal) (((cfg1.win 4).blk t).view.emb (ix2 r q)) = _
  refine congrArg (V c (Pipeline.arrRef spec1 4) : S50000x256.Idx → EReal) (funext fun a => Fin.ext ?_)
  match a with
  | ⟨0, _⟩ => show win1_4.index t (0 : Fin 2) * 1000 + 1 * r.val = s.val; omega
  | ⟨1, _⟩ => show win1_4.index t (1 : Fin 2) * 256 + 1 * q.val = q.val; omega

/-- Row r of window 5's block at point t is row 1000 t + r of its array. -/
theorem blk5 (t : Fin cfg1.N) (r : Fin 1000) (s : Fin 50000) (hs : s.val = t.val * 1000 + r.val) (q : Fin 128) :
    (iblk1 (F := Ideal) V c 5 t : S1000x128.Idx → EReal) (ix2 r q) = (V c (Pipeline.arrRef spec1 5) : S50000x128.Idx → EReal) (ix2 s q) := by
  obtain ⟨e0, e1⟩ := idx5 t
  unfold iblk1
  show (V c (Pipeline.arrRef spec1 5) : S50000x128.Idx → EReal) (((cfg1.win 5).blk t).view.emb (ix2 r q)) = _
  refine congrArg (V c (Pipeline.arrRef spec1 5) : S50000x128.Idx → EReal) (funext fun a => Fin.ext ?_)
  match a with
  | ⟨0, _⟩ => show win1_5.index t (0 : Fin 2) * 1000 + 1 * r.val = s.val; omega
  | ⟨1, _⟩ => show win1_5.index t (1 : Fin 2) * 128 + 1 * q.val = q.val; omega

/-- Window 6's block at every point is its whole array. -/
theorem blk6 (t : Fin cfg1.N) (a : Fin 1) (b : Fin 128) :
    (iblk1 (F := Ideal) V c 6 t : S1x128.Idx → EReal) (ix2 a b) = (V c (Pipeline.arrRef spec1 6) : S1x128.Idx → EReal) (ix2 a b) := by
  obtain ⟨e0, e1⟩ := idx6 t
  unfold iblk1
  show (V c (Pipeline.arrRef spec1 6) : S1x128.Idx → EReal) (((cfg1.win 6).blk t).view.emb (ix2 a b)) = _
  refine congrArg (V c (Pipeline.arrRef spec1 6) : S1x128.Idx → EReal) (funext fun ax => Fin.ext ?_)
  match ax with
  | ⟨0, _⟩ => show win1_6.index t (0 : Fin 2) * 1 + 1 * a.val = a.val; omega
  | ⟨1, _⟩ => show win1_6.index t (1 : Fin 2) * 128 + 1 * b.val = b.val; omega

/-- Window 7's block at every point is its whole array. -/
theorem blk7 (t : Fin cfg1.N) (a : Fin 1280) (b : Fin 1280) :
    (iblk1 (F := Ideal) V c 7 t : S1280x1280.Idx → EReal) (ix2 a b) = (V c (Pipeline.arrRef spec1 7) : S1280x1280.Idx → EReal) (ix2 a b) := by
  obtain ⟨e0, e1⟩ := idx7 t
  unfold iblk1
  show (V c (Pipeline.arrRef spec1 7) : S1280x1280.Idx → EReal) (((cfg1.win 7).blk t).view.emb (ix2 a b)) = _
  refine congrArg (V c (Pipeline.arrRef spec1 7) : S1280x1280.Idx → EReal) (funext fun ax => Fin.ext ?_)
  match ax with
  | ⟨0, _⟩ => show win1_7.index t (0 : Fin 2) * 1280 + 1 * a.val = a.val; omega
  | ⟨1, _⟩ => show win1_7.index t (1 : Fin 2) * 1280 + 1 * b.val = b.val; omega

/-- Window 8's block at every point is its whole array. -/
theorem blk8 (t : Fin cfg1.N) (a : Fin 1) (b : Fin 1280) :
    (iblk1 (F := Ideal) V c 8 t : S1x1280.Idx → EReal) (ix2 a b) = (V c (Pipeline.arrRef spec1 8) : S1x1280.Idx → EReal) (ix2 a b) := by
  obtain ⟨e0, e1⟩ := idx8 t
  unfold iblk1
  show (V c (Pipeline.arrRef spec1 8) : S1x1280.Idx → EReal) (((cfg1.win 8).blk t).view.emb (ix2 a b)) = _
  refine congrArg (V c (Pipeline.arrRef spec1 8) : S1x1280.Idx → EReal) (funext fun ax => Fin.ext ?_)
  match ax with
  | ⟨0, _⟩ => show win1_8.index t (0 : Fin 2) * 1 + 1 * a.val = a.val; omega
  | ⟨1, _⟩ => show win1_8.index t (1 : Fin 2) * 1280 + 1 * b.val = b.val; omega

/-- Window 9's block at every point is its whole array. -/
theorem blk9 (t : Fin cfg1.N) (a : Fin 1280) (b : Fin 128) :
    (iblk1 (F := Ideal) V c 9 t : S1280x128.Idx → EReal) (ix2 a b) = (V c (Pipeline.arrRef spec1 9) : S1280x128.Idx → EReal) (ix2 a b) := by
  obtain ⟨e0, e1⟩ := idx9 t
  unfold iblk1
  show (V c (Pipeline.arrRef spec1 9) : S1280x128.Idx → EReal) (((cfg1.win 9).blk t).view.emb (ix2 a b)) = _
  refine congrArg (V c (Pipeline.arrRef spec1 9) : S1280x128.Idx → EReal) (funext fun ax => Fin.ext ?_)
  match ax with
  | ⟨0, _⟩ => show win1_9.index t (0 : Fin 2) * 1280 + 1 * a.val = a.val; omega
  | ⟨1, _⟩ => show win1_9.index t (1 : Fin 2) * 128 + 1 * b.val = b.val; omega

/-- Window 10's block at every point is its whole array. -/
theorem blk10 (t : Fin cfg1.N) (a : Fin 1) (b : Fin 128) :
    (iblk1 (F := Ideal) V c 10 t : S1x128.Idx → EReal) (ix2 a b) = (V c (Pipeline.arrRef spec1 10) : S1x128.Idx → EReal) (ix2 a b) := by
  obtain ⟨e0, e1⟩ := idx10 t
  unfold iblk1
  show (V c (Pipeline.arrRef spec1 10) : S1x128.Idx → EReal) (((cfg1.win 10).blk t).view.emb (ix2 a b)) = _
  refine congrArg (V c (Pipeline.arrRef spec1 10) : S1x128.Idx → EReal) (funext fun ax => Fin.ext ?_)
  match ax with
  | ⟨0, _⟩ => show win1_10.index t (0 : Fin 2) * 1 + 1 * a.val = a.val; omega
  | ⟨1, _⟩ => show win1_10.index t (1 : Fin 2) * 128 + 1 * b.val = b.val; omega

/-! ## The output row as a function of the arrays -/

/-- Output j of node s, from the arrays as the region finds them. -/
def rowOf (s : Fin 50000) (j : Fin 128) : EReal :=
  Cert.RowSpec.nodeRow
    (fun k => (V c (Pipeline.arrRef spec1 5) : S50000x128.Idx → EReal) (ix2 s k))
    (fun q => (V c (Pipeline.arrRef spec1 0) : S50000x256.Idx → EReal) (ix2 s q))
    (fun q => Ideal.div ((V c (Pipeline.arrRef spec1 1) : S50000x256.Idx → EReal) (ix2 s q)) ((V c (Pipeline.arrRef spec1 2) : S50000x1.Idx → EReal) (ix2 s (0 : Fin 1))))
    (fun q => Ideal.div ((V c (Pipeline.arrRef spec1 3) : S50000x256.Idx → EReal) (ix2 s q)) ((V c (Pipeline.arrRef spec1 2) : S50000x1.Idx → EReal) (ix2 s (0 : Fin 1))))
    (fun q => Ideal.div ((V c (Pipeline.arrRef spec1 4) : S50000x256.Idx → EReal) (ix2 s q)) ((V c (Pipeline.arrRef spec1 2) : S50000x1.Idx → EReal) (ix2 s (0 : Fin 1))))
    (fun k => (V c (Pipeline.arrRef spec1 6) : S1x128.Idx → EReal) (ix2 (0 : Fin 1) k))
    (fun jo k => (V c (Pipeline.arrRef spec1 7) : S1280x1280.Idx → EReal) (ix2 k jo))
    (fun jo => (V c (Pipeline.arrRef spec1 8) : S1x1280.Idx → EReal) (ix2 (0 : Fin 1) jo))
    (fun jo k => (V c (Pipeline.arrRef spec1 9) : S1280x128.Idx → EReal) (ix2 k jo))
    (fun jo => (V c (Pipeline.arrRef spec1 10) : S1x128.Idx → EReal) (ix2 (0 : Fin 1) jo)) j

/-- The whole output array as one function of the arrays. -/
def outArr : S50000x128.Idx → EReal :=
  fun i => rowOf V c ⟨(i 0).val, idx2_lt0 i⟩ ⟨(i 1).val, idx2_lt1 i⟩

/-- What point t writes back is its block of that function. -/
theorem flushed_eq (t : Fin cfg1.N) :
    (dat1 (F := Ideal) V c).flushed 11 t = ((cfg1.win 11).blk t).view.read (Elt Ideal) (outArr V c) := by
  show (cfg1.win 11).cut (grid1.coords t) ((dat1 (F := Ideal) V c).after 11 t) = _
  rw [after1_11]
  refine funext fun (y : S1000x128.Idx) => ?_
  obtain ⟨r, j, rfl⟩ : ∃ (r : Fin 1000) (j : Fin 128), y = ix2 r j := ⟨y 0, y 1, eq_ix2 y⟩
  have hN : t.val < 50 := Nat.lt_of_lt_of_eq t.isLt (show cfg1.N = 50 from N_1)
  have hlt : t.val * 1000 + r.val < 50000 := by omega
  obtain ⟨e0, e1⟩ := idx11 t
  have hemb : ((cfg1.win 11).blk t).view.emb (ix2 r j) = (ix2 (⟨t.val * 1000 + r.val, hlt⟩ : Fin 50000) j : S50000x128.Idx) :=
    funext fun a => Fin.ext (by
      match a with
      | ⟨0, _⟩ => show win1_11.index t (0 : Fin 2) * 1000 + 1 * r.val = t.val * 1000 + r.val; omega
      | ⟨1, _⟩ => show win1_11.index t (1 : Fin 2) * 128 + 1 * j.val = j.val; omega)
  show out1_11 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (ix2 r j)
    = outArr V c (((cfg1.win 11).blk t).view.emb (ix2 r j))
  rw [hemb, out_apply]
  show _ = rowOf V c (⟨t.val * 1000 + r.val, hlt⟩ : Fin 50000) j
  unfold rowOf
  simp only [blk0 V c t r (⟨t.val * 1000 + r.val, hlt⟩ : Fin 50000) rfl, blk1 V c t r (⟨t.val * 1000 + r.val, hlt⟩ : Fin 50000) rfl, blk2 V c t r (⟨t.val * 1000 + r.val, hlt⟩ : Fin 50000) rfl, blk3 V c t r (⟨t.val * 1000 + r.val, hlt⟩ : Fin 50000) rfl,
    blk4 V c t r (⟨t.val * 1000 + r.val, hlt⟩ : Fin 50000) rfl, blk5 V c t r (⟨t.val * 1000 + r.val, hlt⟩ : Fin 50000) rfl,
    blk6 V c t, blk7 V c t, blk8 V c t, blk9 V c t, blk10 V c t]

/-- An index of the output array is in point t's block iff each coordinate is in the block's range on its axis. -/
theorem mem_blk (t : Fin cfg1.N) (i : S50000x128.Idx) :
    i ∈ ((cfg1.win 11).blk t).view.set ↔ ∀ a : Fin 2, win1_11.index t a * S1000x128.size a ≤ (i a).val
      ∧ (i a).val < win1_11.index t a * S1000x128.size a + S1000x128.size a := by
  show i ∈ ((View.whole main_v58).slice (win1_11.rect t)).set ↔ _
  rw [View.set_slice_whole, Rect.mem_set_unit]
  exact Iff.rfl

/-- Every index of the output array is in the block of the point its row falls in. -/
theorem covered (i : S50000x128.Idx) :
    ∃ t : Fin cfg1.N, (cfg1.win 11).flush t = true ∧ i ∈ ((cfg1.win 11).blk t).view.set := by
  have hi0 : (i 0).val < 50000 := idx2_lt0 i
  have hi1 : (i 1).val < 128 := idx2_lt1 i
  have hN : cfg1.N = 50 := N_1
  have ht : (i 0).val / 1000 < cfg1.N := by rw [hN]; omega
  obtain ⟨e0, e1⟩ := idx11 ⟨(i 0).val / 1000, ht⟩
  refine ⟨⟨(i 0).val / 1000, ht⟩, flush1_11 _, ?_⟩
  rw [mem_blk]
  intro a
  match a with
  | ⟨0, _⟩ =>
    show win1_11.index ⟨(i 0).val / 1000, ht⟩ (0 : Fin 2) * 1000 ≤ (i 0).val
      ∧ (i 0).val < win1_11.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win1_11.index ⟨(i 0).val / 1000, ht⟩ (1 : Fin 2) * 128 ≤ (i 1).val
      ∧ (i 1).val < win1_11.index ⟨(i 0).val / 1000, ht⟩ (1 : Fin 2) * 128 + 128
    rw [e1]; omega

/-- The output array after the run is that function of the arrays as the region finds them. -/
theorem final : (dat1 (F := Ideal) V c).arrAt 11 cfg1.N = outArr V c :=
  (dat1 (F := Ideal) V c).arrAt_eq_of_cover 11 (outArr V c) (fun t _ => flushed_eq V c t) (covered)

/-- Entry (s, j) of the node kernel's output array after the run: output j of the node row function of row s of the
    row-blocked arrays (the three raw moment sums each divided by the row's denominator) and of the small arrays. -/
theorem arr1 (s : Fin 50000) (j : Fin 128) :
    ((dat1 (F := Ideal) V c).arrAt 11 cfg1.N : S50000x128.Idx → EReal) (ix2 s j) =
      Cert.RowSpec.nodeRow
        (fun k => (V c (Pipeline.arrRef spec1 5) : S50000x128.Idx → EReal) (ix2 s k))
        (fun q => (V c (Pipeline.arrRef spec1 0) : S50000x256.Idx → EReal) (ix2 s q))
        (fun q => Ideal.div ((V c (Pipeline.arrRef spec1 1) : S50000x256.Idx → EReal) (ix2 s q)) ((V c (Pipeline.arrRef spec1 2) : S50000x1.Idx → EReal) (ix2 s (0 : Fin 1))))
        (fun q => Ideal.div ((V c (Pipeline.arrRef spec1 3) : S50000x256.Idx → EReal) (ix2 s q)) ((V c (Pipeline.arrRef spec1 2) : S50000x1.Idx → EReal) (ix2 s (0 : Fin 1))))
        (fun q => Ideal.div ((V c (Pipeline.arrRef spec1 4) : S50000x256.Idx → EReal) (ix2 s q)) ((V c (Pipeline.arrRef spec1 2) : S50000x1.Idx → EReal) (ix2 s (0 : Fin 1))))
        (fun k => (V c (Pipeline.arrRef spec1 6) : S1x128.Idx → EReal) (ix2 (0 : Fin 1) k))
        (fun jo k => (V c (Pipeline.arrRef spec1 7) : S1280x1280.Idx → EReal) (ix2 k jo))
        (fun jo => (V c (Pipeline.arrRef spec1 8) : S1x1280.Idx → EReal) (ix2 (0 : Fin 1) jo))
        (fun jo k => (V c (Pipeline.arrRef spec1 9) : S1280x128.Idx → EReal) (ix2 k jo))
        (fun jo => (V c (Pipeline.arrRef spec1 10) : S1x128.Idx → EReal) (ix2 (0 : Fin 1) jo)) j :=
  (congrFun (final V c) (ix2 s j)).trans rfl

end Cert.KernelIdeal.Reg1

end
-- ==== Proof.Reg0Pay.lean ====
import proofs.«155120_j26276609917535_2_alg».proof.Proof.Gen.KernelIdeal.Skeleton
import proofs.«155120_j26276609917535_2_alg».proof.Proof.LibPlainDot
import proofs.«155120_j26276609917535_2_alg».proof.Proof.RowSpec
import Idealize.ShloMosaic.Lib.Pipeline.Value
import Idealize.ShloMosaic.Lib.ValueIdx

/-!
# The edge perceptron's stored block, entry by entry

On the extended reals the value the edge kernel stores at row r, column j of a block is the two-layer
perceptron of row r of the two feature blocks laid side by side: rounding to bf16 is the identity, each
product into a zero accumulator is a finite sum over the contracted axis, a bias row is broadcast down the
rows, and the rectifier is applied entry by entry.
-/

noncomputable section

namespace Cert.KernelIdeal.Reg0

open Idealize.ShloMosaic Idealize.ShloMosaic.ValueIdx
open Cert.KernelIdeal Cert.KernelIdeal.Gen
open scoped BigOperators

/-- The printed dimension numbers are those of a plain 3200×256 by 256×256 product. -/
theorem dot_plain : dot_S3200x256_S256x256_S3200x256_1_0_0_1_n_n = DotDims.plain 3200 256 256 := rfl

/-- Two 128-column blocks side by side, read at row r and column k. -/
theorem cat_apply (a b : FVec Ideal S3200x128 .f32) (r : Fin 3200) (k : Fin 256) :
    concatenate S3200x256 1 [⟨S3200x128, a⟩, ⟨S3200x128, b⟩] concatenates_S3200x128_S3200x128_S3200x256_d1 (ix2 r k)
      = Cert.RowSpec.cat2 (fun q : Fin 128 => a (ix2 r q)) (fun q : Fin 128 => b (ix2 r q)) k := by
  unfold Cert.RowSpec.cat2
  by_cases h : k.val < 128
  · rw [dif_pos h]
    exact concatenate_pair_apply_left (1 : Fin 2) a b concatenates_S3200x128_S3200x128_S3200x256_d1 (ix2 r k) rfl
      (ix2 r (⟨k.val, h⟩ : Fin 128)) (fun c => by match c with | ⟨0, _⟩ => rfl | ⟨1, _⟩ => rfl)
  · rw [dif_neg h]
    have hk : k.val < 256 := k.isLt
    exact concatenate_pair_apply_right (1 : Fin 2) a b concatenates_S3200x128_S3200x128_S3200x256_d1 (ix2 r k) rfl rfl
      (ix2 r (⟨k.val - 128, by omega⟩ : Fin 128))
      (fun c hc => by
        match c with
        | ⟨0, _⟩ => rfl
        | ⟨1, _⟩ => exact absurd rfl hc)
      (by show k.val - 128 + 128 = k.val; omega)

/-- A bias row broadcast down the rows, read at row r and column j. -/
theorem bias_apply (b : FVec Ideal S1x256 .f32) (r : Fin 3200) (j : Fin 256) :
    broadcastTo S3200x256 b broadcasts_S1x256_S3200x256 (ix2 r j) = b (ix2 0 j) :=
  broadcastTo_apply b broadcasts_S1x256_S3200x256 (ix2 r j) (ix2 0 j)
    (fun a => by match a with | ⟨0, _⟩ => rfl | ⟨1, _⟩ => rfl)

/-- One affine layer of the kernel at an entry: the product into the zero accumulator plus the broadcast bias. -/
theorem layer_apply {φ : FTy} (x : FVec Ideal S3200x256 φ) (w : FVec Ideal S256x256 .bf16) (b : FVec Ideal S1x256 .f32)
    (r : Fin 3200) (j : Fin 256) :
    addf (matmul dot_S3200x256_S256x256_S3200x256_1_0_0_1_n_n none x
            (shapeCast S256x256 w shapeCasts_S256x256_S256x256) (constant (F := Ideal) S3200x256 .f32 0x00000000#32))
         (broadcastTo S3200x256 (shapeCast S1x256 b shapeCasts_S1x256_S1x256) broadcasts_S1x256_S3200x256) (ix2 r j)
      = Cert.RowSpec.lin (fun k : Fin 256 => x (ix2 r k)) (fun (jo : Fin 256) (k : Fin 256) => w (ix2 k jo))
          (fun jo : Fin 256 => b (ix2 0 jo)) j := by
  rw [shapeCast_self, shapeCast_self, dot_plain]
  show matmul (DotDims.plain 3200 256 256) none x w (constant (F := Ideal) ⟨2, ![3200, 256]⟩ .f32 0x00000000#32) (ix2 r j)
      + broadcastTo S3200x256 b broadcasts_S1x256_S3200x256 (ix2 r j) = _
  rw [Cert.PlainDot.matmul_zero_apply 3200 256 256 none x w r j, bias_apply]
  rfl

/-- The stored value at row r, column j of a block: the edge perceptron of row r of the two feature blocks. -/
theorem pay_apply (x0 x1 : Vec Ideal S3200x128 .f32) (wa wb : Vec Ideal S256x256 .bf16) (ba bb : Vec Ideal S1x256 .f32)
    (r : Fin 3200) (j : Fin 256) :
    k0_pay1 (F := Ideal) x0 x1 wa ba wb bb (ix2 r j)
      = Cert.RowSpec.msgRow (fun k : Fin 128 => x0 (ix2 r k)) (fun k : Fin 128 => x1 (ix2 r k))
          (fun (jo : Fin 256) (k : Fin 256) => wa (ix2 k jo)) (fun jo : Fin 256 => ba (ix2 0 jo))
          (fun (jo : Fin 256) (k : Fin 256) => wb (ix2 k jo)) (fun jo : Fin 256 => bb (ix2 0 jo)) j := by
  unfold k0_pay1
  refine (layer_apply _ wb bb r j).trans ?_
  unfold Cert.RowSpec.msgRow Cert.RowSpec.mlp
  refine congrArg (fun f : Fin 256 → EReal => Cert.RowSpec.lin f _ _ j) (funext fun k => ?_)
  show Cert.RowSpec.leaky (Cert.RowSpec.w32 0x3DCCCCCD#32) _ = _
  refine congrArg (Cert.RowSpec.leaky (Cert.RowSpec.w32 0x3DCCCCCD#32)) ?_
  refine (layer_apply _ wa ba r k).trans ?_
  refine congrArg (fun f : Fin 256 → EReal => Cert.RowSpec.lin f _ _ k) (funext fun q => ?_)
  rw [shapeCast_self]
  exact cat_apply x0 x1 r q

end Cert.KernelIdeal.Reg0

end
-- ==== Proof.Reg0Arr.lean ====
import proofs.«155120_j26276609917535_2_alg».proof.Proof.Gen.KernelIdeal.Frame
import proofs.«155120_j26276609917535_2_alg».proof.Proof.Reg0Pay
import Idealize.ShloMosaic.Lib.Pipeline.Value

/-!
# The edge perceptron's output array, entry by entry

The edge kernel runs over 125 blocks of 3200 rows. Block t of the two feature arrays is rows 3200·t … 3200·t + 3199,
the weights and biases are read whole at every point, and block t of the output is written back at every point;
the 125 output blocks tile the 400000 rows. So after the region the output array holds, at row e and column j,
the edge perceptron of row e of the two feature arrays.
-/

set_option maxRecDepth 16384

noncomputable section

namespace Cert.KernelIdeal.Reg0

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem offsets_zero : (![0, 0] : Fin 2 → Nat) = fun _ => 0 := funext fun a => by fin_cases a <;> rfl

/-- The whole output array as a function of the whole input arrays: row by row the edge perceptron. -/
def msgArr (X0 X1 : S400000x128.Idx → EReal) (X2 : S256x256.Idx → EReal) (X3 : S1x256.Idx → EReal)
    (X4 : S256x256.Idx → EReal) (X5 : S1x256.Idx → EReal) : S400000x256.Idx → EReal := fun i =>
  Cert.RowSpec.msgRow
    (fun k : Fin 128 => X0 (ix2 (⟨(i 0).val, idx2_lt0 i⟩ : Fin 400000) k))
    (fun k : Fin 128 => X1 (ix2 (⟨(i 0).val, idx2_lt0 i⟩ : Fin 400000) k))
    (fun (jo : Fin 256) (k : Fin 256) => X2 (ix2 k jo)) (fun jo : Fin 256 => X3 (ix2 0 jo))
    (fun (jo : Fin 256) (k : Fin 256) => X4 (ix2 k jo)) (fun jo : Fin 256 => X5 (ix2 0 jo))
    (⟨(i 1).val, idx2_lt1 i⟩ : Fin 256)

/-- The stored value at an entry of a block whose inputs are the named rows of whole arrays. -/
theorem row_of_blocks (x0 x1 : Vec Ideal S3200x128 .f32) (wa wb : Vec Ideal S256x256 .bf16) (ba bb : Vec Ideal S1x256 .f32)
    (X0 X1 : S400000x128.Idx → EReal) (X2 : S256x256.Idx → EReal) (X3 : S1x256.Idx → EReal)
    (X4 : S256x256.Idx → EReal) (X5 : S1x256.Idx → EReal)
    (r : Fin 3200) (e : Fin 400000) (j : Fin 256)
    (hx0 : ∀ k : Fin 128, x0 (ix2 r k) = X0 (ix2 e k)) (hx1 : ∀ k : Fin 128, x1 (ix2 r k) = X1 (ix2 e k))
    (hwa : ∀ k jo : Fin 256, wa (ix2 k jo) = X2 (ix2 k jo)) (hba : ∀ jo : Fin 256, ba (ix2 0 jo) = X3 (ix2 0 jo))
    (hwb : ∀ k jo : Fin 256, wb (ix2 k jo) = X4 (ix2 k jo)) (hbb : ∀ jo : Fin 256, bb (ix2 0 jo) = X5 (ix2 0 jo)) :
    k0_pay1 (F := Ideal) x0 x1 wa ba wb bb (ix2 r j) = msgArr X0 X1 X2 X3 X4 X5 (ix2 e j) := by
  rw [pay_apply]
  simp only [hx0, hx1, hwa, hba, hwb, hbb]
  rfl

/-- The printed index maps over the grid: the row-blocked windows sit at block t on the row axis, every other
    block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt (t : Fin cfg0.N) (r : Fin 3200) : t.val * 3200 + r.val < 400000 := by
  have hN : cfg0.N = 125 := N_0
  have := t.isLt
  have := r.isLt
  omega

/-- Block t of a row-blocked feature array, read at (r, k), is the array at row 3200·t + r. -/
theorem blk0_apply (c : Dev nD) (t : Fin cfg0.N) (r : Fin 3200) (k : Fin 128) :
    (iblk0 V c 0 t : Vec Ideal S3200x128 .f32) (ix2 r k)
      = (V c (Pipeline.arrRef spec0 0) : S400000x128.Idx → EReal) (ix2 (⟨t.val * 3200 + r.val, row_lt t r⟩ : Fin 400000) k) := by
  obtain ⟨e0, e1, -⟩ := idx_facts t
  show (V c (Pipeline.arrRef spec0 0) : S400000x128.Idx → EReal) (((cfg0.win 0).blk t).view.emb (ix2 r k)) = _
  refine congrArg (V c (Pipeline.arrRef spec0 0) : S400000x128.Idx → EReal) (funext fun a => Fin.ext ?_)
  match a with
  | ⟨0, _⟩ => show win0_0.index t (0 : Fin 2) * 3200 + 1 * r.val = t.val * 3200 + r.val; omega
  | ⟨1, _⟩ => show win0_0.index t (1 : Fin 2) * 128 + 1 * k.val = k.val; omega

theorem blk1_apply (c : Dev nD) (t : Fin cfg0.N) (r : Fin 3200) (k : Fin 128) :
    (iblk0 V c 1 t : Vec Ideal S3200x128 .f32) (ix2 r k)
      = (V c (Pipeline.arrRef spec0 1) : S400000x128.Idx → EReal) (ix2 (⟨t.val * 3200 + r.val, row_lt t r⟩ : Fin 400000) k) := by
  obtain ⟨-, -, e0, e1, -⟩ := idx_facts t
  show (V c (Pipeline.arrRef spec0 1) : S400000x128.Idx → EReal) (((cfg0.win 1).blk t).view.emb (ix2 r k)) = _
  refine congrArg (V c (Pipeline.arrRef spec0 1) : S400000x128.Idx → EReal) (funext fun a => Fin.ext ?_)
  match a with
  | ⟨0, _⟩ => show win0_1.index t (0 : Fin 2) * 3200 + 1 * r.val = t.val * 3200 + r.val; omega
  | ⟨1, _⟩ => show win0_1.index t (1 : Fin 2) * 128 + 1 * k.val = k.val; omega

/-- The weights and biases are read whole at every point. -/
theorem blk2_apply (c : Dev nD) (t : Fin cfg0.N) (k jo : Fin 256) :
    (iblk0 V c 2 t : Vec Ideal S256x256 .bf16) (ix2 k jo)
      = (V c (Pipeline.arrRef spec0 2) : S256x256.Idx → EReal) (ix2 k jo) := by
  obtain ⟨-, -, -, -, e0, e1, -⟩ := idx_facts t
  show (V c (Pipeline.arrRef spec0 2) : S256x256.Idx → EReal) (((cfg0.win 2).blk t).view.emb (ix2 k jo)) = _
  refine congrArg (V c (Pipeline.arrRef spec0 2) : S256x256.Idx → EReal) (funext fun a => Fin.ext ?_)
  match a with
  | ⟨0, _⟩ => show win0_2.index t (0 : Fin 2) * 256 + 1 * k.val = k.val; omega
  | ⟨1, _⟩ => show win0_2.index t (1 : Fin 2) * 256 + 1 * jo.val = jo.val; omega

theorem blk3_apply (c : Dev nD) (t : Fin cfg0.N) (jo : Fin 256) :
    (iblk0 V c 3 t : Vec Ideal S1x256 .f32) (ix2 0 jo)
      = (V c (Pipeline.arrRef spec0 3) : S1x256.Idx → EReal) (ix2 0 jo) := by
  obtain ⟨-, -, -, -, -, -, e0, e1, -⟩ := idx_facts t
  show (V c (Pipeline.arrRef spec0 3) : S1x256.Idx → EReal) (((cfg0.win 3).blk t).view.emb (ix2 0 jo)) = _
  refine congrArg (V c (Pipeline.arrRef spec0 3) : S1x256.Idx → EReal) (funext fun a => Fin.ext ?_)
  match a with
  | ⟨0, _⟩ => show win0_3.index t (0 : Fin 2) * 1 + 1 * 0 = 0; omega
  | ⟨1, _⟩ => show win0_3.index t (1 : Fin 2) * 256 + 1 * jo.val = jo.val; omega

theorem blk4_apply (c : Dev nD) (t : Fin cfg0.N) (k jo : Fin 256) :
    (iblk0 V c 4 t : Vec Ideal S256x256 .bf16) (ix2 k jo)
      = (V c (Pipeline.arrRef spec0 4) : S256x256.Idx → EReal) (ix2 k jo) := by
  obtain ⟨-, -, -, -, -, -, -, -, e0, e1, -⟩ := idx_facts t
  show (V c (Pipeline.arrRef spec0 4) : S256x256.Idx → EReal) (((cfg0.win 4).blk t).view.emb (ix2 k jo)) = _
  refine congrArg (V c (Pipeline.arrRef spec0 4) : S256x256.Idx → EReal) (funext fun a => Fin.ext ?_)
  match a with
  | ⟨0, _⟩ => show win0_4.index t (0 : Fin 2) * 256 + 1 * k.val = k.val; omega
  | ⟨1, _⟩ => show win0_4.index t (1 : Fin 2) * 256 + 1 * jo.val = jo.val; omega

theorem blk5_apply (c : Dev nD) (t : Fin cfg0.N) (jo : Fin 256) :
    (iblk0 V c 5 t : Vec Ideal S1x256 .f32) (ix2 0 jo)
      = (V c (Pipeline.arrRef spec0 5) : S1x256.Idx → EReal) (ix2 0 jo) := by
  obtain ⟨-, -, -, -, -, -, -, -, -, -, e0, e1, -⟩ := idx_facts t
  show (V c (Pipeline.arrRef spec0 5) : S1x256.Idx → EReal) (((cfg0.win 5).blk t).view.emb (ix2 0 jo)) = _
  refine congrArg (V c (Pipeline.arrRef spec0 5) : S1x256.Idx → EReal) (funext fun a => Fin.ext ?_)
  match a with
  | ⟨0, _⟩ => show win0_5.index t (0 : Fin 2) * 1 + 1 * 0 = 0; omega
  | ⟨1, _⟩ => show win0_5.index t (1 : Fin 2) * 256 + 1 * jo.val = jo.val; omega

/-- Where entry (r, j) of output block t sits in the output array. -/
theorem blk6_emb (t : Fin cfg0.N) (r : Fin 3200) (j : Fin 256) :
    (((cfg0.win 6).blk t).view.emb (ix2 r j) : S400000x256.Idx)
      = ix2 (⟨t.val * 3200 + r.val, row_lt t r⟩ : Fin 400000) j := by
  obtain ⟨-, -, -, -, -, -, -, -, -, -, -, -, e0, e1⟩ := idx_facts t
  refine funext fun a => Fin.ext ?_
  match a with
  | ⟨0, _⟩ => show win0_6.index t (0 : Fin 2) * 3200 + 1 * r.val = t.val * 3200 + r.val; omega
  | ⟨1, _⟩ => show win0_6.index t (1 : Fin 2) * 256 + 1 * j.val = j.val; omega

/-- What point t writes back is block t of the row-by-row perceptron of the arrays as the region finds them. -/
theorem flushed_eq (c : Dev nD) (t : Fin cfg0.N) :
    (dat0 V c).flushed 6 t = ((cfg0.win 6).blk t).view.read (Elt Ideal)
      (msgArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero offsets_zero]
  simp only [View.ld_unit_zero (S := S3200x128) offsets_zero, View.ld_unit_zero (S := S256x256) offsets_zero,
    View.ld_unit_zero (S := S1x256) offsets_zero]
  funext y
  obtain ⟨r, j, rfl⟩ : ∃ (r : Fin 3200) (j : Fin 256), y = ix2 r j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 r j)
      = msgArr (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 6).blk t).view.emb (ix2 r j))
  rw [blk6_emb t r j]
  exact row_of_blocks (iblk0 V c 0 t) (iblk0 V c 1 t) (iblk0 V c 2 t) (iblk0 V c 4 t) (iblk0 V c 3 t) (iblk0 V c 5 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    r (⟨t.val * 3200 + r.val, row_lt t r⟩ : Fin 400000) j
    (blk0_apply V c t r) (blk1_apply V c t r) (blk2_apply V c t) (blk3_apply V c t) (blk4_apply V c t) (blk5_apply V c t)

/-- An index of the output array is in point t's block iff each coordinate is in the block's range on its axis. -/
theorem mem_blk (t : Fin cfg0.N) (i : S400000x256.Idx) :
    i ∈ ((cfg0.win 6).blk t).view.set ↔ ∀ a : Fin 2, win0_6.index t a * S3200x256.size a ≤ (i a).val
      ∧ (i a).val < win0_6.index t a * S3200x256.size a + S3200x256.size a := by
  show i ∈ ((View.whole main_v17).slice (win0_6.rect t)).set ↔ _
  rw [View.set_slice_whole, Rect.mem_set_unit]
  exact Iff.rfl

/-- The 125 output blocks tile the array: row e is in block e / 3200. -/
theorem covered (i : S400000x256.Idx) :
    ∃ t : Fin cfg0.N, (cfg0.win 6).flush t = true ∧ i ∈ ((cfg0.win 6).blk t).view.set := by
  have hi0 : (i 0).val < 400000 := (i 0).isLt
  have hi1 : (i 1).val < 256 := (i 1).isLt
  have hN : cfg0.N = 125 := N_0
  have ht : (i 0).val / 3200 < cfg0.N := by rw [hN]; omega
  obtain ⟨-, -, -, -, -, -, -, -, -, -, -, -, e0, e1⟩ := idx_facts ⟨(i 0).val / 3200, ht⟩
  refine ⟨⟨(i 0).val / 3200, ht⟩, flush0_6 _, ?_⟩
  rw [mem_blk]
  intro a
  match a with
  | ⟨0, _⟩ =>
    show win0_6.index ⟨(i 0).val / 3200, ht⟩ (0 : Fin 2) * 3200 ≤ (i 0).val
      ∧ (i 0).val < win0_6.index ⟨(i 0).val / 3200, ht⟩ (0 : Fin 2) * 3200 + 3200
    rw [e0]
    show (i 0).val / 3200 * 3200 ≤ (i 0).val ∧ (i 0).val < (i 0).val / 3200 * 3200 + 3200
    omega
  | ⟨1, _⟩ =>
    show win0_6.index ⟨(i 0).val / 3200, ht⟩ (1 : Fin 2) * 256 ≤ (i 1).val
      ∧ (i 1).val < win0_6.index ⟨(i 0).val / 3200, ht⟩ (1 : Fin 2) * 256 + 256
    rw [e1]
    omega

/-- The output array after the region, whole. -/
theorem arr0_eq (c : Dev nD) :
    (dat0 V c).arrAt 6 cfg0.N
      = msgArr (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 V c).arrAt_eq_of_cover 6 _ (fun t _ => flushed_eq V c t) covered

/-- The output array after the region at row e, column j: the edge perceptron of row e of the gathered target rows
    beside row e of the edge features, with the two weight matrices and biases as the region finds them. -/
theorem arr0 (c : Dev nD)
    (X0 X1 : S400000x128.Idx → EReal) (X2 : S256x256.Idx → EReal) (X3 : S1x256.Idx → EReal)
    (X4 : S256x256.Idx → EReal) (X5 : S1x256.Idx → EReal)
    (h0 : (V c (Pipeline.arrRef spec0 0) : S400000x128.Idx → EReal) = X0)
    (h1 : (V c (Pipeline.arrRef spec0 1) : S400000x128.Idx → EReal) = X1)
    (h2 : (V c (Pipeline.arrRef spec0 2) : S256x256.Idx → EReal) = X2)
    (h3 : (V c (Pipeline.arrRef spec0 3) : S1x256.Idx → EReal) = X3)
    (h4 : (V c (Pipeline.arrRef spec0 4) : S256x256.Idx → EReal) = X4)
    (h5 : (V c (Pipeline.arrRef spec0 5) : S1x256.Idx → EReal) = X5)
    (e : Fin 400000) (j : Fin 256) :
    ((dat0 (F := Ideal) V c).arrAt 6 cfg0.N : S400000x256.Idx → EReal) (ix2 e j)
      = Cert.RowSpec.msgRow (fun k : Fin 128 => X0 (ix2 e k)) (fun k : Fin 128 => X1 (ix2 e k))
          (fun (jo : Fin 256) (k : Fin 256) => X2 (ix2 k jo)) (fun jo : Fin 256 => X3 (ix2 0 jo))
          (fun (jo : Fin 256) (k : Fin 256) => X4 (ix2 k jo)) (fun jo : Fin 256 => X5 (ix2 0 jo)) j := by
  subst h0 h1 h2 h3 h4 h5
  rw [arr0_eq V c]
  rfl

end Cert.KernelIdeal.Reg0

end
-- ==== Proof.KMsgHost.lean ====
import proofs.«155120_j26276609917535_2_alg».proof.Proof.Gen.KernelIdeal.Launch
import proofs.«155120_j26276609917535_2_alg».proof.Proof.KSpec
import Idealize.ShloMosaic.Lib.StableHlo.Run

/-!
# What the edge region's input arrays hold when it is entered

The first stretch of host operations, from any contents at its start: the gathered target rows, the two weight
matrices transposed and rounded, the two biases as one-row arrays; the edge features are not written.
-/

set_option maxRecDepth 16384

noncomputable section

namespace Cert.KMsg

open Idealize.ShloMosaic Idealize.ShloMosaic.StableHlo
open Cert.KernelIdeal Cert.KernelIdeal.Gen

variable {F : FTy → Type} [FloatOps F] (W : Valuation τ sig (Elt F))

theorem h0_v10 : (after hostOps0 W (Proc.devRef .tc main_v10) : FVec F S400000x128 .f32)
    = Cert.KSpec.xdst (W (Proc.devRef .tc main_arg1)) (W (Proc.devRef .tc main_arg14)) := by
  unfold hostOps0; after_results; rfl
theorem h0_v12 : (after hostOps0 W (Proc.devRef .tc main_v12) : FVec F S256x256 .bf16)
    = Cert.KSpec.wT256 (W (Proc.devRef .tc main_arg4)) := by
  unfold hostOps0; after_results; rfl
theorem h0_v14 : (after hostOps0 W (Proc.devRef .tc main_v14) : FVec F S256x256 .bf16)
    = Cert.KSpec.wT256 (W (Proc.devRef .tc main_arg6)) := by
  unfold hostOps0; after_results; rfl
theorem h0_v15 : (after hostOps0 W (Proc.devRef .tc main_v15) : FVec F S1x256 .f32)
    = Cert.KSpec.row256 (W (Proc.devRef .tc main_arg5)) := by
  unfold hostOps0; after_results; rfl
theorem h0_v16 : (after hostOps0 W (Proc.devRef .tc main_v16) : FVec F S1x256 .f32)
    = Cert.KSpec.row256 (W (Proc.devRef .tc main_arg7)) := by
  unfold hostOps0; after_results; rfl

/-- The edge features are not written by the first stretch. -/
theorem arg2_kept : after hostOps0 W (Proc.devRef .tc main_arg2) = W (Proc.devRef .tc main_arg2) :=
  after_of_forall_not_mem (b := Proc.devRef .tc main_arg2) _ _ (List.forall_iff_forall_mem.mp (by
    simp only [hostOps0, List.flatten_cons, List.flatten_nil, List.append_nil, List.cons_append,
      List.nil_append, List.Forall, nullary_writes, unary_writes, binary_writes,
      ternary_writes, quaternary_writes, reshape_writes, binaryIndexed_writes,
      Finset.mem_singleton]
    repeat' apply And.intro
    all_goals exact devRef_ne_of_ne (by decide)))

end Cert.KMsg

end
-- ==== Proof.HostMlp.lean ====
import proofs.«155120_j26276609917535_2_alg».proof.Proof.LibPlainDot
import proofs.«155120_j26276609917535_2_alg».proof.Proof.LibLay
import proofs.«155120_j26276609917535_2_alg».proof.Proof.RowSpec

/-!
# A two-layer perceptron written with whole-array host operations, read at an entry

The host program computes a perceptron layer as a matrix product with the transposed weight matrix plus the bias
repeated down the rows, and the leaky rectifier as a selection between the array and its multiple. Read at entry
(p, j) this is the row function `RowSpec.mlp` of row p of the input: each product entry is a finite sum over the
contracted axis, the transposition swaps the weight's coordinates, the repeated bias reads its j-th number.
-/

noncomputable section

namespace Cert.HostMlp

open Idealize.ShloMosaic Idealize.ShloMosaic.ValueIdx
open scoped BigOperators

/-- The host's plain matrix product at entry (p, q): the sum over k of left (p, k) times right (k, q). -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply,
    ← Equiv.sum_comp (contrEquiv1 (DotDims.plain M K N) K (Cert.PlainDot.contr_rank M K N) (Cert.PlainDot.contr_size M K N)).symm]
  exact Finset.sum_congr rfl fun k _ => by rw [Cert.PlainDot.lhsIdx_eq, Cert.PlainDot.rhsIdx_eq]

/-- The leaky rectifier written as a selection, at an entry. -/
theorem leaky_apply {s : Shape} (hb : (⟨0, ![]⟩ : Shape).BroadcastsInDim s (![] : Fin 0 → Fin s.rank)) (slope : BitVec 32)
    (g : FVec Ideal s .f32) (i : s.Idx) :
    select (cmpf .oge g (broadcastInDim s ![] hb (constant (F := Ideal) ⟨0, ![]⟩ .f32 0x00000000#32))) g
        (mulf (broadcastInDim s ![] hb (id (constant (F := Ideal) ⟨0, ![]⟩ .f32 slope))) g) i
      = Cert.RowSpec.leaky (Cert.RowSpec.w32 slope) (g i) := rfl

variable (M K H N : Nat)

/-- One affine layer at entry (p, j). -/
theorem lin_apply
    (hrow : (⟨2, ![1, H]⟩ : Shape).BroadcastsInDim ⟨2, ![M, H]⟩ (![0, 1] : Fin 2 → Fin 2))
    (hvec : (⟨1, ![H]⟩ : Shape).BroadcastsInDim ⟨2, ![1, H]⟩ (![1] : Fin 1 → Fin 2))
    (ht : (⟨2, ![H, K]⟩ : Shape).Transposes [1, 0] ⟨2, ![K, H]⟩)
    (x : FVec Ideal ⟨2, ![M, K]⟩ .f32) (W : FVec Ideal ⟨2, ![H, K]⟩ .f32) (b : FVec Ideal ⟨1, ![H]⟩ .f32)
    (p : Fin M) (j : Fin H) :
    addf (Host.dotGeneral (DotDims.plain M K H) none x (transpose ⟨2, ![K, H]⟩ [1, 0] W ht))
        (broadcastInDim ⟨2, ![M, H]⟩ ![0, 1] hrow (broadcastInDim ⟨2, ![1, H]⟩ ![1] hvec b)) (ix2 p j)
      = Cert.RowSpec.lin (fun k => x (ix2 p k)) (fun jo k => W (ix2 jo k)) (fun jo => b (ix1 jo)) j := by
  rw [addf_apply, dotGeneral_plain_apply, Cert.Lay.rowRep_apply, Cert.Lay.vecRow_apply]
  unfold Cert.RowSpec.lin
  refine congrArg (· + b (ix1 j)) (Finset.sum_congr rfl fun k _ => ?_)
  rw [transpose_ix2_apply]

/-- The two-layer perceptron at entry (p, j). -/
theorem mlp_apply
    (hs : (⟨0, ![]⟩ : Shape).BroadcastsInDim ⟨2, ![M, H]⟩ (![] : Fin 0 → Fin 2))
    (hrowH : (⟨2, ![1, H]⟩ : Shape).BroadcastsInDim ⟨2, ![M, H]⟩ (![0, 1] : Fin 2 → Fin 2))
    (hvecH : (⟨1, ![H]⟩ : Shape).BroadcastsInDim ⟨2, ![1, H]⟩ (![1] : Fin 1 → Fin 2))
    (htA : (⟨2, ![H, K]⟩ : Shape).Transposes [1, 0] ⟨2, ![K, H]⟩)
    (hrowN : (⟨2, ![1, N]⟩ : Shape).BroadcastsInDim ⟨2, ![M, N]⟩ (![0, 1] : Fin 2 → Fin 2))
    (hvecN : (⟨1, ![N]⟩ : Shape).BroadcastsInDim ⟨2, ![1, N]⟩ (![1] : Fin 1 → Fin 2))
    (htB : (⟨2, ![N, H]⟩ : Shape).Transposes [1, 0] ⟨2, ![H, N]⟩)
    (x : FVec Ideal ⟨2, ![M, K]⟩ .f32) (Wa : FVec Ideal ⟨2, ![H, K]⟩ .f32) (ba : FVec Ideal ⟨1, ![H]⟩ .f32)
    (Wb : FVec Ideal ⟨2, ![N, H]⟩ .f32) (bb : FVec Ideal ⟨1, ![N]⟩ .f32) (p : Fin M) (j : Fin N) :
    addf (Host.dotGeneral (DotDims.plain M H N) none
          (select
            (cmpf .oge
              (addf (Host.dotGeneral (DotDims.plain M K H) none x (transpose ⟨2, ![K, H]⟩ [1, 0] Wa htA))
                (broadcastInDim ⟨2, ![M, H]⟩ ![0, 1] hrowH (broadcastInDim ⟨2, ![1, H]⟩ ![1] hvecH ba)))
              (broadcastInDim ⟨2, ![M, H]⟩ ![] hs (constant (F := Ideal) ⟨0, ![]⟩ .f32 0x00000000#32)))
            (addf (Host.dotGeneral (DotDims.plain M K H) none x (transpose ⟨2, ![K, H]⟩ [1, 0] Wa htA))
              (broadcastInDim ⟨2, ![M, H]⟩ ![0, 1] hrowH (broadcastInDim ⟨2, ![1, H]⟩ ![1] hvecH ba)))
            (mulf (broadcastInDim ⟨2, ![M, H]⟩ ![] hs (id (constant (F := Ideal) ⟨0, ![]⟩ .f32 0x3DCCCCCD#32)))
              (addf (Host.dotGeneral (DotDims.plain M K H) none x (transpose ⟨2, ![K, H]⟩ [1, 0] Wa htA))
                (broadcastInDim ⟨2, ![M, H]⟩ ![0, 1] hrowH (broadcastInDim ⟨2, ![1, H]⟩ ![1] hvecH ba)))))
          (transpose ⟨2, ![H, N]⟩ [1, 0] Wb htB))
        (broadcastInDim ⟨2, ![M, N]⟩ ![0, 1] hrowN (broadcastInDim ⟨2, ![1, N]⟩ ![1] hvecN bb)) (ix2 p j)
      = Cert.RowSpec.mlp (fun k => x (ix2 p k)) (fun jo k => Wa (ix2 jo k)) (fun jo => ba (ix1 jo))
          (fun jo k => Wb (ix2 jo k)) (fun jo => bb (ix1 jo)) j := by
  rw [lin_apply M H N hrowN hvecN htB]
  unfold Cert.RowSpec.mlp
  refine congrArg (fun f => Cert.RowSpec.lin f (fun jo k => Wb (ix2 jo k)) (fun jo => bb (ix1 jo)) j) (funext fun k => ?_)
  rw [leaky_apply, lin_apply M K H hrowH hvecH htA]

end Cert.HostMlp

end
-- ==== Proof.RefIdx.lean ====
import proofs.«155120_j26276609917535_2_alg».proof.Proof.Spec
import proofs.«155120_j26276609917535_2_alg».proof.Proof.HostMlp

/-!
# The reference's stages read one entry at a time

Entry (e, j) of the message array is the edge perceptron's row function of row e of the gathered target
features and of the edge features; entry (s, k) of the node feature array is the k-th of the 1280 features of
node s; entry (s, j) of the node perceptron's output is the perceptron's row function of that feature row.
The only arithmetic law used is the associativity of the product, for the fourth power of the standard
deviation, which the reference multiplies as (s·s)·(s·s) and the row function as ((s·s)·s)·s.
-/

noncomputable section

namespace Cert.RefIdx

open Idealize.ShloMosaic Idealize.ShloMosaic.ValueIdx Cert.ReferenceIdeal
open scoped BigOperators

variable [Facts]
open Facts₀ Facts

/-- Two 128-column arrays side by side, read along row e. -/
theorem cat_row (a b : Cert.Spec.FA Ideal S400000x128) (e : Fin 400000) :
    (fun k : Fin 256 => concatenate S400000x256 1 [⟨S400000x128, a⟩, ⟨S400000x128, b⟩]
        concatenates_S400000x128_S400000x128_S400000x256_d1 (ix2 e k))
      = Cert.RowSpec.cat2 (fun k : Fin 128 => a (ix2 e k)) (fun k : Fin 128 => b (ix2 e k)) := by
  funext k
  unfold Cert.RowSpec.cat2
  by_cases h : k.val < 128
  · rw [dif_pos h]
    refine concatenate_pair_apply_left (t := S400000x256) (1 : Fin 2) a b _ _ rfl (ix2 e ⟨k.val, h⟩) fun c => ?_
    match c with
    | ⟨0, _⟩ => rfl
    | ⟨1, _⟩ => rfl
  · rw [dif_neg h]
    refine concatenate_pair_apply_right (t := S400000x256) (1 : Fin 2) a b _ _ rfl rfl
      (ix2 e ⟨k.val - 128, by have := k.isLt; omega⟩) (fun c hc => ?_) ?_
    · match c with
      | ⟨0, _⟩ => rfl
      | ⟨1, _⟩ => exact absurd rfl hc
    · show k.val - 128 + 128 = k.val
      omega

/-- The message array at entry (e, j). -/
theorem msg_apply (xtt ea : Cert.Spec.FA Ideal S400000x128) (W1a : Cert.Spec.FA Ideal S256x256) (b1a : Cert.Spec.FA Ideal S256)
    (W1b : Cert.Spec.FA Ideal S256x256) (b1b : Cert.Spec.FA Ideal S256) (e : Fin 400000) (j : Fin 256) :
    Cert.Spec.msg (F := Ideal) xtt ea W1a b1a W1b b1b (ix2 e j)
      = Cert.RowSpec.msgRow (fun k => xtt (ix2 e k)) (fun k => ea (ix2 e k)) (fun jo k => W1a (ix2 jo k)) (fun jo => b1a (ix1 jo))
          (fun jo k => W1b (ix2 jo k)) (fun jo => b1b (ix1 jo)) j := by
  unfold Cert.Spec.msg Cert.RowSpec.msgRow
  rw [← cat_row xtt ea e]
  exact Cert.HostMlp.mlp_apply 400000 256 256 256 bcast_S_S400000x256 bcast_S1x256_S400000x256_0_1 bcast_S256_S1x256_1
    transposes_S256x256_S256x256_1_0 bcast_S1x256_S400000x256_0_1 bcast_S256_S1x256_1 transposes_S256x256_S256x256_1_0
    (concatenate S400000x256 1 [⟨S400000x128, xtt⟩, ⟨S400000x128, ea⟩] concatenates_S400000x128_S400000x128_S400000x256_d1)
    W1a b1a W1b b1b e j

/-- The node perceptron at entry (s, j). -/
theorem nodeMlp_apply (h : Cert.Spec.FA Ideal S50000x1280) (W2a : Cert.Spec.FA Ideal S1280x1280) (b2a : Cert.Spec.FA Ideal S1280)
    (W2b : Cert.Spec.FA Ideal S128x1280) (b2b : Cert.Spec.FA Ideal S128) (s : Fin 50000) (j : Fin 128) :
    Cert.Spec.nodeMlp (F := Ideal) h W2a b2a W2b b2b (ix2 s j)
      = Cert.RowSpec.mlp (fun k => h (ix2 s k)) (fun jo k => W2a (ix2 jo k)) (fun jo => b2a (ix1 jo))
          (fun jo k => W2b (ix2 jo k)) (fun jo => b2b (ix1 jo)) j := by
  unfold Cert.Spec.nodeMlp
  exact Cert.HostMlp.mlp_apply 50000 1280 1280 128 bcast_S_S50000x1280 bcast_S1x1280_S50000x1280_0_1 bcast_S1280_S1x1280_1
    transposes_S1280x1280_S1280x1280_1_0 bcast_S1x128_S50000x128_0_1 bcast_S128_S1x128_1 transposes_S128x1280_S1280x128_1_0
    h W2a b2a W2b b2b s j

end Cert.RefIdx

end
-- ==== Proof.KMsg.lean ====
import proofs.«155120_j26276609917535_2_alg».proof.Proof.Gen.KernelIdeal.Frame
import proofs.«155120_j26276609917535_2_alg».proof.Proof.Gen.ReferenceIdeal
import proofs.«155120_j26276609917535_2_alg».proof.Proof.Reg0Arr
import proofs.«155120_j26276609917535_2_alg».proof.Proof.KMsgHost
import proofs.«155120_j26276609917535_2_alg».proof.Proof.RefIdx
import Idealize.ShloMosaic.Lib.ValueLayout

/-!
# The edge region leaves the reference's message array

On the extended reals, the array the edge region writes is, entry by entry, the edge perceptron of the gathered
target rows and the edge features, with the first stretch's transposed weights and one-row biases. The
reference's message array is the same perceptron with the weights read transposed and the biases read as
vectors. The gathered target rows are one term in both programs, a transposed weight read at (k, j) is the weight
at (j, k), and a vector cast to one row read at (0, j) is the vector at j.
-/

set_option maxRecDepth 16384

noncomputable section

namespace Cert.KMsg

open Idealize.ShloMosaic Idealize.ShloMosaic.TcCoe Idealize.ShloMosaic.ValueIdx
open Idealize.SL.Sem
open Cert.KernelIdeal Cert.KernelIdeal.Gen

/-- The gathered target rows are the same term in the two programs. -/
theorem xdst_eq (x : FVec Ideal S50000x128 .f32) (ei : IVec S2x400000 32) :
    Cert.KSpec.xdst (F := Ideal) x ei = Cert.Spec.xtTgt (F := Ideal) x ei := rfl

/-- A transposed weight rounded to bf16, read at (k, j), is the weight at (j, k). -/
theorem wT256_apply (w : FVec Ideal S256x256 .f32) :
    (fun (jo : Fin 256) (k : Fin 256) => Cert.KSpec.wT256 (F := Ideal) w (ix2 k jo))
      = fun (jo : Fin 256) (k : Fin 256) => w (ix2 jo k) :=
  funext fun jo => funext fun k =>
    transpose_ix2_apply (a := 256) (b := 256) w transposes_S256x256_S256x256_1_0 k jo

/-- A vector cast to one row, read at (0, j), is the vector at j. -/
theorem row256_apply (b : FVec Ideal S256 .f32) :
    (fun jo : Fin 256 => Cert.KSpec.row256 (F := Ideal) b (ix2 0 jo)) = fun jo : Fin 256 => b (ix1 jo) :=
  funext fun jo => shapeCast_a_1a_apply (a := 256) b shapeCasts_S256_S1x256 0 jo

/-- The row function at equal arguments. -/
theorem msgRow_congr {xt xt' ea ea' : Fin 128 → EReal} {Wa Wa' Wb Wb' : Fin 256 → Fin 256 → EReal}
    {ba ba' bb bb' : Fin 256 → EReal}
    (h1 : xt = xt') (h2 : ea = ea') (h3 : Wa = Wa') (h4 : ba = ba') (h5 : Wb = Wb') (h6 : bb = bb') (j : Fin 256) :
    Cert.RowSpec.msgRow xt ea Wa ba Wb bb j = Cert.RowSpec.msgRow xt' ea' Wa' ba' Wb' bb' j := by
  subst h1 h2 h3 h4 h5 h6; rfl

variable (m : (ℓ : Loc nD τ sig) → Buf (Elt Ideal) ℓ) (ρ : Dev nD → PrngReg) (c : Dev nD)

/-- The array the edge region leaves is the reference's message array of the launch arguments. -/
theorem msg_eq :
    (W2 m ρ c (Proc.devRef .tc main_v17) : S400000x256.Idx → EReal)
      = Cert.Spec.msg (F := Ideal)
          (Cert.Spec.xtTgt (F := Ideal) (m ((c : Thread nD τ).loc main_arg1)) (m ((c : Thread nD τ).loc main_arg14)))
          (m ((c : Thread nD τ).loc main_arg2)) (m ((c : Thread nD τ).loc main_arg4)) (m ((c : Thread nD τ).loc main_arg5))
          (m ((c : Thread nD τ).loc main_arg6)) (m ((c : Thread nD τ).loc main_arg7)) := by
  funext i
  obtain ⟨e, j, rfl⟩ : ∃ (e : Fin 400000) (j : Fin 256), i = ix2 e j := ⟨i 0, i 1, eq_ix2 i⟩
  rw [Cert.RefIdx.msg_apply]
  refine (congrFun (W2_arr m ρ c 6) (ix2 e j)).trans ?_
  refine (Cert.KernelIdeal.Reg0.arr0 (V1 m ρ) c _ _ _ _ _ _
    (h0_v10 (F := Ideal) (W0 m ρ c)) (arg2_kept (F := Ideal) (W0 m ρ c))
    (h0_v12 (F := Ideal) (W0 m ρ c)) (h0_v15 (F := Ideal) (W0 m ρ c))
    (h0_v14 (F := Ideal) (W0 m ρ c)) (h0_v16 (F := Ideal) (W0 m ρ c)) e j).trans ?_
  exact msgRow_congr
    (funext fun k => congrFun (xdst_eq (m ((c : Thread nD τ).loc main_arg1)) (m ((c : Thread nD τ).loc main_arg14))) (ix2 e k))
    rfl
    (wT256_apply (m ((c : Thread nD τ).loc main_arg4))) (row256_apply (m ((c : Thread nD τ).loc main_arg5)))
    (wT256_apply (m ((c : Thread nD τ).loc main_arg6))) (row256_apply (m ((c : Thread nD τ).loc main_arg7))) j

end Cert.KMsg

end
-- ==== Proof.RefFeat.lean ====
import proofs.«155120_j26276609917535_2_alg».proof.Proof.Spec
import proofs.«155120_j26276609917535_2_alg».proof.Proof.RowSpec
import proofs.«155120_j26276609917535_2_alg».proof.Proof.LibLay
import Idealize.ShloMosaic.Lib.ValueIdx
import Idealize.ShloMosaic.Lib.Pipeline.Value

/-!
# The node features of the reference, one entry at a time

The reference lays six arrays side by side: the node's own features, the clamped mean, the standard deviation of
the clamped variance, the clamped skewness, the clamped kurtosis and the global features repeated down the rows.
Column k of row s falls in exactly one of them, and there it is the corresponding scalar function of row s of the
statistics. The fourth power of the standard deviation is multiplied as (t·t)·(t·t) by the reference and as
((t·t)·t)·t by the row function: equal by the associativity of the product of extended reals.
-/

noncomputable section

namespace Cert.RefFeat

open Idealize.ShloMosaic Idealize.ShloMosaic.ValueIdx Cert.ReferenceIdeal

variable [Facts]
open Facts₀ Facts

theorem clampN_apply (x : Cert.Spec.FA Ideal S50000x256) (i : S50000x256.Idx) :
    Cert.Spec.clampN (F := Ideal) x i = Cert.RowSpec.clampInf (x i) := rfl

theorem stdN_apply (x : Cert.Spec.FA Ideal S50000x256) (i : S50000x256.Idx) :
    Cert.Spec.stdN (F := Ideal) x i = Cert.RowSpec.stdOf (x i) := rfl

theorem var_apply (mean m2 : Cert.Spec.FA Ideal S50000x256) (i : S50000x256.Idx) :
    Cert.Spec.leakyN (F := Ideal) 0x3C23D70A#32 (subf (F := Ideal) (s := S50000x256) (φ := .f32) m2 (mulf (F := Ideal) (s := S50000x256) (φ := .f32) mean mean)) i = Cert.RowSpec.varOf (mean i) (m2 i) := rfl

/-- The node feature array at entry (s, k). -/
theorem nodeFeat_apply (xs : Cert.Spec.FA Ideal S50000x128) (mean m2 m3 m4 : Cert.Spec.FA Ideal S50000x256)
    (u : Cert.Spec.FA Ideal S1x128) (s : Fin 50000) (k : Fin 1280) :
    Cert.Spec.nodeFeat (F := Ideal) xs mean m2 m3 m4 u (ix2 s k)
      = Cert.RowSpec.nodeFeat (fun k => xs (ix2 s k)) (fun q => mean (ix2 s q)) (fun q => m2 (ix2 s q))
          (fun q => m3 (ix2 s q)) (fun q => m4 (ix2 s q)) (fun k => u (ix2 (0 : Fin 1) k)) k := by
  unfold Cert.Spec.nodeFeat Cert.RowSpec.nodeFeat
  have hk := k.isLt
  by_cases h0 : k.val < 128
  · rw [dif_pos h0]
    refine concatenate_apply_piece (t := S50000x1280) (1 : Fin 2) _ _ (ix2 s k) 0 (by simp) S50000x128 xs rfl rfl 0 (by rfl)
      (ix2 s ⟨k.val, h0⟩) (fun b hb => ?_) (by show 0 + k.val = k.val; omega)
    match b with
    | ⟨0, _⟩ => rfl
    | ⟨1, _⟩ => exact absurd rfl hb
  rw [dif_neg h0]
  by_cases h1 : k.val < 384
  · rw [dif_pos h1]
    refine (concatenate_apply_piece (t := S50000x1280) (1 : Fin 2) _ _ (ix2 s k) 1 (by simp) S50000x256 _ rfl rfl 128 (by rfl)
      (ix2 s ⟨k.val - 128, by omega⟩) (fun b hb => ?_) (by show 128 + (k.val - 128) = k.val; omega)).trans ?_
    · match b with
      | ⟨0, _⟩ => rfl
      | ⟨1, _⟩ => exact absurd rfl hb
    · rfl
  rw [dif_neg h1]
  by_cases h2 : k.val < 640
  · rw [dif_pos h2]
    refine (concatenate_apply_piece (t := S50000x1280) (1 : Fin 2) _ _ (ix2 s k) 2 (by simp) S50000x256 _ rfl rfl 384 (by rfl)
      (ix2 s ⟨k.val - 384, by omega⟩) (fun b hb => ?_) (by show 384 + (k.val - 384) = k.val; omega)).trans ?_
    · match b with
      | ⟨0, _⟩ => rfl
      | ⟨1, _⟩ => exact absurd rfl hb
    · rfl
  rw [dif_neg h2]
  by_cases h3 : k.val < 896
  · rw [dif_pos h3]
    refine (concatenate_apply_piece (t := S50000x1280) (1 : Fin 2) _ _ (ix2 s k) 3 (by simp) S50000x256 _ rfl rfl 640 (by rfl)
      (ix2 s ⟨k.val - 640, by omega⟩) (fun b hb => ?_) (by show 640 + (k.val - 640) = k.val; omega)).trans ?_
    · match b with
      | ⟨0, _⟩ => rfl
      | ⟨1, _⟩ => exact absurd rfl hb
    · rfl
  rw [dif_neg h3]
  by_cases h4 : k.val < 1152
  · rw [dif_pos h4]
    refine (concatenate_apply_piece (t := S50000x1280) (1 : Fin 2) _ _ (ix2 s k) 4 (by simp) S50000x256 _ rfl rfl 896 (by rfl)
      (ix2 s ⟨k.val - 896, by omega⟩) (fun b hb => ?_) (by show 896 + (k.val - 896) = k.val; omega)).trans ?_
    · match b with
      | ⟨0, _⟩ => rfl
      | ⟨1, _⟩ => exact absurd rfl hb
    · show Cert.RowSpec.clampInf (Ideal.div (m4 (ix2 s ⟨k.val - 896, _⟩)) _) = Cert.RowSpec.clampInf (Ideal.div (m4 (ix2 s ⟨k.val - 896, _⟩)) _)
      refine congrArg (fun d => Cert.RowSpec.clampInf (Ideal.div (m4 (ix2 s ⟨k.val - 896, by omega⟩)) d)) ?_
      exact (mul_assoc _ _ _).symm
  rw [dif_neg h4]
  refine (concatenate_apply_piece (t := S50000x1280) (1 : Fin 2) _ _ (ix2 s k) 5 (by simp) S50000x128 _ rfl rfl 1152 (by rfl)
    (ix2 s ⟨k.val - 1152, by omega⟩) (fun b hb => ?_) (by show 1152 + (k.val - 1152) = k.val; omega)).trans ?_
  · match b with
    | ⟨0, _⟩ => rfl
    | ⟨1, _⟩ => exact absurd rfl hb
  · exact Cert.Lay.rowRep_apply bcast_S1x128_S50000x128_0_1 u s ⟨k.val - 1152, by omega⟩

end Cert.RefFeat

end
-- ==== Proof.RefNode.lean ====
import proofs.«155120_j26276609917535_2_alg».proof.Proof.RefIdx
import proofs.«155120_j26276609917535_2_alg».proof.Proof.RefFeat

/-!
# The reference's node output at an entry

Entry (s, j) of the node perceptron applied to the node feature array is the node row function of row s of the
node's own features and of its four statistics, and of the global features.
-/

noncomputable section

namespace Cert.RefNode

open Idealize.ShloMosaic Idealize.ShloMosaic.ValueIdx Cert.ReferenceIdeal

variable [Facts]
open Facts₀ Facts

theorem node_apply (xs : Cert.Spec.FA Ideal S50000x128) (mean m2 m3 m4 : Cert.Spec.FA Ideal S50000x256)
    (u : Cert.Spec.FA Ideal S1x128) (W2a : Cert.Spec.FA Ideal S1280x1280) (b2a : Cert.Spec.FA Ideal S1280)
    (W2b : Cert.Spec.FA Ideal S128x1280) (b2b : Cert.Spec.FA Ideal S128) (s : Fin 50000) (j : Fin 128) :
    Cert.Spec.nodeMlp (F := Ideal) (Cert.Spec.nodeFeat (F := Ideal) xs mean m2 m3 m4 u) W2a b2a W2b b2b (ix2 s j)
      = Cert.RowSpec.nodeRow (fun k => xs (ix2 s k)) (fun q => mean (ix2 s q)) (fun q => m2 (ix2 s q))
          (fun q => m3 (ix2 s q)) (fun q => m4 (ix2 s q)) (fun k => u (ix2 (0 : Fin 1) k))
          (fun jo k => W2a (ix2 jo k)) (fun jo => b2a (ix1 jo)) (fun jo k => W2b (ix2 jo k)) (fun jo => b2b (ix1 jo)) j := by
  rw [Cert.RefIdx.nodeMlp_apply]
  unfold Cert.RowSpec.nodeRow
  refine congrArg (fun f => Cert.RowSpec.mlp f (fun jo k => W2a (ix2 jo k)) (fun jo => b2a (ix1 jo))
    (fun jo k => W2b (ix2 jo k)) (fun jo => b2b (ix1 jo)) j) (funext fun k => ?_)
  exact Cert.RefFeat.nodeFeat_apply xs mean m2 m3 m4 u s k

end Cert.RefNode

end
-- ==== Proof.KNode.lean ====
import proofs.«155120_j26276609917535_2_alg».proof.Proof.Gen.KernelIdeal.Frame
import proofs.«155120_j26276609917535_2_alg».proof.Proof.Gen.ReferenceIdeal
import proofs.«155120_j26276609917535_2_alg».proof.Proof.KHost
import proofs.«155120_j26276609917535_2_alg».proof.Proof.KHostB
import proofs.«155120_j26276609917535_2_alg».proof.Proof.KKeep
import proofs.«155120_j26276609917535_2_alg».proof.Proof.Mid
import proofs.«155120_j26276609917535_2_alg».proof.Proof.Reg1Arr
import proofs.«155120_j26276609917535_2_alg».proof.Proof.KMsg
import proofs.«155120_j26276609917535_2_alg».proof.Proof.RefNode

/-!
# What the kernel program returns, as the reference's function of the launch arguments

The edge region leaves the reference's message array (KMsg). Between the regions the host computes, from that array
and the source indices, each node's mean message, the sums of squares, of cubed and of fourth-power deviations and
the clamped edge count; the node region divides the three sums by the count and applies the node perceptron to the
statistics, row by row; the last host stretch is the batch normalisation. Entry by entry the node region's output is
the node row function of the same statistics the reference computes (Mid: one scatter-add of two arrays side by side
against two scatter-adds), so the two programs' results are the same function of the arguments.
-/

set_option maxRecDepth 16384

noncomputable section

namespace Cert.KNode

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- The launch contents of the arguments, read as arrays. -/
abbrev a0 : S50000x128.Idx → EReal := m ((c : Thread nD τ).loc main_arg0)
abbrev a1 : S50000x128.Idx → EReal := m ((c : Thread nD τ).loc main_arg1)
abbrev a2 : S400000x128.Idx → EReal := m ((c : Thread nD τ).loc main_arg2)
abbrev a3 : S1x128.Idx → EReal := m ((c : Thread nD τ).loc main_arg3)
abbrev a4 : S256x256.Idx → EReal := m ((c : Thread nD τ).loc main_arg4)
abbrev a5 : S256.Idx → EReal := m ((c : Thread nD τ).loc main_arg5)
abbrev a6 : S256x256.Idx → EReal := m ((c : Thread nD τ).loc main_arg6)
abbrev a7 : S256.Idx → EReal := m ((c : Thread nD τ).loc main_arg7)
abbrev a8 : S1280x1280.Idx → EReal := m ((c : Thread nD τ).loc main_arg8)
abbrev a9 : S1280.Idx → EReal := m ((c : Thread nD τ).loc main_arg9)
abbrev a10 : S128x1280.Idx → EReal := m ((c : Thread nD τ).loc main_arg10)
abbrev a11 : S128.Idx → EReal := m ((c : Thread nD τ).loc main_arg11)
abbrev a12 : S128.Idx → EReal := m ((c : Thread nD τ).loc main_arg12)
abbrev a13 : S128.Idx → EReal := m ((c : Thread nD τ).loc main_arg13)
abbrev a14 : S2x400000.Idx → BitVec 32 := m ((c : Thread nD τ).loc main_arg14)

/-- The reference's intermediate arrays of those arguments. -/
def msgR : S400000x256.Idx → EReal :=
  Cert.Spec.msg (F := Ideal) (Cert.Spec.xtTgt (F := Ideal) (a1 m c) (a14 m c)) (a2 m c) (a4 m c) (a5 m c) (a6 m c) (a7 m c)
def meanR : S50000x256.Idx → EReal := Cert.Spec.segMean (F := Ideal) (msgR m c) (a14 m c)
def devR : S400000x256.Idx → EReal := Cert.Spec.dev (F := Ideal) (msgR m c) (meanR m c) (a14 m c)
def m2R : S50000x256.Idx → EReal := Cert.Spec.segMean (F := Ideal) (mulf (F := Ideal) (s := S400000x256) (φ := .f32) (msgR m c) (msgR m c)) (a14 m c)
def m3R : S50000x256.Idx → EReal := Cert.Spec.segMean (F := Ideal) (Cert.Spec.cube (F := Ideal) (devR m c)) (a14 m c)
def m4R : S50000x256.Idx → EReal := Cert.Spec.segMean (F := Ideal) (Cert.Spec.quart (F := Ideal) (devR m c)) (a14 m c)

/-- The source index vector between the regions: the first stretch's, untouched by the edge region. -/
theorem src_eq : (W2 m ρ c (Proc.devRef .tc main_v1) : IVec S400000 32) = Cert.KSpec.src (a14 m c) :=
  (W2_of_ne m ρ c main_v1 (by decide)).trans (Cert.KernelIdeal.KHost.h0_v1 (W0 m ρ c))

theorem msg_eq : (W2 m ρ c (Proc.devRef .tc main_v17) : S400000x256.Idx → EReal) = msgR m c := Cert.KMsg.msg_eq m ρ c

/-- An argument array is still the launch array when the node region is entered. -/
theorem keep3 (b : Ref sig .tc) (hb : ∀ w, Pipeline.arrRef spec0 w ≠ b)
    (h1 : ∀ W : Valuation τ sig (Elt Ideal), after hostOps1 W (Proc.devRef .tc b) = W (Proc.devRef .tc b))
    (h0 : ∀ W : Valuation τ sig (Elt Ideal), after hostOps0 W (Proc.devRef .tc b) = W (Proc.devRef .tc b)) :
    W3 m ρ c (Proc.devRef .tc b) = m ((c : Thread nD τ).loc b) :=
  (h1 (W2 m ρ c)).trans ((W2_of_ne m ρ c b hb).trans (h0 (W0 m ρ c)))

/-- An argument array is still the launch array between the regions. -/
theorem keep2 (b : Ref sig .tc) (hb : ∀ w, Pipeline.arrRef spec0 w ≠ b)
    (h0 : ∀ W : Valuation τ sig (Elt Ideal), after hostOps0 W (Proc.devRef .tc b) = W (Proc.devRef .tc b)) :
    W2 m ρ c (Proc.devRef .tc b) = m ((c : Thread nD τ).loc b) :=
  (W2_of_ne m ρ c b hb).trans (h0 (W0 m ρ c))

/-! What each window of the node region stages. -/

theorem e0 : (W3 m ρ c (Proc.devRef .tc main_v33) : S50000x256.Idx → EReal) = meanR m c :=
  (Cert.KernelIdeal.KHost.h1_v33 (W2 m ρ c)).trans
    ((congrArg₂ (Cert.KSpec.mean (F := Ideal)) (msg_eq m ρ c) (src_eq m ρ c)).trans (Cert.Mid.mean_eq (msgR m c) (a14 m c)))
theorem e1 : (W3 m ρ c (Proc.devRef .tc main_v31) : S50000x256.Idx → EReal)
    = Cert.KSpec.sumsq (F := Ideal) (msgR m c) (Cert.KSpec.src (a14 m c)) :=
  (Cert.KernelIdeal.KHost.h1_v31 (W2 m ρ c)).trans (congrArg₂ (Cert.KSpec.sumsq (F := Ideal)) (msg_eq m ρ c) (src_eq m ρ c))
theorem e2 : (W3 m ρ c (Proc.devRef .tc main_v24) : S50000x1.Idx → EReal)
    = Cert.KSpec.denom (F := Ideal) (Cert.KSpec.src (a14 m c)) :=
  (Cert.KernelIdeal.KHost.h1_v24 (W2 m ρ c)).trans (congrArg (Cert.KSpec.denom (F := Ideal)) (src_eq m ρ c))
theorem e3 : (W3 m ρ c (Proc.devRef .tc main_v50) : S50000x256.Idx → EReal)
    = Cert.KSpec.sum3 (F := Ideal) (msgR m c) (Cert.KSpec.src (a14 m c)) :=
  (Cert.KernelIdeal.KHost.h1_v50 (W2 m ρ c)).trans (congrArg₂ (Cert.KSpec.sum3 (F := Ideal)) (msg_eq m ρ c) (src_eq m ρ c))
theorem e4 : (W3 m ρ c (Proc.devRef .tc main_v51) : S50000x256.Idx → EReal)
    = Cert.KSpec.sum4 (F := Ideal) (msgR m c) (Cert.KSpec.src (a14 m c)) :=
  (Cert.KernelIdeal.KHost.h1_v51 (W2 m ρ c)).trans (congrArg₂ (Cert.KSpec.sum4 (F := Ideal)) (msg_eq m ρ c) (src_eq m ρ c))
theorem e5 : (W3 m ρ c (Proc.devRef .tc main_arg0) : S50000x128.Idx → EReal) = a0 m c :=
  keep3 m ρ c main_arg0 (by decide) Cert.KernelIdeal.KHost.h1_arg0 Cert.KernelIdeal.KHost.h0_arg0
theorem e6 : (W3 m ρ c (Proc.devRef .tc main_arg3) : S1x128.Idx → EReal) = a3 m c :=
  keep3 m ρ c main_arg3 (by decide) Cert.KernelIdeal.KHost.h1_arg3 Cert.KernelIdeal.KHost.h0_arg3
theorem e7 : (W3 m ρ c (Proc.devRef .tc main_v53) : S1280x1280.Idx → EReal) = Cert.KSpec.wT1280 (F := Ideal) (a8 m c) :=
  (Cert.KernelIdeal.KHost.h1_v53 (W2 m ρ c)).trans
    (congrArg (Cert.KSpec.wT1280 (F := Ideal)) (keep2 m ρ c main_arg8 (by decide) Cert.KernelIdeal.KHost.h0_arg8))
theorem e8 : (W3 m ρ c (Proc.devRef .tc main_v56) : S1x1280.Idx → EReal) = Cert.KSpec.row1280 (F := Ideal) (a9 m c) :=
  (Cert.KernelIdeal.KHost.h1_v56 (W2 m ρ c)).trans
    (congrArg (Cert.KSpec.row1280 (F := Ideal)) (keep2 m ρ c main_arg9 (by decide) Cert.KernelIdeal.KHost.h0_arg9))
theorem e9 : (W3 m ρ c (Proc.devRef .tc main_v55) : S1280x128.Idx → EReal) = Cert.KSpec.wT1280x128 (F := Ideal) (a10 m c) :=
  (Cert.KernelIdeal.KHost.h1_v55 (W2 m ρ c)).trans
    (congrArg (Cert.KSpec.wT1280x128 (F := Ideal)) (keep2 m ρ c main_arg10 (by decide) Cert.KernelIdeal.KHost.h0_arg10))
theorem e10 : (W3 m ρ c (Proc.devRef .tc main_v57) : S1x128.Idx → EReal) = Cert.KSpec.row128 (F := Ideal) (a11 m c) :=
  (Cert.KernelIdeal.KHost.h1_v57 (W2 m ρ c)).trans
    (congrArg (Cert.KSpec.row128 (F := Ideal)) (keep2 m ρ c main_arg11 (by decide) Cert.KernelIdeal.KHost.h0_arg11))

/-- The node row function of equal rows. -/
theorem nodeRow_congr {xs xs' : Fin 128 → EReal} {mean mean' m2 m2' m3 m3' m4 m4' : Fin 256 → EReal} {u u' : Fin 128 → EReal}
    {Wa Wa' : Fin 1280 → Fin 1280 → EReal} {ba ba' : Fin 1280 → EReal} {Wb Wb' : Fin 128 → Fin 1280 → EReal}
    {bb bb' : Fin 128 → EReal} (j : Fin 128)
    (h0 : xs = xs') (h1 : mean = mean') (h2 : m2 = m2') (h3 : m3 = m3') (h4 : m4 = m4') (h5 : u = u')
    (h6 : Wa = Wa') (h7 : ba = ba') (h8 : Wb = Wb') (h9 : bb = bb') :
    Cert.RowSpec.nodeRow xs mean m2 m3 m4 u Wa ba Wb bb j = Cert.RowSpec.nodeRow xs' mean' m2' m3' m4' u' Wa' ba' Wb' bb' j := by
  subst h0 h1 h2 h3 h4 h5 h6 h7 h8 h9; rfl

/-- The node region's output array is the reference's node perceptron output, entry by entry. -/
theorem node_apply (s : Fin 50000) (j : Fin 128) :
    ((dat1 (F := Ideal) (V3 m ρ) c).arrAt 11 cfg1.N : S50000x128.Idx → EReal) (ix2 s j)
      = Cert.Spec.nodeMlp (F := Ideal)
          (Cert.Spec.nodeFeat (F := Ideal) (a0 m c) (meanR m c) (m2R m c) (m3R m c) (m4R m c) (a3 m c))
          (a8 m c) (a9 m c) (a10 m c) (a11 m c) (ix2 s j) := by
  refine (Cert.KernelIdeal.Reg1.arr1 (V3 m ρ) c s j).trans ?_
  refine Eq.trans ?_ (Cert.RefNode.node_apply (a0 m c) (meanR m c) (m2R m c) (m3R m c) (m4R m c) (a3 m c)
    (a8 m c) (a9 m c) (a10 m c) (a11 m c) s j).symm
  refine nodeRow_congr j ?_ ?_ ?_ ?_ ?_ ?_ ?_ ?_ ?_ ?_
  · exact funext fun k => congrFun (e5 m ρ c) (ix2 s k)
  · exact funext fun q => congrFun (e0 m ρ c) (ix2 s q)
  · exact funext fun q => (congrArg₂ Ideal.div (congrFun (e1 m ρ c) (ix2 s q)) (congrFun (e2 m ρ c) (ix2 s 0))).trans
      (Cert.Mid.m2_eq (msgR m c) (a14 m c) s q)
  · exact funext fun q => (congrArg₂ Ideal.div (congrFun (e3 m ρ c) (ix2 s q)) (congrFun (e2 m ρ c) (ix2 s 0))).trans
      (Cert.Mid.m3_eq (msgR m c) (a14 m c) s q)
  · exact funext fun q => (congrArg₂ Ideal.div (congrFun (e4 m ρ c) (ix2 s q)) (congrFun (e2 m ρ c) (ix2 s 0))).trans
      (Cert.Mid.m4_eq (msgR m c) (a14 m c) s q)
  · exact funext fun k => congrFun (e6 m ρ c) (ix2 0 k)
  · exact funext fun jo => funext fun k => (congrFun (e7 m ρ c) (ix2 k jo)).trans (Cert.Mid.wT1280_apply (a8 m c) k jo)
  · exact funext fun jo => (congrFun (e8 m ρ c) (ix2 0 jo)).trans (Cert.Mid.row1280_apply (a9 m c) 0 jo)
  · exact funext fun jo => funext fun k => (congrFun (e9 m ρ c) (ix2 k jo)).trans (Cert.Mid.wT1280x128_apply (a10 m c) k jo)
  · exact funext fun jo => (congrFun (e10 m ρ c) (ix2 0 jo)).trans (Cert.Mid.row128_apply (a11 m c) 0 jo)

/-- The node region's output array is the reference's node perceptron output. -/
theorem node_eq : (W4 m ρ c (Proc.devRef .tc main_v58) : S50000x128.Idx → EReal)
    = Cert.Spec.nodeMlp (F := Ideal)
        (Cert.Spec.nodeFeat (F := Ideal) (a0 m c) (meanR m c) (m2R m c) (m3R m c) (m4R m c) (a3 m c))
        (a8 m c) (a9 m c) (a10 m c) (a11 m c) := by
  refine (W4_arr m ρ c 11).trans ?_
  funext i
  obtain ⟨s, j, rfl⟩ : ∃ (s : Fin 50000) (j : Fin 128), i = ix2 s j := ⟨i 0, i 1, eq_ix2 i⟩
  exact node_apply m ρ c s j

theorem keep4 (b : Ref sig .tc) (hb1 : ∀ w, Pipeline.arrRef spec1 w ≠ b) (hb : ∀ w, Pipeline.arrRef spec0 w ≠ b)
    (h1 : ∀ W : Valuation τ sig (Elt Ideal), after hostOps1 W (Proc.devRef .tc b) = W (Proc.devRef .tc b))
    (h0 : ∀ W : Valuation τ sig (Elt Ideal), after hostOps0 W (Proc.devRef .tc b) = W (Proc.devRef .tc b)) :
    W4 m ρ c (Proc.devRef .tc b) = m ((c : Thread nD τ).loc b) :=
  (W4_of_ne m ρ c b hb1).trans (keep3 m ρ c b hb h1 h0)

/-- The kernel program's result is the reference's function of the launch arguments. -/
theorem value : (W5 m ρ c (Proc.devRef .tc main_v83) : S50000x128.Idx → EReal)
    = Cert.Spec.out (F := Ideal) (a0 m c) (a1 m c) (a2 m c) (a3 m c) (a4 m c) (a5 m c) (a6 m c) (a7 m c) (a8 m c) (a9 m c)
        (a10 m c) (a11 m c) (a12 m c) (a13 m c) (a14 m c) :=
  (Cert.KernelIdeal.KHost.h2_v83 (W4 m ρ c)).trans
    ((congr (congr (congrArg (Cert.KSpec.bn (F := Ideal)) (node_eq m ρ c))
        (keep4 m ρ c main_arg12 (by decide) (by decide) Cert.KernelIdeal.KHost.h1_arg12 Cert.KernelIdeal.KHost.h0_arg12))
        (keep4 m ρ c main_arg13 (by decide) (by decide) Cert.KernelIdeal.KHost.h1_arg13 Cert.KernelIdeal.KHost.h0_arg13)).trans
      (Cert.Mid.bn_eq _ _ _))

end Cert.KNode

end
-- ==== Proof.lean ====
import proofs.«155120_j26276609917535_2_alg».proof.Defs
import proofs.«155120_j26276609917535_2_alg».proof.Proof.Gen.Kernel
import proofs.«155120_j26276609917535_2_alg».proof.Proof.Gen.Kernel.Frame
import proofs.«155120_j26276609917535_2_alg».proof.Proof.Gen.KernelIdeal
import proofs.«155120_j26276609917535_2_alg».proof.Proof.Gen.KernelIdeal.Frame
import proofs.«155120_j26276609917535_2_alg».proof.Proof.Gen.ReferenceIdeal
import proofs.«155120_j26276609917535_2_alg».proof.Proof.Gen.Pre_finite_inputs
import proofs.«155120_j26276609917535_2_alg».proof.Proof.RefRun
import proofs.«155120_j26276609917535_2_alg».proof.Proof.RefRead
import proofs.«155120_j26276609917535_2_alg».proof.Proof.KRun
import proofs.«155120_j26276609917535_2_alg».proof.Proof.KNode

/-!
# The certificate of a message-passing layer against its reference

The layer: each edge's message is a two-layer perceptron of its target node's features beside the edge's own;
each node takes the mean, the variance, the skewness and the kurtosis of its incoming messages (the counts clamped
below by one, the infinities clamped to the largest finite numbers), lays them beside its own features and the
global ones, and applies a second two-layer perceptron; the node outputs are batch-normalised.

The kernel program computes the two perceptrons in two blocked regions (row blocks of the edges, then of the nodes),
with the aggregations, the gathers and the normalisation on the host between and after them; the reference is one
straight line of host operations. On the extended reals the two are the same function of the arguments: a matrix
product is the same finite sum whatever its tiling and whether a weight matrix is transposed beforehand; two arrays
aggregated side by side in one pass and cut apart are the two aggregates; dividing an aggregate by the count inside
the node region or before it is the same quotient; the reference's fourth power (s·s)·(s·s) is the region's
((s·s)·s)·s by associativity. No other law is used, and none needs finiteness, so the precondition is not opened.

The three programs' runs: the kernel's and the idealised kernel's frames are the generated ones; the reference's run
is its list of operations run in order; the idealised kernel's run with its result named is the generated frame's
argument with the result array read off the last boundary's contents.
-/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs, and every argument array is read back unchanged through its operations. -/
theorem frame_ri : Cert.frame_ReferenceIdeal := fun m ρ _ =>
  (θ_run Cert.ReferenceIdeal.defs _ _).mono (fun _ h c =>
      ⟨(h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _),
        (h c Cert.ReferenceIdeal.main_arg5).trans (Cert.ReferenceIdeal.RefRun.arg5_eq _),
        (h c Cert.ReferenceIdeal.main_arg6).trans (Cert.ReferenceIdeal.RefRun.arg6_eq _),
        (h c Cert.ReferenceIdeal.main_arg7).trans (Cert.ReferenceIdeal.RefRun.arg7_eq _),
        (h c Cert.ReferenceIdeal.main_arg8).trans (Cert.ReferenceIdeal.RefRun.arg8_eq _),
        (h c Cert.ReferenceIdeal.main_arg9).trans (Cert.ReferenceIdeal.RefRun.arg9_eq _),
        (h c Cert.ReferenceIdeal.main_arg10).trans (Cert.ReferenceIdeal.RefRun.arg10_eq _),
        (h c Cert.ReferenceIdeal.main_arg11).trans (Cert.ReferenceIdeal.RefRun.arg11_eq _),
        (h c Cert.ReferenceIdeal.main_arg12).trans (Cert.ReferenceIdeal.RefRun.arg12_eq _),
        (h c Cert.ReferenceIdeal.main_arg13).trans (Cert.ReferenceIdeal.RefRun.arg13_eq _),
        (h c Cert.ReferenceIdeal.main_arg14).trans (Cert.ReferenceIdeal.RefRun.arg14_eq _)⟩)
    (Cert.ReferenceIdeal.RefRun.run_main (F := Ideal) m ρ)

/-- The ideal pass rewrote nothing. -/
theorem preserves : Cert.preserves_Kernel_KernelIdeal := trivial

/-- Both programs end at the reference's function of the (agreeing) arguments. -/
theorem algebraic : Cert.algebraic_KernelIdeal_ReferenceIdeal := by
  intro m ρ m' ρ' _ hagree
  refine ⟨fun c => Cert.Spec.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)), ?_, ?_⟩
  · exact (θ_run Cert.KernelIdeal.defs _ _).mono (fun _ h c => ⟨(h c).1.trans (Cert.KNode.value m ρ c), (h c).2⟩)
      (Cert.KernelIdeal.KRun.run_val (F := Ideal) m ρ)
  · refine (θ_run Cert.ReferenceIdeal.defs _ _).mono (fun _ h c => ?_)
      (Cert.ReferenceIdeal.RefRun.run_main (F := Ideal) m' ρ')
    obtain ⟨h0, h1, h2, h3, h4, h5, h6, h7, h8, h9, h10, h11, h12, h13, h14⟩ := hagree c
    have e : Cert.Spec.out (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        = Cert.Spec.out (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)) := by
      rw [h0, h1, h2, h3, h4, h5, h6, h7, h8, h9, h10, h11, h12, h13, h14]
    exact ⟨((h c Cert.ReferenceIdeal.main_v122).trans (Cert.ReferenceIdeal.RefRead.out_eq _)).trans e,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _),
        (h c Cert.ReferenceIdeal.main_arg5).trans (Cert.ReferenceIdeal.RefRun.arg5_eq _),
        (h c Cert.ReferenceIdeal.main_arg6).trans (Cert.ReferenceIdeal.RefRun.arg6_eq _),
        (h c Cert.ReferenceIdeal.main_arg7).trans (Cert.ReferenceIdeal.RefRun.arg7_eq _),
        (h c Cert.ReferenceIdeal.main_arg8).trans (Cert.ReferenceIdeal.RefRun.arg8_eq _),
        (h c Cert.ReferenceIdeal.main_arg9).trans (Cert.ReferenceIdeal.RefRun.arg9_eq _),
        (h c Cert.ReferenceIdeal.main_arg10).trans (Cert.ReferenceIdeal.RefRun.arg10_eq _),
        (h c Cert.ReferenceIdeal.main_arg11).trans (Cert.ReferenceIdeal.RefRun.arg11_eq _),
        (h c Cert.ReferenceIdeal.main_arg12).trans (Cert.ReferenceIdeal.RefRun.arg12_eq _),
        (h c Cert.ReferenceIdeal.main_arg13).trans (Cert.ReferenceIdeal.RefRun.arg13_eq _),
        (h c Cert.ReferenceIdeal.main_arg14).trans (Cert.ReferenceIdeal.RefRun.arg14_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
